-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S512x64 : Shape := ⟨2, ![512, 64]⟩
abbrev S64 : Shape := ⟨1, ![64]⟩
abbrev S4x32 : Shape := ⟨2, ![4, 32]⟩
abbrev S14x32x4x32 : Shape := ⟨4, ![14, 32, 4, 32]⟩
abbrev S32x4 : Shape := ⟨2, ![32, 4]⟩
abbrev S32x64 : Shape := ⟨2, ![32, 64]⟩
abbrev S64x1 : Shape := ⟨2, ![64, 1]⟩
abbrev S1 : Shape := ⟨1, ![1]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S4x32 : S_.BroadcastsInDim S4x32 (![] : Fin 0 → Fin S4x32.rank)
  reducesTo_S4x32_S_d0_1 : S4x32.ReducesTo [0, 1] S_
  bcast_S_S14x32x4x32 : S_.BroadcastsInDim S14x32x4x32 (![] : Fin 0 → Fin S14x32x4x32.rank)
  reducesTo_S14x32x4x32_S_d0_1_2_3 : S14x32x4x32.ReducesTo [0, 1, 2, 3] S_
  bcast_S_S32x4 : S_.BroadcastsInDim S32x4 (![] : Fin 0 → Fin S32x4.rank)
  reducesTo_S32x4_S_d0_1 : S32x4.ReducesTo [0, 1] S_
  bcast_S_S32x64 : S_.BroadcastsInDim S32x64 (![] : Fin 0 → Fin S32x64.rank)
  reducesTo_S32x64_S_d0_1 : S32x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S32x4 .f32) (main_arg8 : FVec F S32x64 .f32) (main_arg9 : FVec F S64 .f32) (main_arg10 : FVec F S64x1 .f32) (main_arg11 : FVec F S1 .f32) (main_v33 : IVec S_ 1) : IVec S_ 1 :=
  let main_v34 : FVec F S32x4 .f32 := Host.absf main_arg7
  let main_cst_12 : FVec F S_ .f32 := constant S_ .f32 0x7F800000#32
  let main_v35 : FVec F S32x4 .f32 := broadcastInDim S32x4 ![] bcast_S_S32x4 main_cst_12
  let main_v36 : IVec S32x4 1 := cmpf .olt main_v34 main_v35
  let main_c_13 : IVec S_ 1 := constantI S_ 1 1#1
  let main_v37 : IVec S_ 1 := (fun x v => Host.reduce IntOp.andi x v reducesTo_S32x4_S_d0_1 h_S_) main_v36 main_c_13
  let main_v38 : IVec S_ 1 := andi main_v33 main_v37
  let main_v39 : FVec F S32x64 .f32 := Host.absf main_arg8
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg10
  let main_cst_18 : FVec F S_ .f32 := constant S_ .f32 0x7F800000#32
  let main_v50 : FVec F S64x1 .f32 := broadcastInDim S64x1 ![] bcast_S_S64x1 main_cst_18
  fn_part3 (F := F) main_arg11 main_v48 main_v49 main_v50

def fn_part1 {F : FTy → Type} [FloatOps F] (main_arg4 : FVec F S64 .f32) (main_arg5 : FVec F S4x32 .f32) (main_arg6 : FVec F S14x32x4x32 .f32) (main_arg7 : FVec F S32x4 .f32) (main_arg8 : FVec F S32x64 .f32) (main_arg9 : FVec F S64 .f32) (main_arg10 : FVec F S64x1 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S4x32 .f32 := Host.absf main_arg5
  let main_cst_8 : FVec F S_ .f32 := constant S_ .f32 0x7F800000#32
  let main_v25 : FVec F S4x32 .f32 := broadcastInDim S4x32 ![] bcast_S_S4x32 main_cst_8
  let main_v26 : IVec S4x32 1 := cmpf .olt main_v24 main_v25
  let main_c_9 : IVec S_ 1 := constantI S_ 1 1#1
  let main_v27 : IVec S_ 1 := (fun x v => Host.reduce IntOp.andi x v reducesTo_S4x32_S_d0_1 h_S_) main_v26 main_c_9
  let main_v28 : IVec S_ 1 := andi main_v23 main_v27
  let main_v29 : FVec F S14x32x4x32 .f32 := Host.absf main_arg6
  let main_cst_10 : FVec F S_ .f32 := constant S_ .f32 0x7F800000#32
  let main_v30 : FVec F S14x32x4x32 .f32 := broadcastInDim S14x32x4x32 ![] bcast_S_S14x32x4x32 main_cst_10
  let main_v31 : IVec S14x32x4x32 1 := cmpf .olt main_v29 main_v30
  let main_c_11 : IVec S_ 1 := constantI S_ 1 1#1
  let main_v32 : IVec S_ 1 := (fun x v => Host.reduce IntOp.andi x v reducesTo_S14x32x4x32_S_d0_1_2_3 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S131072x512 .f32) (main_arg1 : FVec F S512x64 .f32) (main_arg2 : FVec F S64 .f32) (main_arg3 : FVec F S64 .f32) (main_arg4 : FVec F S64 .f32) (main_arg5 : FVec F S4x32 .f32) (main_arg6 : FVec F S14x32x4x32 .f32) (main_arg7 : FVec F S32x4 .f32) (main_arg8 : FVec F S32x64 .f32) (main_arg9 : FVec F S64 .f32) (main_arg10 : FVec F S64x1 .f32) (main_arg11 : FVec F S1 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S131072x512 : Shape := ⟨2, ![131072, 512]⟩
abbrev S512x64 : Shape := ⟨2, ![512, 64]⟩
abbrev S64 : Shape := ⟨1, ![64]⟩
abbrev S4x32 : Shape := ⟨2, ![4, 32]⟩
abbrev S14x32x4x32 : Shape := ⟨4, ![14, 32, 4, 32]⟩
abbrev S32x4 : Shape := ⟨2, ![32, 4]⟩
abbrev S32x64 : Shape := ⟨2, ![32, 64]⟩
abbrev S64x1 : Shape := ⟨2, ![64, 1]⟩
abbrev S1 : Shape := ⟨1, ![1]⟩
abbrev S1x64 : Shape := ⟨2, ![1, 64]⟩
abbrev S1x1 : Shape := ⟨2, ![1, 1]⟩
abbrev S1024x128 : Shape := ⟨2, ![1024, 128]⟩
abbrev S4096x512 : Shape := ⟨2, ![4096, 512]⟩
abbrev S32x128 : Shape := ⟨2, ![32, 128]⟩
abbrev S4096x64 : Shape := ⟨2, ![4096, 64]⟩
abbrev S4096 : Shape := ⟨1, ![4096]⟩
abbrev S4096x1 : Shape := ⟨2, ![4096, 1]⟩
abbrev S4096x4 : Shape := ⟨2, ![4096, 4]⟩
abbrev S4096x32 : Shape := ⟨2, ![4096, 32]⟩
abbrev S131072x1 : Shape := ⟨2, ![131072, 1]⟩

abbrev nBuf : Space → Nat
  | .hbm => 19
  | .vmem => 13
  | .smem => 0
  | _ => 0

abbrev bufTy : (tb : Table) → Fin (tcTables nBuf tb) → BufTy
  | .hbm, ⟨0, _⟩ => ⟨S131072x512, .f32⟩
  | .hbm, ⟨1, _⟩ => ⟨S512x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S4x32, .f32⟩
  | .hbm, ⟨6, _⟩ => ⟨S14x32x4x32, .f32⟩
  | .hbm, ⟨7, _⟩ => ⟨S32x4, .f32⟩
  | .hbm, ⟨8, _⟩ => ⟨S32x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S1x1, .f32⟩
  | .hbm, ⟨17, _⟩ => ⟨S1024x128, .f32⟩
  | .hbm, ⟨18, _⟩ => ⟨S131072x1, .f32⟩
  | .local _ .vmem, ⟨0, _⟩ => ⟨S4096x512, .f32⟩
  | .local _ .vmem, ⟨1, _⟩ => ⟨S4096x512, .f32⟩
  | .local _ .vmem, ⟨2, _⟩ => ⟨S512x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S4x32, .f32⟩
  | .local _ .vmem, ⟨7, _⟩ => ⟨S32x64, .f32⟩
  | .local _ .vmem, ⟨8, _⟩ => ⟨S1x64, .f32⟩
  | .local _ .vmem, ⟨9, _⟩ => ⟨S64x1, .f32⟩
  | .local _ .vmem, ⟨10, _⟩ => ⟨S1x1, .f32⟩
  | .local _ .vmem, ⟨11, _⟩ => ⟨S32x128, .f32⟩
  | .local _ .vmem, ⟨12, _⟩ => ⟨S32x128, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S32x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S64_S1x64 : S64.ShapeCasts S1x64
  shapeCasts_S1_S1x1 : S1.ShapeCasts S1x1
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  reduces_S4096x64_S4096 : S4096x64.Reduces [1] S4096
  shapeCasts_S4096_S4096x1 : S4096.ShapeCasts S4096x1
  broadcasts_S4096x1_S4096x64 : S4096x1.Broadcasts S4096x64
  slices_S4096x64_o0_0_S4096x4 : S4096x64.Slices ![0, 0] S4096x4
  inb_S4x32_S4x32_0_0 : ∀ a, (![0, 0] : Fin 2 → Nat) a + S4x32.size a ≤ S4x32.size a
  h_S4x32 : 0 < S4x32.numel
  inb_S32x64_S32x64_0_0 : ∀ a, (![0, 0] : Fin 2 → Nat) a + S32x64.size a ≤ S32x64.size a
  h_S32x64 : 0 < S32x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  shapeCasts_S4096x1_S32x128 : S4096x1.ShapeCasts S32x128
  inb_S32x128_S32x128_0_0 : ∀ a, (![0, 0] : Fin 2 → Nat) a + S32x128.size a ≤ S32x128.size a
  h_S32x128 : 0 < S32x128.numel
  shapeCasts_S1024x128_S131072x1 : S1024x128.ShapeCasts S131072x1
  dot_S4096x512_S512x64_S4096x64_1_0_0_1_n_n_wf : DotDims.WF S4096x512 S512x64 S4096x64 [1] [0] [0] [1] [] []
  dot_S4096x4_S4x32_S4096x32_1_0_0_1_n_n_wf : DotDims.WF S4096x4 S4x32 S4096x32 [1] [0] [0] [1] [] []
  dot_S4096x32_S32x64_S4096x64_1_0_0_1_n_n_wf : DotDims.WF S4096x32 S32x64 S4096x64 [1] [0] [0] [1] [] []
  dot_S4096x64_S64x1_S4096x1_1_0_0_1_n_n_wf : DotDims.WF S4096x64 S64x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x32.size a ≤ S4x32.size a
  hwx0_5 : ∀ i : grid0.Coords, EltTy.bits .f32 = 32 ∨ (Rect.block (s := S4x32) S4x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x64.size a ≤ S32x64.size a
  hwx0_6 : ∀ i : grid0.Coords, EltTy.bits .f32 = 32 ∨ (Rect.block (s := S32x64) S32x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1.size a ≤ S64x1.size a
  hwx0_8 : ∀ i : grid0.Coords, EltTy.bits .f32 = 32 ∨ (Rect.block (s := S64x1) S64x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S32x128.size a ≤ S1024x128.size a
  hwx0_10 : ∀ i : grid0.Coords, EltTy.bits .f32 = 32 ∨ (Rect.block (s := S1024x128) S32x128.size (cc0_transform_10 i) (hinb0_10 i)).WholeWords (EltTy.packing .f32)

variable [Facts₀]

def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf
def dot_S4096x4_S4x32_S4096x32_1_0_0_1_n_n : DotDims S4096x4 S4x32 S4096x32 where
  lhsContracting := [1]
  rhsContracting := [0]
  lhsNonContracting := [0]
  rhsNonContracting := [1]
  lhsBatch := []
  rhsBatch := []
  wf := dot_S4096x4_S4x32_S4096x32_1_0_0_1_n_n_wf
def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S32x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S64x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S32x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S131072x512 : Shape := ⟨2, ![131072, 512]⟩
abbrev S512x64 : Shape := ⟨2, ![512, 64]⟩
abbrev S64 : Shape := ⟨1, ![64]⟩
abbrev S4x32 : Shape := ⟨2, ![4, 32]⟩
abbrev S14x32x4x32 : Shape := ⟨4, ![14, 32, 4, 32]⟩
abbrev S32x4 : Shape := ⟨2, ![32, 4]⟩
abbrev S32x64 : Shape := ⟨2, ![32, 64]⟩
abbrev S64x1 : Shape := ⟨2, ![64, 1]⟩
abbrev S1 : Shape := ⟨1, ![1]⟩
abbrev S131072x64 : Shape := ⟨2, ![131072, 64]⟩
abbrev S1x64 : Shape := ⟨2, ![1, 64]⟩
abbrev S_ : Shape := ⟨0, ![]⟩
abbrev S131072 : Shape := ⟨1, ![131072]⟩
abbrev S131072x1 : Shape := ⟨2, ![131072, 1]⟩
abbrev S131072x16x4 : Shape := ⟨3, ![131072, 16, 4]⟩
abbrev S131072x1x4 : Shape := ⟨3, ![131072, 1, 4]⟩
abbrev S131072x4 : Shape := ⟨2, ![131072, 4]⟩
abbrev S131072x32 : Shape := ⟨2, ![131072, 32]⟩
abbrev S1x32x4x32 : Shape := ⟨4, ![1, 32, 4, 32]⟩
abbrev S32x4x32 : Shape := ⟨3, ![32, 4, 32]⟩
abbrev S131072x4x32 : Shape := ⟨3, ![131072, 4, 32]⟩
abbrev S1x1 : Shape := ⟨2, ![1, 1]⟩

abbrev nBuf : Space → Nat
  | .hbm => 177
  | .vmem => 0
  | .smem => 0
  | _ => 0

abbrev hbmTy0_0 (i : Nat) : BufTy := match i % 128 with
  | 0 => ⟨S131072x512, .f32⟩
  | 1 => ⟨S512x64, .f32⟩
  | 2 => ⟨S64, .f32⟩
  | 3 => ⟨S64, .f32⟩
  | 4 => ⟨S64, .f32⟩
  | 5 => ⟨S4x32, .f32⟩
  | 6 => ⟨S14x32x4x32, .f32⟩
  | 7 => ⟨S32x4, .f32⟩
  | 8 => ⟨S32x64, .f32⟩
  | 9 => ⟨S64, .f32⟩
  | 10 => ⟨S64x1, .f32⟩
  | 11 => ⟨S1, .f32⟩
  | 12 => ⟨S131072x64, .f32⟩
  | 13 => ⟨S1x64, .f32⟩
  | 14 => ⟨S131072x64, .f32⟩
  | 15 => ⟨S131072x64, .f32⟩
  | 16 => ⟨S_, .f32⟩
  | 17 => ⟨S131072x64, .f32⟩
  | 18 => ⟨S131072x64, .f32⟩
  | 19 => ⟨S_, .f32⟩
  | 20 => ⟨S131072, .f32⟩
  | 21 => ⟨S131072x1, .f32⟩
  | 22 => ⟨S_, .f32⟩
  | 23 => ⟨S131072x1, .f32⟩
  | 24 => ⟨S131072x1, .f32⟩
  | 25 => ⟨S_, .i32⟩
  | 26 => ⟨S_, .f32⟩
  | 27 => ⟨S131072, .f32⟩
  | 28 => ⟨S131072x1, .f32⟩
  | 29 => ⟨S_, .f32⟩
  | 30 => ⟨S131072x1, .f32⟩
  | 31 => ⟨S131072x1, .f32⟩
  | 32 => ⟨S131072x64, .f32⟩
  | 33 => ⟨S131072x64, .f32⟩
  | 34 => ⟨S131072x64, .f32⟩
  | 35 => ⟨S_, .f32⟩
  | 36 => ⟨S_, .f32⟩
  | 37 => ⟨S_, .f32⟩
  | 38 => ⟨S_, .f32⟩
  | 39 => ⟨S131072, .f32⟩
  | 40 => ⟨S131072x1, .f32⟩
  | 41 => ⟨S131072x1, .f32⟩
  | 42 => ⟨S131072x1, .f32⟩
  | 43 => ⟨S_, .f32⟩
  | 44 => ⟨S_, .i1⟩
  | 45 => ⟨S_, .f32⟩
  | 46 => ⟨S_, .f32⟩
  | 47 => ⟨S131072x1, .f32⟩
  | 48 => ⟨S131072x1, .f32⟩
  | 49 => ⟨S131072x64, .f32⟩
  | 50 => ⟨S131072x64, .f32⟩
  | 51 => ⟨S_, .f32⟩
  | 52 => ⟨S131072x1, .f32⟩
  | 53 => ⟨S131072x1, .f32⟩
  | 54 => ⟨S131072x1, .f32⟩
  | 55 => ⟨S131072x64, .f32⟩
  | 56 => ⟨S131072x64, .f32⟩
  | 57 => ⟨S1x64, .f32⟩
  | 58 => ⟨S131072x64, .f32⟩
  | 59 => ⟨S131072x64, .f32⟩
  | 60 => ⟨S1x64, .f32⟩
  | 61 => ⟨S131072x64, .f32⟩
  | 62 => ⟨S131072x64, .f32⟩
  | 63 => ⟨S131072x16x4, .f32⟩
  | 64 => ⟨S131072x1x4, .f32⟩
  | 65 => ⟨S131072x4, .f32⟩
  | 66 => ⟨S131072x32, .f32⟩
  | 67 => ⟨S1x32x4x32, .f32⟩
  | 68 => ⟨S32x4x32, .f32⟩
  | 69 => ⟨S131072x4x32, .f32⟩
  | 70 => ⟨S131072x1x4, .f32⟩
  | 71 => ⟨S131072x4, .f32⟩
  | 72 => ⟨S131072x32, .f32⟩
  | 73 => ⟨S1x32x4x32, .f32⟩
  | 74 => ⟨S32x4x32, .f32⟩
  | 75 => ⟨S131072x4x32, .f32⟩
  | 76 => ⟨S131072x1x4, .f32⟩
  | 77 => ⟨S131072x4, .f32⟩
  | 78 => ⟨S131072x32, .f32⟩
  | 79 => ⟨S1x32x4x32, .f32⟩
  | 80 => ⟨S32x4x32, .f32⟩
  | 81 => ⟨S131072x4x32, .f32⟩
  | 82 => ⟨S131072x1x4, .f32⟩
  | 83 => ⟨S131072x4, .f32⟩
  | 84 => ⟨S131072x32, .f32⟩
  | 85 => ⟨S1x32x4x32, .f32⟩
  | 86 => ⟨S32x4x32, .f32⟩
  | 87 => ⟨S131072x4x32, .f32⟩
  | 88 => ⟨S131072x1x4, .f32⟩
  | 89 => ⟨S131072x4, .f32⟩
  | 90 => ⟨S131072x32, .f32⟩
  | 91 => ⟨S1x32x4x32, .f32⟩
  | 92 => ⟨S32x4x32, .f32⟩
  | 93 => ⟨S131072x4x32, .f32⟩
  | 94 => ⟨S131072x1x4, .f32⟩
  | 95 => ⟨S131072x4, .f32⟩
  | 96 => ⟨S131072x32, .f32⟩
  | 97 => ⟨S1x32x4x32, .f32⟩
  | 98 => ⟨S32x4x32, .f32⟩
  | 99 => ⟨S131072x4x32, .f32⟩
  | 100 => ⟨S131072x1x4, .f32⟩
  | 101 => ⟨S131072x4, .f32⟩
  | 102 => ⟨S131072x32, .f32⟩
  | 103 => ⟨S1x32x4x32, .f32⟩
  | 104 => ⟨S32x4x32, .f32⟩
  | 105 => ⟨S131072x4x32, .f32⟩
  | 106 => ⟨S131072x1x4, .f32⟩
  | 107 => ⟨S131072x4, .f32⟩
  | 108 => ⟨S131072x32, .f32⟩
  | 109 => ⟨S1x32x4x32, .f32⟩
  | 110 => ⟨S32x4x32, .f32⟩
  | 111 => ⟨S131072x4x32, .f32⟩
  | 112 => ⟨S131072x1x4, .f32⟩
  | 113 => ⟨S131072x4, .f32⟩
  | 114 => ⟨S131072x32, .f32⟩
  | 115 => ⟨S1x32x4x32, .f32⟩
  | 116 => ⟨S32x4x32, .f32⟩
  | 117 => ⟨S131072x4x32, .f32⟩
  | 118 => ⟨S131072x1x4, .f32⟩
  | 119 => ⟨S131072x4, .f32⟩
  | 120 => ⟨S131072x32, .f32⟩
  | 121 => ⟨S1x32x4x32, .f32⟩
  | 122 => ⟨S32x4x32, .f32⟩
  | 123 => ⟨S131072x4x32, .f32⟩
  | 124 => ⟨S131072x1x4, .f32⟩
  | 125 => ⟨S131072x4, .f32⟩
  | 126 => ⟨S131072x32, .f32⟩
  | 127 => ⟨S1x32x4x32, .f32⟩
  | _ => ⟨S131072x512, .f32⟩

abbrev hbmTy0_1 (i : Nat) : BufTy := match i % 128 with
  | 0 => ⟨S32x4x32, .f32⟩
  | 1 => ⟨S131072x4x32, .f32⟩
  | 2 => ⟨S131072x1x4, .f32⟩
  | 3 => ⟨S131072x4, .f32⟩
  | 4 => ⟨S131072x32, .f32⟩
  | 5 => ⟨S1x32x4x32, .f32⟩
  | 6 => ⟨S32x4x32, .f32⟩
  | 7 => ⟨S131072x4x32, .f32⟩
  | 8 => ⟨S131072x1x4, .f32⟩
  | 9 => ⟨S131072x4, .f32⟩
  | 10 => ⟨S131072x32, .f32⟩
  | 11 => ⟨S1x32x4x32, .f32⟩
  | 12 => ⟨S32x4x32, .f32⟩
  | 13 => ⟨S131072x4x32, .f32⟩
  | 14 => ⟨S131072x1x4, .f32⟩
  | 15 => ⟨S131072x4, .f32⟩
  | 16 => ⟨S131072x32, .f32⟩
  | 17 => ⟨S1x32x4x32, .f32⟩
  | 18 => ⟨S32x4x32, .f32⟩
  | 19 => ⟨S131072x4x32, .f32⟩
  | 20 => ⟨S131072x1x4, .f32⟩
  | 21 => ⟨S131072x4, .f32⟩
  | 22 => ⟨S131072x32, .f32⟩
  | 23 => ⟨S131072x4, .f32⟩
  | 24 => ⟨S131072x1x4, .f32⟩
  | 25 => ⟨S131072x4, .f32⟩
  | 26 => ⟨S131072x4, .f32⟩
  | 27 => ⟨S_, .f32⟩
  | 28 => ⟨S131072, .f32⟩
  | 29 => ⟨S131072x1, .f32⟩
  | 30 => ⟨S131072x64, .f32⟩
  | 31 => ⟨S1x64, .f32⟩
  | 32 => ⟨S131072x64, .f32⟩
  | 33 => ⟨S131072x64, .f32⟩
  | 34 => ⟨S_, .f32⟩
  | 35 => ⟨S131072x64, .f32⟩
  | 36 => ⟨S131072x64, .f32⟩
  | 37 => ⟨S131072x1, .f32⟩
  | 38 => ⟨S1x1, .f32⟩
  | 39 => ⟨S131072x1, .f32⟩
  | 40 => ⟨S131072x1, .f32⟩
  | 41 => ⟨S131072x1, .f32⟩
  | 42 => ⟨S131072x1, .f32⟩
  | 43 => ⟨S_, .f32⟩
  | 44 => ⟨S131072x1, .f32⟩
  | 45 => ⟨S131072x1, .f32⟩
  | 46 => ⟨S_, .f32⟩
  | 47 => ⟨S131072x1, .f32⟩
  | 48 => ⟨S131072x1, .f32⟩
  | _ => ⟨S131072x512, .f32⟩

abbrev hbmTy (i : Nat) : BufTy := match i / 128 with
  | 0 => hbmTy0_0 i
  | 1 => hbmTy0_1 i
  | _ => ⟨S131072x512, .f32⟩

abbrev bufTy : (tb : Table) → Fin (tcTables nBuf tb) → BufTy
  | .hbm, ⟨i, _⟩ => hbmTy i
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_call1_cst : Ref sig .tc := ⟨.hbm, 26, rfl⟩
abbrev main_call1_v0 : Ref sig .tc := ⟨.hbm, 27, rfl⟩
abbrev main_call1_v1 : Ref sig .tc := ⟨.hbm, 28, rfl⟩
abbrev main_call1_cst_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_cst_1 : Ref sig .tc := ⟨.hbm, 36, rfl⟩
abbrev main_call1_v8 : Ref sig .tc := ⟨.hbm, 37, rfl⟩
abbrev main_call1_cst_2 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_cst_3 : Ref sig .tc := ⟨.hbm, 43, rfl⟩
abbrev main_call1_v13 : Ref sig .tc := ⟨.hbm, 44, rfl⟩
abbrev main_call1_cst_4 : Ref sig .tc := ⟨.hbm, 45, rfl⟩
abbrev main_call1_call0_v0 : Ref sig .tc := ⟨.hbm, 46, rfl⟩
abbrev main_call1_call0_v1 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_2 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_call2_cst : Ref sig .tc := ⟨.hbm, 162, rfl⟩
abbrev main_call2_v0 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_3 : Ref sig .tc := ⟨.hbm, 171, rfl⟩
abbrev main_v128 : Ref sig .tc := ⟨.hbm, 172, rfl⟩
abbrev main_v129 : Ref sig .tc := ⟨.hbm, 173, rfl⟩
abbrev main_cst_4 : Ref sig .tc := ⟨.hbm, 174, rfl⟩
abbrev main_v130 : Ref sig .tc := ⟨.hbm, 175, rfl⟩
abbrev main_v131 : Ref sig .tc := ⟨.hbm, 176, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  reducesTo_S131072x64_S131072_d1 : S131072x64.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x64_0_1 : S131072x1.BroadcastsInDim S131072x64 (![0, 1] : Fin 2 → Fin S131072x64.rank)
  shapeCasts_S131072x64_S131072x16x4 : S131072x64.ShapeCasts S131072x16x4
  slices_S131072x16x4_S131072x1x4_0_0_0 : S131072x16x4.Slices ![0, 0, 0] S131072x1x4
  shapeCasts_S131072x1x4_S131072x4 : S131072x1x4.ShapeCasts S131072x4
  slices_S14x32x4x32_S1x32x4x32_0_0_0_0 : S14x32x4x32.Slices ![0, 0, 0, 0] S1x32x4x32
  shapeCasts_S1x32x4x32_S32x4x32 : S1x32x4x32.ShapeCasts S32x4x32
  slices_S131072x16x4_S131072x1x4_0_1_0 : S131072x16x4.Slices ![0, 1, 0] S131072x1x4
  slices_S14x32x4x32_S1x32x4x32_1_0_0_0 : S14x32x4x32.Slices ![1, 0, 0, 0] S1x32x4x32
  slices_S131072x16x4_S131072x1x4_0_2_0 : S131072x16x4.Slices ![0, 2, 0] S131072x1x4
  slices_S14x32x4x32_S1x32x4x32_2_0_0_0 : S14x32x4x32.Slices ![2, 0, 0, 0] S1x32x4x32
  slices_S131072x16x4_S131072x1x4_0_3_0 : S131072x16x4.Slices ![0, 3, 0] S131072x1x4
  slices_S14x32x4x32_S1x32x4x32_3_0_0_0 : S14x32x4x32.Slices ![3, 0, 0, 0] S1x32x4x32
  slices_S131072x16x4_S131072x1x4_0_4_0 : S131072x16x4.Slices ![0, 4, 0] S131072x1x4
  slices_S14x32x4x32_S1x32x4x32_4_0_0_0 : S14x32x4x32.Slices ![4, 0, 0, 0] S1x32x4x32
  slices_S131072x16x4_S131072x1x4_0_5_0 : S131072x16x4.Slices ![0, 5, 0] S131072x1x4
  slices_S14x32x4x32_S1x32x4x32_5_0_0_0 : S14x32x4x32.Slices ![5, 0, 0, 0] S1x32x4x32
  slices_S131072x16x4_S131072x1x4_0_6_0 : S131072x16x4.Slices ![0, 6, 0] S131072x1x4
  slices_S14x32x4x32_S1x32x4x32_6_0_0_0 : S14x32x4x32.Slices ![6, 0, 0, 0] S1x32x4x32
  slices_S131072x16x4_S131072x1x4_0_7_0 : S131072x16x4.Slices ![0, 7, 0] S131072x1x4
  slices_S14x32x4x32_S1x32x4x32_7_0_0_0 : S14x32x4x32.Slices ![7, 0, 0, 0] S1x32x4x32
  slices_S131072x16x4_S131072x1x4_0_8_0 : S131072x16x4.Slices ![0, 8, 0] S131072x1x4
  slices_S14x32x4x32_S1x32x4x32_8_0_0_0 : S14x32x4x32.Slices ![8, 0, 0, 0] S1x32x4x32
  slices_S131072x16x4_S131072x1x4_0_9_0 : S131072x16x4.Slices ![0, 9, 0] S131072x1x4
  slices_S14x32x4x32_S1x32x4x32_9_0_0_0 : S14x32x4x32.Slices ![9, 0, 0, 0] S1x32x4x32
  slices_S131072x16x4_S131072x1x4_0_10_0 : S131072x16x4.Slices ![0, 10, 0] S131072x1x4
  slices_S14x32x4x32_S1x32x4x32_10_0_0_0 : S14x32x4x32.Slices ![10, 0, 0, 0] S1x32x4x32
  slices_S131072x16x4_S131072x1x4_0_11_0 : S131072x16x4.Slices ![0, 11, 0] S131072x1x4
  slices_S14x32x4x32_S1x32x4x32_11_0_0_0 : S14x32x4x32.Slices ![11, 0, 0, 0] S1x32x4x32
  slices_S131072x16x4_S131072x1x4_0_12_0 : S131072x16x4.Slices ![0, 12, 0] S131072x1x4
  slices_S14x32x4x32_S1x32x4x32_12_0_0_0 : S14x32x4x32.Slices ![12, 0, 0, 0] S1x32x4x32
  slices_S131072x16x4_S131072x1x4_0_13_0 : S131072x16x4.Slices ![0, 13, 0] S131072x1x4
  slices_S14x32x4x32_S1x32x4x32_13_0_0_0 : S14x32x4x32.Slices ![13, 0, 0, 0] S1x32x4x32
  slices_S131072x16x4_S131072x1x4_0_14_0 : S131072x16x4.Slices ![0, 14, 0] S131072x1x4
  slices_S131072x16x4_S131072x1x4_0_15_0 : S131072x16x4.Slices ![0, 15, 0] S131072x1x4
  reducesTo_S131072x4_S131072_d1 : S131072x4.ReducesTo [1] S131072
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  dot_S131072x512_S512x64_S131072x64_1_0_0_1_n_n_wf : DotDims.WF S131072x512 S512x64 S131072x64 [1] [0] [0] [1] [] []
  dot_S131072x4_S4x32_S131072x32_1_0_0_1_n_n_wf : DotDims.WF S131072x4 S4x32 S131072x32 [1] [0] [0] [1] [] []
  dot_S131072x32_S32x4x32_S131072x4x32_1_0_0_12_n_n_wf : DotDims.WF S131072x32 S32x4x32 S131072x4x32 [1] [0] [0] [1, 2] [] []
  dot_S131072x4x32_S131072x4_S131072x32_1_1_2_n_0_0_wf : DotDims.WF S131072x4x32 S131072x4 S131072x32 [1] [1] [2] [] [0] [0]
  dot_S131072x32_S32x4_S131072x4_1_0_0_1_n_n_wf : DotDims.WF S131072x32 S32x4 S131072x4 [1] [0] [0] [1] [] []
  dot_S131072x32_S32x64_S131072x64_1_0_0_1_n_n_wf : DotDims.WF S131072x32 S32x64 S131072x64 [1] [0] [0] [1] [] []
  dot_S131072x64_S64x1_S131072x1_1_0_0_1_n_n_wf : DotDims.WF S131072x64 S64x1 S131072x1 [1] [0] [0] [1] [] []

variable [Facts₀]

def dot_S131072x512_S512x64_S131072x64_1_0_0_1_n_n : DotDims S131072x512 S512x64 S131072x64 where
  lhsContracting := [1]
  rhsContracting := [0]
  lhsNonContracting := [0]
  rhsNonContracting := [1]
  lhsBatch := []
  rhsBatch := []
  wf := dot_S131072x512_S512x64_S131072x64_1_0_0_1_n_n_wf
def dot_S131072x4_S4x32_S131072x32_1_0_0_1_n_n : DotDims S131072x4 S4x32 S131072x32 where
  lhsContracting := [1]
  rhsContracting := [0]
  lhsNonContracting := [0]
  rhsNonContracting := [1]
  lhsBatch := []
  rhsBatch := []
  wf := dot_S131072x4_S4x32_S131072x32_1_0_0_1_n_n_wf
def dot_S131072x32_S32x4x32_S131072x4x32_1_0_0_12_n_n : DotDims S131072x32 S32x4x32 S131072x4x32 where
  lhsContracting := [1]
  rhsContracting := [0]
  lhsNonContracting := [0]
  rhsNonContracting := [1, 2]
  lhsBatch := []
  rhsBatch := []
  wf := dot_S131072x32_S32x4x32_S131072x4x32_1_0_0_12_n_n_wf
def dot_S131072x4x32_S131072x4_S131072x32_1_1_2_n_0_0 : DotDims S131072x4x32 S131072x4 S131072x32 where
  lhsContracting := [1]
  rhsContracting := [1]
  lhsNonContracting := [2]
  rhsNonContracting := []
  lhsBatch := [0]
  rhsBatch := [0]
  wf := dot_S131072x4x32_S131072x4_S131072x32_1_1_2_n_0_0_wf
def dot_S131072x32_S32x4_S131072x4_1_0_0_1_n_n : DotDims S131072x32 S32x4 S131072x4 where
  lhsContracting := [1]
  rhsContracting := [0]
  lhsNonContracting := [0]
  rhsNonContracting := [1]
  lhsBatch := []
  rhsBatch := []
  wf := dot_S131072x32_S32x4_S131072x4_1_0_0_1_n_n_wf
def dot_S131072x32_S32x64_S131072x64_1_0_0_1_n_n : DotDims S131072x32 S32x64 S131072x64 where
  lhsContracting := [1]
  rhsContracting := [0]
  lhsNonContracting := [0]
  rhsNonContracting := [1]
  lhsBatch := []
  rhsBatch := []
  wf := dot_S131072x32_S32x64_S131072x64_1_0_0_1_n_n_wf
def dot_S131072x64_S64x1_S131072x1_1_0_0_1_n_n : DotDims S131072x64 S64x1 S131072x1 where
  lhsContracting := [1]
  rhsContracting := [0]
  lhsNonContracting := [0]
  rhsNonContracting := [1]
  lhsBatch := []
  rhsBatch := []
  wf := dot_S131072x64_S64x1_S131072x1_1_0_0_1_n_n_wf

class Facts : Prop extends Facts₀ where

variable [Facts]
-- ==== Proof.Spec.lean ====
/-
  The function both programs compute, one batch row at a time, on the extended reals.

  A row `x` of 512 features goes through a linear layer with rectification (`hid`: 64 hidden values
  `max (∑ k, x k · W k j + b j) 0`), a normalisation of the 64 hidden values by their mean and biased variance
  (`mean`, `var`), an affine map of the normalised values, a contraction of the first four normalised values with a
  4×32 table, a second rectified linear layer to 64 values, a last linear layer to one value, and the logistic
  function (`head`). The two programs differ in one place only: one multiplies the centred value by the reciprocal
  square root of `var + ε` (`normMul`), the other divides it by the square root of `var + ε` (`normDiv`). When the
  hidden values are real numbers, `var + ε` is a positive real and the two agree (`normMul_eq_normDiv`), hence so do
  the two row functions (`rowMul_eq_rowDiv`). Float constants stay the words the programs print; only the values of
  zero, 64 and ε are ever needed, and of ε only that it is a positive real.
-/
import Mathlib.Data.EReal.Basic
import Mathlib.Data.EReal.Operations
import Mathlib.Algebra.BigOperators.Fin
import Mathlib.Tactic.Positivity
import Mathlib.Tactic.Linarith
import Idealize.ShloMosaic.PureOps.Ideal

noncomputable section

namespace Cert.Mps

open Idealize.ShloMosaic

/-- The f32 word of zero, 64 and of the normalisation's ε (about 1e-5), read as extended reals. -/
abbrev zero : EReal := Ideal.ofBits .f32 0x00000000#32
abbrev c64 : EReal := Ideal.ofBits .f32 0x42800000#32
abbrev eps : EReal := Ideal.ofBits .f32 0x3727C5AC#32

/-- The 64 hidden values of a row: `max (∑ k, x k · W k j + b j) 0`. -/
def hid (x : Fin 512 → EReal) (W : Fin 512 → Fin 64 → EReal) (b : Fin 64 → EReal) (j : Fin 64) : EReal :=
  max ((∑ k : Fin 512, x k * W k j) + b j) zero

/-- The mean of 64 values, as the quotient of their sum by 64. -/
def mean (h : Fin 64 → EReal) : EReal := Ideal.div (∑ j : Fin 64, h j) c64

/-- Their biased variance: the quotient by 64 of the sum of the squared deviations from the mean. -/
def var (h : Fin 64 → EReal) : EReal := Ideal.div (∑ j : Fin 64, (h j - mean h) * (h j - mean h)) c64

/-- Normalised value `j`, by the reciprocal square root: `(h j − mean) · rsqrt (var + ε) · g j + β j`. -/
def normMul (h : Fin 64 → EReal) (g β : Fin 64 → EReal) (j : Fin 64) : EReal :=
  (h j - mean h) * Ideal.rsqrt (var h + eps) * g j + β j

/-- Normalised value `j`, by the quotient: `(h j − mean) / sqrt (var + ε) · g j + β j`. -/
def normDiv (h : Fin 64 → EReal) (g β : Fin 64 → EReal) (j : Fin 64) : EReal :=
  Ideal.div (h j - mean h) (Ideal.sqrt (var h + eps)) * g j + β j

/-- What follows the normalisation: four values `e` contracted with a 4×32 table, a rectified linear layer to 64 values,
    a linear layer to one value, the logistic function. -/
def head (e : Fin 4 → EReal) (T : Fin 4 → Fin 32 → EReal) (W1 : Fin 32 → Fin 64 → EReal) (b1 : Fin 64 → EReal)
    (W2 : Fin 64 → EReal) (b2 : EReal) : EReal :=
  Ideal.logistic ((∑ j : Fin 64,
      max ((∑ q : Fin 32, (∑ p : Fin 4, e p * T p q) * W1 q j) + b1 j) zero * W2 j) + b2)

/-- The first four of 64 positions. -/
abbrev first4 (p : Fin 4) : Fin 64 := Fin.castLE (by decide) p

/-- A row's result, the normalisation by the reciprocal square root. -/
def rowMul (x : Fin 512 → EReal) (W : Fin 512 → Fin 64 → EReal) (b g β : Fin 64 → EReal) (T : Fin 4 → Fin 32 → EReal)
    (W1 : Fin 32 → Fin 64 → EReal) (b1 : Fin 64 → EReal) (W2 : Fin 64 → EReal) (b2 : EReal) : EReal :=
  head (fun p => normMul (hid x W b) g β (first4 p)) T W1 b1 W2 b2

/-- A row's result, the normalisation by the quotient. -/
def rowDiv (x : Fin 512 → EReal) (W : Fin 512 → Fin 64 → EReal) (b g β : Fin 64 → EReal) (T : Fin 4 → Fin 32 → EReal)
    (W1 : Fin 32 → Fin 64 → EReal) (b1 : Fin 64 → EReal) (W2 : Fin 64 → EReal) (b2 : EReal) : EReal :=
  head (fun p => normDiv (hid x W b) g β (first4 p)) T W1 b1 W2 b2

end Cert.Mps

end
-- ==== Proof.KernelValue.lean ====
/-
  The kernel program's result array, read off its run.

  The launch walks 32 grid points; point `t` stages rows `4096·t … 4096·t + 4095` of the features and the whole of
  every other operand, and writes back block `t` (32 rows of 128 lanes) of the 1024×128 output. Entry `(a, l)` of that
  block is the body's value for row `128·a + l` of the staged features, so entry `(A, l)` of the output array is the row
  function at features row `128·A + l` (`G`); the blocks cover the array. The host line after the launch recasts the
  1024×128 array as 131072×1, which puts row `r`'s value at `(r, 0)`; the host lines before it recast the bias, gain and
  shift vectors as one-row arrays.
-/
import proofs.«160124_j55654186221891_2_alg».proof.Proof.Gen.KernelIdeal.Frame
import proofs.«160124_j55654186221891_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal

noncomputable section

namespace Cert.KernelIdeal.Hand

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The body's stored value at `(a, l)` of its 32×128 block is the row function at row `128·a + l` of the staged
    features block (proved in its own module, cited here as a hypothesis). -/
def PayLaw : Prop :=
  ∀ (x0 : Vec Ideal S4096x512 .f32) (x1 : Vec Ideal S512x64 .f32) (x2 x3 x4 : Vec Ideal S1x64 .f32) (x5 : Vec Ideal S4x32 .f32)
    (x6 : Vec Ideal S32x64 .f32) (x7 : Vec Ideal S1x64 .f32) (x8 : Vec Ideal S64x1 .f32) (x9 : Vec Ideal S1x1 .f32) (a : Fin 32) (l : Fin 128),
    k0_pay1 (F := Ideal) (k0_pay2 (F := Ideal) x0 x1 x2 x3 x4) x5 x6 x7 x8 x9 (ix2 a l)
      = Cert.Mps.rowMul (fun k => x0 (ix2 (⟨128 * a.val + l.val, by omega⟩ : Fin 4096) k)) (fun k j => x1 (ix2 k j))
          (fun j => x2 (ix2 (0 : Fin 1) j)) (fun j => x3 (ix2 (0 : Fin 1) j)) (fun j => x4 (ix2 (0 : Fin 1) j))
          (fun p q => x5 (ix2 p q)) (fun q j => x6 (ix2 q j)) (fun j => x7 (ix2 (0 : Fin 1) j)) (fun j => x8 (ix2 j (0 : Fin 1)))
          (x9 (ix2 (0 : Fin 1) (0 : Fin 1)))

/-- The features row that entry `(A, l)` of the 1024×128 output belongs to. -/
def rowOf (A : Fin 1024) (l : Fin 128) : Fin 131072 := ⟨128 * A.val + l.val, by omega⟩

/-- The output array as one function of the arrays the launch finds: entry `(A, l)` is the row function at features row
    `128·A + l`. -/
def G (X : S131072x512.Idx → EReal) (W : S512x64.Idx → EReal) (b g β : S1x64.Idx → EReal) (T : S4x32.Idx → EReal)
    (W1 : S32x64.Idx → EReal) (b1 : S1x64.Idx → EReal) (W2 : S64x1.Idx → EReal) (b2 : S1x1.Idx → EReal) : S1024x128.Idx → EReal :=
  fun i => Cert.Mps.rowMul (fun k => X (ix2 (rowOf (i 0) (i 1)) k)) (fun k j => W (ix2 k j))
    (fun j => b (ix2 (0 : Fin 1) j)) (fun j => g (ix2 (0 : Fin 1) j)) (fun j => β (ix2 (0 : Fin 1) j))
    (fun p q => T (ix2 p q)) (fun q j => W1 (ix2 q j)) (fun j => b1 (ix2 (0 : Fin 1) j)) (fun j => W2 (ix2 j (0 : Fin 1)))
    (b2 (ix2 (0 : Fin 1) (0 : Fin 1)))

theorem hz : (![0, 0] : Fin 2 → Nat) = fun _ => 0 := funext fun a => by fin_cases a <;> rfl

/-- The printed index maps over the grid: the features window and the output window move with the point, every other
    window stays at block (0, 0). -/
theorem idx_facts : ∀ t : Fin cfg0.N, win0_0.index t (0 : Fin 2) = t.val ∧ win0_0.index t (1 : Fin 2) = 0
    ∧ win0_10.index t (0 : Fin 2) = t.val ∧ win0_10.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- The features block at point `t` is rows `4096·t …` of the features. -/
theorem blk0 (c : Dev nD) (t : Fin cfg0.N) (y : S4096x512.Idx) :
    iblk m c 0 t y = V m c main_arg0 (ix2 (⟨4096 * t.val + (y 0).val, by have := t.isLt; have h := (y 0).isLt; have hN : cfg0.N = 32 := N_0; change (y 0).val < 4096 at h; omega⟩ : Fin 131072) (y 1)) := by
  obtain ⟨e0, e1, -⟩ := idx_facts t
  show V m c main_arg0 (((cfg0.win 0).blk t).view.emb y) = _
  refine congrArg (V m c main_arg0) (funext fun a => Fin.ext ?_)
  match a with
  | ⟨0, _⟩ => show win0_0.index t (0 : Fin 2) * 4096 + 1 * (y 0).val = 4096 * t.val + (y 0).val; omega
  | ⟨1, _⟩ => show win0_0.index t (1 : Fin 2) * 512 + 1 * (y 1).val = (y 1).val; omega

/-- Window 1 stages its whole array at every point. -/
theorem blk1 (c : Dev nD) (t : Fin cfg0.N) (y : S512x64.Idx) : iblk m c 1 t y = V m c main_arg1 y := by
  obtain ⟨-, -, -, -, e1_0, e1_1, e2_0, e2_1, e3_0, e3_1, e4_0, e4_1, e5_0, e5_1, e6_0, e6_1, e7_0, e7_1, e8_0, e8_1, e9_0, e9_1⟩ := idx_facts t
  show V m c main_arg1 (((cfg0.win 1).blk t).view.emb y) = V m c main_arg1 y
  refine congrArg (V m c main_arg1) (funext fun a => Fin.ext ?_)
  match a with
  | ⟨0, _⟩ => show win0_1.index t (0 : Fin 2) * 512 + 1 * (y 0).val = (y 0).val; omega
  | ⟨1, _⟩ => show win0_1.index t (1 : Fin 2) * 64 + 1 * (y 1).val = (y 1).val; omega

/-- Window 2 stages its whole array at every point. -/
theorem blk2 (c : Dev nD) (t : Fin cfg0.N) (y : S1x64.Idx) : iblk m c 2 t y = V m c main_v0 y := by
  obtain ⟨-, -, -, -, e1_0, e1_1, e2_0, e2_1, e3_0, e3_1, e4_0, e4_1, e5_0, e5_1, e6_0, e6_1, e7_0, e7_1, e8_0, e8_1, e9_0, e9_1⟩ := idx_facts t
  show V m c main_v0 (((cfg0.win 2).blk t).view.emb y) = V m c main_v0 y
  refine congrArg (V m c main_v0) (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- Window 3 stages its whole array at every point. -/
theorem blk3 (c : Dev nD) (t : Fin cfg0.N) (y : S1x64.Idx) : iblk m c 3 t y = V m c main_v1 y := by
  obtain ⟨-, -, -, -, e1_0, e1_1, e2_0, e2_1, e3_0, e3_1, e4_0, e4_1, e5_0, e5_1, e6_0, e6_1, e7_0, e7_1, e8_0, e8_1, e9_0, e9_1⟩ := idx_facts t
  show V m c main_v1 (((cfg0.win 3).blk t).view.emb y) = V m c main_v1 y
  refine congrArg (V m c main_v1) (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- Window 4 stages its whole array at every point. -/
theorem blk4 (c : Dev nD) (t : Fin cfg0.N) (y : S1x64.Idx) : iblk m c 4 t y = V m c main_v2 y := by
  obtain ⟨-, -, -, -, e1_0, e1_1, e2_0, e2_1, e3_0, e3_1, e4_0, e4_1, e5_0, e5_1, e6_0, e6_1, e7_0, e7_1, e8_0, e8_1, e9_0, e9_1⟩ := idx_facts t
  show V m c main_v2 (((cfg0.win 4).blk t).view.emb y) = V m c main_v2 y
  refine congrArg (V m c main_v2) (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- Window 5 stages its whole array at every point. -/
theorem blk5 (c : Dev nD) (t : Fin cfg0.N) (y : S4x32.Idx) : iblk m c 5 t y = V m c main_arg5 y := by
  obtain ⟨-, -, -, -, e1_0, e1_1, e2_0, e2_1, e3_0, e3_1, e4_0, e4_1, e5_0, e5_1, e6_0, e6_1, e7_0, e7_1, e8_0, e8_1, e9_0, e9_1⟩ := idx_facts t
  show V m c main_arg5 (((cfg0.win 5).blk t).view.emb y) = V m c main_arg5 y
  refine congrArg (V m c main_arg5) (funext fun a => Fin.ext ?_)
  match a with
  | ⟨0, _⟩ => show win0_5.index t (0 : Fin 2) * 4 + 1 * (y 0).val = (y 0).val; omega
  | ⟨1, _⟩ => show win0_5.index t (1 : Fin 2) * 32 + 1 * (y 1).val = (y 1).val; omega

/-- Window 6 stages its whole array at every point. -/
theorem blk6 (c : Dev nD) (t : Fin cfg0.N) (y : S32x64.Idx) : iblk m c 6 t y = V m c main_arg8 y := by
  obtain ⟨-, -, -, -, e1_0, e1_1, e2_0, e2_1, e3_0, e3_1, e4_0, e4_1, e5_0, e5_1, e6_0, e6_1, e7_0, e7_1, e8_0, e8_1, e9_0, e9_1⟩ := idx_facts t
  show V m c main_arg8 (((cfg0.win 6).blk t).view.emb y) = V m c main_arg8 y
  refine congrArg (V m c main_arg8) (funext fun a => Fin.ext ?_)
  match a with
  | ⟨0, _⟩ => show win0_6.index t (0 : Fin 2) * 32 + 1 * (y 0).val = (y 0).val; omega
  | ⟨1, _⟩ => show win0_6.index t (1 : Fin 2) * 64 + 1 * (y 1).val = (y 1).val; omega

/-- Window 7 stages its whole array at every point. -/
theorem blk7 (c : Dev nD) (t : Fin cfg0.N) (y : S1x64.Idx) : iblk m c 7 t y = V m c main_v3 y := by
  obtain ⟨-, -, -, -, e1_0, e1_1, e2_0, e2_1, e3_0, e3_1, e4_0, e4_1, e5_0, e5_1, e6_0, e6_1, e7_0, e7_1, e8_0, e8_1, e9_0, e9_1⟩ := idx_facts t
  show V m c main_v3 (((cfg0.win 7).blk t).view.emb y) = V m c main_v3 y
  refine congrArg (V m c main_v3) (funext fun a => Fin.ext ?_)
  match a with
  | ⟨0, _⟩ => show win0_7.index t (0 : Fin 2) * 1 + 1 * (y 0).val = (y 0).val; omega
  | ⟨1, _⟩ => show win0_7.index t (1 : Fin 2) * 64 + 1 * (y 1).val = (y 1).val; omega

/-- Window 8 stages its whole array at every point. -/
theorem blk8 (c : Dev nD) (t : Fin cfg0.N) (y : S64x1.Idx) : iblk m c 8 t y = V m c main_arg10 y := by
  obtain ⟨-, -, -, -, e1_0, e1_1, e2_0, e2_1, e3_0, e3_1, e4_0, e4_1, e5_0, e5_1, e6_0, e6_1, e7_0, e7_1, e8_0, e8_1, e9_0, e9_1⟩ := idx_facts t
  show V m c main_arg10 (((cfg0.win 8).blk t).view.emb y) = V m c main_arg10 y
  refine congrArg (V m c main_arg10) (funext fun a => Fin.ext ?_)
  match a with
  | ⟨0, _⟩ => show win0_8.index t (0 : Fin 2) * 64 + 1 * (y 0).val = (y 0).val; omega
  | ⟨1, _⟩ => show win0_8.index t (1 : Fin 2) * 1 + 1 * (y 1).val = (y 1).val; omega

/-- Window 9 stages its whole array at every point. -/
theorem blk9 (c : Dev nD) (t : Fin cfg0.N) (y : S1x1.Idx) : iblk m c 9 t y = V m c main_v4 y := by
  obtain ⟨-, -, -, -, e1_0, e1_1, e2_0, e2_1, e3_0, e3_1, e4_0, e4_1, e5_0, e5_1, e6_0, e6_1, e7_0, e7_1, e8_0, e8_1, e9_0, e9_1⟩ := idx_facts t
  show V m c main_v4 (((cfg0.win 9).blk t).view.emb y) = V m c main_v4 y
  refine congrArg (V m c main_v4) (funext fun a => Fin.ext ?_)
  match a with
  | ⟨0, _⟩ => show win0_9.index t (0 : Fin 2) * 1 + 1 * (y 0).val = (y 0).val; omega
  | ⟨1, _⟩ => show win0_9.index t (1 : Fin 2) * 1 + 1 * (y 1).val = (y 1).val; omega

/-- What point `t` writes back is block `t` of `G` of the arrays as the launch finds them. -/
theorem flushed_eq (hp : PayLaw) (c : Dev nD) (t : Fin cfg0.N) :
    (dats m 0 c).flushed 10 t = ((cfg0.win 10).blk t).view.read (Elt Ideal)
      (G (V m c main_arg0) (V m c main_arg1) (V m c main_v0) (V m c main_v1) (V m c main_v2) (V m c main_arg5) (V m c main_arg8)
        (V m c main_v3) (V m c main_arg10) (V m c main_v4)) := by
  show (cfg0.win 10).cut (grid0.coords t) ((dats m 0 c).after 10 t) = _
  rw [after0_10]
  unfold out0_10
  rw [View.canon_unit_zero hz]
  simp only [View.ld_unit_zero (S := S4096x512) hz, View.ld_unit_zero (S := S512x64) hz, View.ld_unit_zero (S := S1x64) hz,
    View.ld_unit_zero (S := S4x32) hz, View.ld_unit_zero (S := S32x64) hz, View.ld_unit_zero (S := S64x1) hz,
    View.ld_unit_zero (S := S1x1) hz]
  funext y
  obtain ⟨a, l, rfl⟩ : ∃ (a : Fin 32) (l : Fin 128), y = ix2 a l := ⟨y 0, y 1, eq_ix2 y⟩
  obtain ⟨-, -, e10_0, e10_1, -⟩ := idx_facts t
  have hN : cfg0.N = 32 := N_0
  have ht := t.isLt
  show k0_pay1 (F := Ideal) (k0_pay2 (F := Ideal) (iblk m c 0 t) (iblk m c 1 t) (iblk m c 2 t) (iblk m c 3 t) (iblk m c 4 t)) (iblk m c 5 t)
        (iblk m c 6 t) (iblk m c 7 t) (iblk m c 8 t) (iblk m c 9 t) (ix2 a l)
      = G (V m c main_arg0) (V m c main_arg1) (V m c main_v0) (V m c main_v1) (V m c main_v2) (V m c main_arg5)
          (V m c main_arg8) (V m c main_v3) (V m c main_arg10) (V m c main_v4) (((cfg0.win 10).blk t).view.emb (ix2 a l))
  refine (hp (iblk m c 0 t) (iblk m c 1 t) (iblk m c 2 t) (iblk m c 3 t) (iblk m c 4 t) (iblk m c 5 t)
        (iblk m c 6 t) (iblk m c 7 t) (iblk m c 8 t) (iblk m c 9 t) a l).trans ?_
  unfold G
  simp only [blk1 m c t, blk2 m c t, blk3 m c t, blk4 m c t, blk5 m c t, blk6 m c t, blk7 m c t, blk8 m c t, blk9 m c t]
  refine congrArg (fun f => Cert.Mps.rowMul f _ _ _ _ _ _ _ _ _) (funext fun k => ?_)
  rw [blk0 m c t]
  refine congrArg (V m c main_arg0) (funext fun ax => Fin.ext ?_)
  match ax with
  | ⟨0, _⟩ =>
    show 4096 * t.val + (128 * a.val + l.val) = 128 * (win0_10.index t (0 : Fin 2) * 32 + 1 * a.val) + (win0_10.index t (1 : Fin 2) * 128 + 1 * l.val)
    omega
  | ⟨1, _⟩ => rfl

/-- An index of the output array is in point `t`'s block iff each coordinate is in the block's range on its axis. -/
theorem mem_blk (t : Fin cfg0.N) (i : S1024x128.Idx) :
    i ∈ ((cfg0.win 10).blk t).view.set ↔ ∀ a : Fin 2, win0_10.index t a * S32x128.size a ≤ (i a).val ∧ (i a).val < win0_10.index t a * S32x128.size a + S32x128.size a := by
  show i ∈ ((View.whole main_v5).slice (win0_10.rect t)).set ↔ _
  rw [View.set_slice_whole, Rect.mem_set_unit]
  exact Iff.rfl

/-- Row `A` of the output lies in the block of point `A / 32`: the 32 blocks of 32 rows cover the 1024 rows. -/
theorem cover (i : S1024x128.Idx) : ∃ t : Fin cfg0.N, (cfg0.win 10).flush t = true ∧ i ∈ ((cfg0.win 10).blk t).view.set := by
  have h0 : (i 0).val < 1024 := (i 0).isLt
  have h1 : (i 1).val < 128 := (i 1).isLt
  have hN : cfg0.N = 32 := N_0
  obtain ⟨t, htv⟩ : ∃ t : Fin cfg0.N, t.val = (i 0).val / 32 := ⟨⟨(i 0).val / 32, by omega⟩, rfl⟩
  obtain ⟨-, -, e0, e1, -⟩ := idx_facts t
  refine ⟨t, flush0_10 t, ?_⟩
  rw [mem_blk]
  intro a
  match a with
  | ⟨0, _⟩ =>
    show win0_10.index t (0 : Fin 2) * 32 ≤ (i 0).val ∧ (i 0).val < win0_10.index t (0 : Fin 2) * 32 + 32
    omega
  | ⟨1, _⟩ =>
    show win0_10.index t (1 : Fin 2) * 128 ≤ (i 1).val ∧ (i 1).val < win0_10.index t (1 : Fin 2) * 128 + 128
    omega

/-- The output array after the launch is `G` of the arrays as the launch finds them. -/
theorem final (hp : PayLaw) (c : Dev nD) : (dats m 0 c).arrAt 10 cfg0.N
    = G (V m c main_arg0) (V m c main_arg1) (V m c main_v0) (V m c main_v1) (V m c main_v2) (V m c main_arg5) (V m c main_arg8)
        (V m c main_v3) (V m c main_arg10) (V m c main_v4) :=
  (dats m 0 c).arrAt_eq_of_cover 10 _ (fun t _ => flushed_eq m hp c t) cover

end Cert.KernelIdeal.Hand

end
-- ==== Proof.KernelHost.lean ====
/-
  The host side of the kernel program, on the extended reals.

  Before the launch five arguments are recast: four vectors of 64 values to rows [1, 64] and one value to [1, 1]; the
  launch finds each recast array holding its argument's elements at the new shape. After the launch the 1024 × 128
  result is recast to a column of 131072 values, whose row r is the result's entry (r / 128, r % 128). A recast to a
  row reads, at (0, j), the vector at j.
-/
import Idealize.ShloMosaic.Lib.StableHlo.Run
import Idealize.ShloMosaic.Lib.Pipeline.Value
import Idealize.ShloMosaic.Lib.ValueIdx
import Idealize.ShloMosaic.Lib.ValueLayout
import proofs.«160124_j55654186221891_2_alg».proof.Proof.Gen.KernelIdeal.Frame

noncomputable section

namespace Cert.KernelIdeal.HostSide

open Cert.KernelIdeal Cert.KernelIdeal.Gen Idealize.ShloMosaic Idealize.ShloMosaic.ValueIdx Idealize.ShloMosaic.TcCoe
  Idealize.SL.Sem

variable (m : (ℓ : Loc nD τ sig) → Buf (Elt Ideal) ℓ)

/-! ## The recast arguments as the launch finds them -/

/-- The first bias, a vector of 64 values, recast to a row. -/
theorem V_v0 (c : Dev nD) :
    V m c main_v0 = shapeCast S1x64 (m ((c : Thread nD τ).loc main_arg2)) shapeCasts_S64_S1x64 := by
  show StableHlo.after hostOps0 (fun b => m (c, b)) (Proc.devRef .tc main_v0) = _
  after_results
  rfl

/-- The gain, recast to a row. -/
theorem V_v1 (c : Dev nD) :
    V m c main_v1 = shapeCast S1x64 (m ((c : Thread nD τ).loc main_arg3)) shapeCasts_S64_S1x64 := by
  show StableHlo.after hostOps0 (fun b => m (c, b)) (Proc.devRef .tc main_v1) = _
  after_results
  rfl

/-- The shift, recast to a row. -/
theorem V_v2 (c : Dev nD) :
    V m c main_v2 = shapeCast S1x64 (m ((c : Thread nD τ).loc main_arg4)) shapeCasts_S64_S1x64 := by
  show StableHlo.after hostOps0 (fun b => m (c, b)) (Proc.devRef .tc main_v2) = _
  after_results
  rfl

/-- The second bias, recast to a row. -/
theorem V_v3 (c : Dev nD) :
    V m c main_v3 = shapeCast S1x64 (m ((c : Thread nD τ).loc main_arg9)) shapeCasts_S64_S1x64 := by
  show StableHlo.after hostOps0 (fun b => m (c, b)) (Proc.devRef .tc main_v3) = _
  after_results
  rfl

/-- The last bias, one value, recast to [1, 1]. -/
theorem V_v4 (c : Dev nD) :
    V m c main_v4 = shapeCast S1x1 (m ((c : Thread nD τ).loc main_arg11)) shapeCasts_S1_S1x1 := by
  show StableHlo.after hostOps0 (fun b => m (c, b)) (Proc.devRef .tc main_v4) = _
  after_results
  rfl

/-! ## The result recast after the launch -/

/-- After the launch the column holds the launch's result array recast: the one later host line reads the result
    array, which the launch leaves at what its last grid point's proof data say. -/
theorem tail_v6 (c : Dev nD) :
    Pipeline.afterTail₀ cfgs (dats m) 0 (V0 m) [hostOps1] c main_v6
      = shapeCast S131072x1 ((dats m 0 c).arrAt 10 cfg0.N) shapeCasts_S1024x128_S131072x1 := by
  unfold Pipeline.afterTail₀
  show StableHlo.after hostOps1 _ (Proc.devRef .tc main_v6) = _
  after_results
  exact congrArg (fun a : S1024x128.Idx → EReal => shapeCast S131072x1 a shapeCasts_S1024x128_S131072x1)
    (Pipeline.withArrays_arr spec0 launch0.win.arr_inj c (V0 m c) (fun w => (dats m 0 c).arrAt w cfg0.N) 10)

/-! ## The recasts read at an index -/

/-- The 1024 × 128 result recast to a column reads, at row r, the result at (r / 128, r % 128). -/
theorem recast_apply (x : S1024x128.Idx → EReal) (r : Fin 131072) :
    shapeCast S131072x1 x shapeCasts_S1024x128_S131072x1 (ix2 r (0 : Fin 1))
      = x (ix2 (⟨r.val / 128, by omega⟩ : Fin 1024) (⟨r.val % 128, Nat.mod_lt _ (by decide)⟩ : Fin 128)) :=
  shapeCast_apply x shapeCasts_S1024x128_S131072x1 _ _ (by
    rw [Shape.rowMajor_val_two, Shape.rowMajor_val_two]
    show (r.val / 128) * 128 + r.val % 128 = r.val * 1 + 0
    omega)

/-- A vector of 64 values recast to a row reads, at (0, j), the vector at j. -/
theorem row_apply (v : S64.Idx → EReal) (j : Fin 64) :
    shapeCast S1x64 v shapeCasts_S64_S1x64 (ix2 (0 : Fin 1) j) = v (ix1 j) :=
  shapeCast_a_1a_apply v shapeCasts_S64_S1x64 (0 : Fin 1) j

/-- One value recast to [1, 1] reads, at (0, 0), that value. -/
theorem one_apply (v : S1.Idx → EReal) :
    shapeCast S1x1 v shapeCasts_S1_S1x1 (ix2 (0 : Fin 1) (0 : Fin 1)) = v (ix1 (0 : Fin 1)) :=
  shapeCast_a_1a_apply v shapeCasts_S1_S1x1 (0 : Fin 1) (0 : Fin 1)

end Cert.KernelIdeal.HostSide

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.LibRowStats.lean ====
/-
  A row statistic kept as a column and a vector spread over the rows, read at an index, on the extended reals.

  For an [a, b] array X: the sum along the second axis recast as the column [a, 1] and divided by a scalar spread
  over the column reads, at (p, u), (Σ_k X[p,k]) / s (a row mean with keepdims); a [b] vector recast as the row [1, b]
  and spread over a rows reads, at (p, d), the vector at d (a per-feature weight applied to every row); a column
  spread along the rows reads, at (p, d), the column at (p, 0).
-/
import Idealize.ShloMosaic.Lib.Pipeline.Value
import Idealize.ShloMosaic.Lib.ValueIdx
import Idealize.ShloMosaic.Lib.ValueLayout
import Idealize.ShloMosaic.PureOps.Ideal.Laws
import proofs.«160124_j55654186221891_2_alg».proof.Proof.LibKeepdimsColumn

noncomputable section

namespace Cert.Lib.RowStats

open Idealize.ShloMosaic Idealize.ShloMosaic.ValueIdx

/-- A row sum kept as a column over a scalar: at (p, u), (Σ_k X[p,k]) / s. -/
theorem colquot_apply {a b : ℕ} (X : FVec Ideal ⟨2, ![a, b]⟩ .f32) (hr : (⟨2, ![a, b]⟩ : Shape).Reduces [1] ⟨1, ![a]⟩)
    (hφ : FKind.Formats .f32) (hacc : (0x00000000#32 : BitVec 32) = 0x00000000#32)
    (hc : (⟨1, ![a]⟩ : Shape).ShapeCasts ⟨2, ![a, 1]⟩) (s : Ideal .f32) (p : Fin a) (u : Fin 1) :
    divf (shapeCast ⟨2, ![a, 1]⟩ (multiReduction .add [1] ⟨1, ![a]⟩ X 0x00000000#32 hr hφ hacc) hc)
        (broadcast ⟨2, ![a, 1]⟩ s) (ix2 p u)
      = Ideal.div (∑ k : Fin b, X (ix2 p k)) s := by
  rw [divf_apply, broadcast_apply, Cert.Gcn.Lib.shapeCast_a_a1_apply, Cert.Gcn.Lib.rowsum_apply]

/-- A [b] vector recast as a row and spread over a rows: at (p, d), the vector at d. -/
theorem rowspread_apply {α : Type} {a b : ℕ} (w : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (d : Fin b) :
    broadcastTo ⟨2, ![a, b]⟩ (shapeCast ⟨2, ![1, b]⟩ w hc) hb (ix2 p d) = w (ix1 d) := by
  rw [broadcastTo_1b_ab_apply, shapeCast_a_1a_apply]

/-- A column spread along the rows: at (p, d), the column at (p, 0). -/
theorem colspread_apply {α : Type} {a b : ℕ} (v : (⟨2, ![a, 1]⟩ : Shape).Idx → α)
    (h : (⟨2, ![a, 1]⟩ : Shape).Broadcasts ⟨2, ![a, b]⟩) (p : Fin a) (d : Fin b) :
    broadcastTo ⟨2, ![a, b]⟩ v h (ix2 p d) = v (ix2 p (0 : Fin 1)) :=
  Cert.Gcn.Lib.broadcastTo_a1_ab_apply v h p d

end Cert.Lib.RowStats

end
-- ==== Proof.KernelPay.lean ====
/-
  The value the kernel's body stores, read at an index, on the extended reals.

  The body's arithmetic is two pure terms over the arrays it loads. The first takes the 4096 × 512 block of rows, puts
  each row through the first linear layer with its bias and the rectification, takes each row's mean and biased variance
  (a sum along the row kept as a column, divided by 64), multiplies the centred values by the reciprocal square root of
  the variance plus ε, applies the gain and the shift, and keeps the first four columns. The second contracts those four
  values with the 4 × 32 table, applies a rectified linear layer to 64 values and a linear layer to one value, adds the
  last bias, applies the logistic function, and lays the 4096 results out as 32 rows of 128. Read at (a, l) the stored
  value is therefore the row function `Cert.Mps.rowMul` of row 128·a + l of the block.
-/
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws
import proofs.«160124_j55654186221891_2_alg».proof.Proof.Gen.KernelIdeal.Skeleton
import proofs.«160124_j55654186221891_2_alg».proof.Proof.Spec
import proofs.«160124_j55654186221891_2_alg».proof.Proof.LibPlainDot
import proofs.«160124_j55654186221891_2_alg».proof.Proof.LibKeepdimsColumn
import proofs.«160124_j55654186221891_2_alg».proof.Proof.LibRowStats

noncomputable section

namespace Cert.KernelIdeal.Pay

open Cert.KernelIdeal Cert.KernelIdeal.Gen Idealize.ShloMosaic Idealize.ShloMosaic.ValueIdx

/-! ## The pieces of the first term, over variables -/

/-- A linear layer into a zero accumulator, its bias row spread over the rows, and the rectification. -/
def hidden (v0 : FVec Ideal S4096x512 .f32) (v2 : FVec Ideal S512x64 .f32) (v5 : FVec Ideal S1x64 .f32) : FVec Ideal S4096x64 .f32 :=
  maximumf
    (addf
      (matmul dot_S4096x512_S512x64_S4096x64_1_0_0_1_n_n none (truncf .bf16 v0 bitsLt_bf16_f32) (truncf .bf16 v2 bitsLt_bf16_f32)
        (constant S4096x64 .f32 0x00000000#32))
      (broadcastTo S4096x64 (shapeCast S1x64 v5 shapeCasts_S1x64_S1x64) broadcasts_S1x64_S4096x64))
    (broadcast S4096x64 (Scalar.ofBits .f32 0x00000000#32))

/-- The row sums of `H` kept as a column, over 64. -/
def colOver64 (H : FVec Ideal S4096x64 .f32) : FVec Ideal S4096x1 .f32 :=
  divf (shapeCast S4096x1 (multiReduction .add [1] S4096 H 0x00000000#32 reduces_S4096x64_S4096 (.inl rfl) rfl) shapeCasts_S4096_S4096x1)
    (broadcast S4096x1 (Scalar.ofBits .f32 0x42800000#32))

/-- `H` less its rows' means. -/
def centred (H : FVec Ideal S4096x64 .f32) : FVec Ideal S4096x64 .f32 :=
  subf H (broadcastTo S4096x64 (colOver64 H) broadcasts_S4096x1_S4096x64)

/-- The reciprocal square root of the rows' biased variances plus ε, as a column. -/
def rstd (H : FVec Ideal S4096x64 .f32) : FVec Ideal S4096x1 .f32 :=
  rsqrt (addf (colOver64 (mulf (centred H) (centred H))) (broadcast S4096x1 (Scalar.ofBits .f32 0x3727C5AC#32)))

/-- The normalised rows with the gain row and the shift row applied. -/
def normed (H : FVec Ideal S4096x64 .f32) (g b : FVec Ideal S1x64 .f32) : FVec Ideal S4096x64 .f32 :=
  addf
    (mulf (mulf (centred H) (broadcastTo S4096x64 (rstd H) broadcasts_S4096x1_S4096x64))
      (broadcastTo S4096x64 (shapeCast S1x64 g shapeCasts_S1x64_S1x64) broadcasts_S1x64_S4096x64))
    (broadcastTo S4096x64 (shapeCast S1x64 b shapeCasts_S1x64_S1x64) broadcasts_S1x64_S4096x64)

/-- The first term is these pieces composed, the first four columns kept. -/
theorem pay2_eq (x0 : Vec Ideal S4096x512 .f32) (x1 : Vec Ideal S512x64 .f32) (x2 x3 x4 : Vec Ideal S1x64 .f32) :
    k0_pay2 (F := Ideal) x0 x1 x2 x3 x4
      = truncf .bf16 (extractStridedSlice S4096x4 ![0, 0] (normed (hidden x0 x1 x2) x3 x4) slices_S4096x64_o0_0_S4096x4) bitsLt_bf16_f32 := rfl

/-! ## Each piece read at an index -/

/-- A product with plain dimension numbers into the zero accumulator at (a, b): the sum over k of l[a,k] · r[k,b]. -/
theorem matmul_plain_apply {M K N : ℕ} {φ₁ φ₂ : FTy} (d : DotDims ⟨2, ![M, K]⟩ ⟨2, ![K, N]⟩ ⟨2, ![M, N]⟩)
    (hd : d = DotDims.plain M K N) (l : FVec Ideal ⟨2, ![M, K]⟩ φ₁) (r : FVec Ideal ⟨2, ![K, N]⟩ φ₂) (a : Fin M) (b : Fin N) :
    matmul d none l r (constant (F := Ideal) ⟨2, ![M, N]⟩ .f32 0x00000000#32) (ix2 a b) = ∑ k : Fin K, l (ix2 a k) * r (ix2 k b) :=
  congrFun (Cert.Lib.PlainDot.matmul_zero_eq d hd none l r) (ix2 a b)

/-- A bias row recast to its own shape and spread over the rows reads, at (r, j), the row at j. -/
theorem biasrow_apply {n c : ℕ} (w : FVec Ideal ⟨2, ![1, c]⟩ .f32) (hc : (⟨2, ![1, c]⟩ : Shape).ShapeCasts ⟨2, ![1, c]⟩)
    (hb : (⟨2, ![1, c]⟩ : Shape).Broadcasts ⟨2, ![n, c]⟩) (r : Fin n) (j : Fin c) :
    broadcastTo ⟨2, ![n, c]⟩ (shapeCast ⟨2, ![1, c]⟩ w hc) hb (ix2 r j) = w (ix2 (0 : Fin 1) j) := by
  rw [shapeCast_self]
  exact broadcastTo_1b_ab_apply w hb r j

/-- The rectified first layer at (r, j): the hidden value j of row r. -/
theorem hidden_apply (v0 : FVec Ideal S4096x512 .f32) (v2 : FVec Ideal S512x64 .f32) (v5 : FVec Ideal S1x64 .f32)
    (r : Fin 4096) (j : Fin 64) :
    hidden v0 v2 v5 (ix2 r j)
      = Cert.Mps.hid (fun k => v0 (ix2 r k)) (fun k j => v2 (ix2 k j)) (fun j => v5 (ix2 (0 : Fin 1) j)) j := by
  unfold hidden Cert.Mps.hid
  rw [maximumf_apply, addf_apply, broadcast_apply, biasrow_apply,
    matmul_plain_apply dot_S4096x512_S512x64_S4096x64_1_0_0_1_n_n rfl]
  rfl

/-- The row sums over 64 at (r, u): the sum of row r divided by 64. -/
theorem colOver64_apply (H : FVec Ideal S4096x64 .f32) (r : Fin 4096) (u : Fin 1) :
    colOver64 H (ix2 r u) = Ideal.div (∑ k : Fin 64, H (ix2 r k)) Cert.Mps.c64 :=
  Cert.Lib.RowStats.colquot_apply H reduces_S4096x64_S4096 (.inl rfl) rfl shapeCasts_S4096_S4096x1 _ r u

/-- The centred value at (r, j). -/
theorem centred_apply (H : FVec Ideal S4096x64 .f32) (r : Fin 4096) (j : Fin 64) :
    centred H (ix2 r j) = H (ix2 r j) - Cert.Mps.mean (fun k => H (ix2 r k)) := by
  unfold centred Cert.Mps.mean
  rw [subf_apply, Cert.Lib.RowStats.colspread_apply, colOver64_apply]

/-- The reciprocal square root of the variance plus ε at (r, u). -/
theorem rstd_apply (H : FVec Ideal S4096x64 .f32) (r : Fin 4096) (u : Fin 1) :
    rstd H (ix2 r u) = Ideal.rsqrt (Cert.Mps.var (fun k => H (ix2 r k)) + Cert.Mps.eps) := by
  unfold rstd Cert.Mps.var
  show Ideal.rsqrt (colOver64 (mulf (centred H) (centred H)) (ix2 r u) + Cert.Mps.eps) = _
  rw [colOver64_apply]
  refine congrArg (fun s => Ideal.rsqrt (Ideal.div s Cert.Mps.c64 + Cert.Mps.eps)) ?_
  refine Finset.sum_congr rfl fun k _ => ?_
  rw [mulf_apply, centred_apply]

/-- The normalised, scaled and shifted value at (r, j). -/
theorem normed_apply (H : FVec Ideal S4096x64 .f32) (g b : FVec Ideal S1x64 .f32) (r : Fin 4096) (j : Fin 64) :
    normed H g b (ix2 r j)
      = Cert.Mps.normMul (fun k => H (ix2 r k)) (fun k => g (ix2 (0 : Fin 1) k)) (fun k => b (ix2 (0 : Fin 1) k)) j := by
  unfold normed Cert.Mps.normMul
  rw [addf_apply, mulf_apply, mulf_apply, biasrow_apply, biasrow_apply, Cert.Lib.RowStats.colspread_apply, rstd_apply,
    centred_apply]

/-- The first term at (r, p): the normalised value at the p-th of the first four positions of row r. -/
theorem pay2_apply (x0 : Vec Ideal S4096x512 .f32) (x1 : Vec Ideal S512x64 .f32) (x2 x3 x4 : Vec Ideal S1x64 .f32)
    (r : Fin 4096) (p : Fin 4) :
    k0_pay2 (F := Ideal) x0 x1 x2 x3 x4 (ix2 r p)
      = Cert.Mps.normMul
          (Cert.Mps.hid (fun k => x0 (ix2 r k)) (fun k j => x1 (ix2 k j)) (fun j => x2 (ix2 (0 : Fin 1) j)))
          (fun j => x3 (ix2 (0 : Fin 1) j)) (fun j => x4 (ix2 (0 : Fin 1) j)) (Cert.Mps.first4 p) := by
  rw [pay2_eq, truncf_apply,
    slice2_axis1_apply 0 _ slices_S4096x64_o0_0_S4096x4 r p (Cert.Mps.first4 p) (by simp [Cert.Mps.first4]),
    normed_apply]
  refine congrArg (fun h => Cert.Mps.normMul h _ _ _) ?_
  funext k
  exact hidden_apply x0 x1 x2 r k

/-! ## The pieces of the second term, over variables -/

/-- The four kept values of each row contracted with the 4 × 32 table. -/
def proj (v40 : FVec Ideal S4096x4 .bf16) (v41 : FVec Ideal S4x32 .f32) : FVec Ideal S4096x32 .f32 :=
  matmul dot_S4096x4_S4x32_S4096x32_1_0_0_1_n_n none v40 (truncf .bf16 v41 bitsLt_bf16_f32) (constant S4096x32 .f32 0x00000000#32)

/-- The second rectified linear layer. -/
def hidden2 (P : FVec Ideal S4096x32 .f32) (v45 : FVec Ideal S32x64 .f32) (v48 : FVec Ideal S1x64 .f32) : FVec Ideal S4096x64 .f32 :=
  maximumf
    (addf
      (matmul dot_S4096x32_S32x64_S4096x64_1_0_0_1_n_n none (truncf .bf16 P bitsLt_bf16_f32) (truncf .bf16 v45 bitsLt_bf16_f32)
        (constant S4096x64 .f32 0x00000000#32))
      (broadcastTo S4096x64 (shapeCast S1x64 v48 shapeCasts_S1x64_S1x64) broadcasts_S1x64_S4096x64))
    (broadcast S4096x64 (Scalar.ofBits .f32 0x00000000#32))

/-- The last linear layer to one value per row, its bias, and the logistic function: a column. -/
def outCol (Q : FVec Ideal S4096x64 .f32) (v55 : FVec Ideal S64x1 .f32) (v58 : FVec Ideal S1x1 .f32) : FVec Ideal S4096x1 .f32 :=
  logistic
    (addf
      (matmul dot_S4096x64_S64x1_S4096x1_1_0_0_1_n_n none (truncf .bf16 Q bitsLt_bf16_f32) (truncf .bf16 v55 bitsLt_bf16_f32)
        (constant S4096x1 .f32 0x00000000#32))
      (broadcastTo S4096x1 (shapeCast S1x1 v58 shapeCasts_S1x1_S1x1) broadcasts_S1x1_S4096x1))

/-- The second term is these pieces composed, the column laid out as 32 rows of 128. -/
theorem pay1_eq (v40 : FVec Ideal S4096x4 .bf16) (x5 : Vec Ideal S4x32 .f32) (x6 : Vec Ideal S32x64 .f32) (x7 : Vec Ideal S1x64 .f32)
    (x8 : Vec Ideal S64x1 .f32) (x9 : Vec Ideal S1x1 .f32) :
    k0_pay1 (F := Ideal) v40 x5 x6 x7 x8 x9
      = shapeCast S32x128 (outCol (hidden2 (proj v40 x5) x6 x7) x8 x9) shapeCasts_S4096x1_S32x128 := rfl

/-- The contraction with the table at (r, q). -/
theorem proj_apply (v40 : FVec Ideal S4096x4 .bf16) (v41 : FVec Ideal S4x32 .f32) (r : Fin 4096) (q : Fin 32) :
    proj v40 v41 (ix2 r q) = ∑ p : Fin 4, v40 (ix2 r p) * v41 (ix2 p q) := by
  unfold proj
  rw [matmul_plain_apply dot_S4096x4_S4x32_S4096x32_1_0_0_1_n_n rfl]
  rfl

/-- The second rectified layer at (r, j). -/
theorem hidden2_apply (P : FVec Ideal S4096x32 .f32) (v45 : FVec Ideal S32x64 .f32) (v48 : FVec Ideal S1x64 .f32)
    (r : Fin 4096) (j : Fin 64) :
    hidden2 P v45 v48 (ix2 r j)
      = max ((∑ q : Fin 32, P (ix2 r q) * v45 (ix2 q j)) + v48 (ix2 (0 : Fin 1) j)) Cert.Mps.zero := by
  unfold hidden2
  rw [maximumf_apply, addf_apply, broadcast_apply, biasrow_apply,
    matmul_plain_apply dot_S4096x32_S32x64_S4096x64_1_0_0_1_n_n rfl]
  rfl

/-- The last layer's column at (r, 0). -/
theorem outCol_apply (Q : FVec Ideal S4096x64 .f32) (v55 : FVec Ideal S64x1 .f32) (v58 : FVec Ideal S1x1 .f32) (r : Fin 4096) :
    outCol Q v55 v58 (ix2 r (0 : Fin 1))
      = Ideal.logistic ((∑ j : Fin 64, Q (ix2 r j) * v55 (ix2 j (0 : Fin 1))) + v58 (ix2 (0 : Fin 1) (0 : Fin 1))) := by
  unfold outCol
  show Ideal.logistic (_ + _) = _
  rw [biasrow_apply, matmul_plain_apply dot_S4096x64_S64x1_S4096x1_1_0_0_1_n_n rfl]
  rfl

/-- The column laid out as 32 rows of 128 reads, at (a, l), the column's row 128·a + l. -/
theorem layout_apply (C : FVec Ideal S4096x1 .f32) (a : Fin 32) (l : Fin 128) :
    shapeCast S32x128 C shapeCasts_S4096x1_S32x128 (ix2 a l)
      = C (ix2 (⟨128 * a.val + l.val, by omega⟩ : Fin 4096) (0 : Fin 1)) :=
  shapeCast_apply C shapeCasts_S4096x1_S32x128 _ _ (by
    rw [Shape.rowMajor_val_two, Shape.rowMajor_val_two]
    show (128 * a.val + l.val) * 1 + 0 = a.val * 128 + l.val
    omega)

/-- The second term at (a, l): what follows the normalisation, of the four values of row 128·a + l. -/
theorem pay1_apply (v40 : FVec Ideal S4096x4 .bf16) (x5 : Vec Ideal S4x32 .f32) (x6 : Vec Ideal S32x64 .f32) (x7 : Vec Ideal S1x64 .f32)
    (x8 : Vec Ideal S64x1 .f32) (x9 : Vec Ideal S1x1 .f32) (a : Fin 32) (l : Fin 128) :
    k0_pay1 (F := Ideal) v40 x5 x6 x7 x8 x9 (ix2 a l)
      = Cert.Mps.head (fun p => v40 (ix2 (⟨128 * a.val + l.val, by omega⟩ : Fin 4096) p)) (fun p q => x5 (ix2 p q))
          (fun q j => x6 (ix2 q j)) (fun j => x7 (ix2 (0 : Fin 1) j)) (fun j => x8 (ix2 j (0 : Fin 1)))
          (x9 (ix2 (0 : Fin 1) (0 : Fin 1))) := by
  rw [pay1_eq, layout_apply, outCol_apply]
  unfold Cert.Mps.head
  refine congrArg (fun s => Ideal.logistic (s + _)) ?_
  refine Finset.sum_congr rfl fun j _ => ?_
  rw [hidden2_apply]
  refine congrArg (fun s => max (s + _) Cert.Mps.zero * _) ?_
  refine Finset.sum_congr rfl fun q _ => ?_
  rw [proj_apply]

/-! ## The stored value -/

/-- The value the body stores, at (a, l): the row function of row 128·a + l of the block of rows. -/
theorem pay_apply (x0 : Vec Ideal S4096x512 .f32) (x1 : Vec Ideal S512x64 .f32) (x2 x3 x4 : Vec Ideal S1x64 .f32)
    (x5 : Vec Ideal S4x32 .f32) (x6 : Vec Ideal S32x64 .f32) (x7 : Vec Ideal S1x64 .f32) (x8 : Vec Ideal S64x1 .f32)
    (x9 : Vec Ideal S1x1 .f32) (a : Fin 32) (l : Fin 128) :
    k0_pay1 (F := Ideal) (k0_pay2 (F := Ideal) x0 x1 x2 x3 x4) x5 x6 x7 x8 x9 (ix2 a l)
      = Cert.Mps.rowMul (fun k => x0 (ix2 (⟨128 * a.val + l.val, by omega⟩ : Fin 4096) k)) (fun k j => x1 (ix2 k j))
          (fun j => x2 (ix2 (0 : Fin 1) j)) (fun j => x3 (ix2 (0 : Fin 1) j)) (fun j => x4 (ix2 (0 : Fin 1) j))
          (fun p q => x5 (ix2 p q)) (fun q j => x6 (ix2 q j)) (fun j => x7 (ix2 (0 : Fin 1) j))
          (fun j => x8 (ix2 j (0 : Fin 1))) (x9 (ix2 (0 : Fin 1) (0 : Fin 1))) := by
  rw [pay1_apply]
  unfold Cert.Mps.rowMul
  refine congrArg (fun e => Cert.Mps.head e _ _ _ _ _) ?_
  funext p
  exact pay2_apply x0 x1 x2 x3 x4 _ p

end Cert.KernelIdeal.Pay

end
-- ==== Proof.LibAggLinear.lean ====
/-
  Real-valued extended reals, and the law that lets a weighted row aggregation pass through a right matrix product.

  An extended real is REAL when it is the image of a real number. Reals are closed under `+`, `·`, `max` and finite
  sums, and on them the extended reals' arithmetic is the reals' (where distributivity holds, which it does not
  at the infinities).

  The law (`agg_dot`): for real coefficients, aggregating rows and then multiplying on the right by a matrix column
  is multiplying each row first and then aggregating:
    ∑ₖ ((z + ∑_{r ∈ E} a r k · n r) + c k · t) · W k  =  (z + ∑_{r ∈ E} (∑ₖ a r k · W k) · n r) + (∑ₖ c k · W k) · t,
  with `z = 0`. It is distributivity and an exchange of two finite sums.
-/
import Idealize.ShloMosaic.PureOps.Ideal

noncomputable section

namespace Cert.Lib.AggLinear

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption

/-- The embedding of the reals commutes with finite sums. -/
theorem coe_sum {ι : Type*} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

theorem IsReal.sum {ι : Type*} (s : Finset ι) (f : ι → EReal) (h : ∀ i ∈ s, IsReal (f i)) : IsReal (∑ i ∈ s, f i) := by
  induction s using Finset.cons_induction with
  | empty => simpa using isReal_zero
  | cons a s ha ih =>
    rw [Finset.sum_cons]
    exact (h a (Finset.mem_cons_self a s)).add (ih fun i hi => h i (Finset.mem_cons.mpr (Or.inr hi)))

/-- A sum of ones is a natural number: real and nonnegative. -/
theorem sum_one_eq {ι : Type*} (s : Finset ι) : (∑ _i ∈ s, (1 : EReal)) = ((s.card : ℝ) : EReal) := by
  have : (∑ _i ∈ s, ((1 : ℝ) : EReal)) = (((∑ _i ∈ s, (1 : ℝ)) : ℝ) : EReal) := (coe_sum s fun _ => (1 : ℝ)).symm
  rw [show (1 : EReal) = ((1 : ℝ) : EReal) from rfl, this]
  simp

/-- Aggregating rows with real weights and then taking a real column combination is combining first and aggregating after. -/
theorem agg_dot {ε κ : Type*} [Fintype κ] (E : Finset ε) (a : ε → κ → EReal) (n : ε → EReal) (c : κ → EReal) (t : EReal)
    (W : κ → EReal) (ha : ∀ r k, IsReal (a r k)) (hn : ∀ r, IsReal (n r)) (hc : ∀ k, IsReal (c k)) (ht : IsReal t)
    (hW : ∀ k, IsReal (W k)) :
    ∑ k, (((0 : EReal) + ∑ r ∈ E, a r k * n r) + c k * t) * W k
      = ((0 : EReal) + ∑ r ∈ E, (∑ k, a r k * W k) * n r) + (∑ k, c k * W k) * t := by
  choose a' ha' using ha
  choose n' hn' using hn
  choose c' hc' using hc
  obtain ⟨t', rfl⟩ := ht
  choose W' hW' using hW
  have key : (∑ k, (((0 : ℝ) + ∑ r ∈ E, a' r k * n' r) + c' k * t') * W' k)
      = ((0 : ℝ) + ∑ r ∈ E, (∑ k, a' r k * W' k) * n' r) + (∑ k, c' k * W' k) * t' := by
    simp only [zero_add, add_mul, Finset.sum_add_distrib, Finset.sum_mul]
    congr 1
    · rw [Finset.sum_comm]
      refine Finset.sum_congr rfl fun r _ => Finset.sum_congr rfl fun k _ => ?_
      ring
    · refine Finset.sum_congr rfl fun k _ => ?_
      ring
  have e := congrArg (fun x : ℝ => (x : EReal)) key
  simp only [EReal.coe_add, EReal.coe_mul, coe_sum, EReal.coe_zero] at e
  simpa only [ha', hn', hc', hW'] using e

end Cert.Lib.AggLinear

end
-- ==== Proof.LibBnFold.lean ====
import Mathlib
import Idealize.ShloMosaic.PureOps.Ideal
import Idealize.ShloMosaic.PureOps.Ideal.Laws

/-!
  Three facts about extended reals that are REAL NUMBERS, for folding an affine normalisation
  ((x - mean) * scale + shift) into a matrix product: the fold itself is a ring identity once every factor is
  real; a finite sum of products of reals is real; and a real numerator over the square root of a
  nonnegative real plus a positive constant is real.
-/

noncomputable section

namespace Cert.LibBnFold

open Idealize.ShloMosaic
open scoped BigOperators

/-- For real w, b, mn, s, bet the normalised sum ((w + b) - mn) * s + bet splits as
    w * s + (b * s + (bet - mn * s)): a ring identity in ℝ, carried to the extended reals by the
    coercion's additivity and multiplicativity (it fails at the infinities, where EReal is not a ring). -/
theorem bn_fold {w b mn s bet : EReal} (hw : ∃ r : ℝ, w = (r : EReal)) (hb : ∃ r : ℝ, b = (r : EReal))
    (hmn : ∃ r : ℝ, mn = (r : EReal)) (hs : ∃ r : ℝ, s = (r : EReal)) (hbet : ∃ r : ℝ, bet = (r : EReal)) :
    ((w + b) - mn) * s + bet = w * s + (b * s + (bet - mn * s)) := by
  obtain ⟨w, rfl⟩ := hw
  obtain ⟨b, rfl⟩ := hb
  obtain ⟨mn, rfl⟩ := hmn
  obtain ⟨s, rfl⟩ := hs
  obtain ⟨bet, rfl⟩ := hbet
  rw [← EReal.coe_add, ← EReal.coe_sub, ← EReal.coe_mul, ← EReal.coe_add,
    ← EReal.coe_mul, ← EReal.coe_mul, ← EReal.coe_mul, ← EReal.coe_sub, ← EReal.coe_add, ← EReal.coe_add]
  congr 1
  ring

/-- A finite sum of products of real numbers, taken in the extended reals, is a real number
    (induction on the finite index set: the empty sum is 0, and a real plus a real is real). -/
theorem sum_mul_real {K : Type} [Fintype K] (f g : K → EReal) (hf : ∀ k, ∃ r : ℝ, f k = (r : EReal))
    (hg : ∀ k, ∃ r : ℝ, g k = (r : EReal)) : ∃ r : ℝ, (∑ k, f k * g k) = (r : EReal) := by
  classical
  have key : ∀ t : Finset K, ∃ r : ℝ, (∑ k ∈ t, f k * g k) = (r : EReal) := by
    intro t
    induction t using Finset.induction_on with
    | empty => exact ⟨0, by rw [Finset.sum_empty, EReal.coe_zero]⟩
    | insert a t ha ih =>
      obtain ⟨r, hr⟩ := ih
      obtain ⟨x, hx⟩ := hf a
      obtain ⟨y, hy⟩ := hg a
      exact ⟨x * y + r, by rw [Finset.sum_insert ha, hr, hx, hy, ← EReal.coe_mul, ← EReal.coe_add]⟩
  exact key Finset.univ

/-- The f32 word 0x3727C5AC (about 1e-5) denotes a real number: sign 0, biased exponent 110 and
    fraction 2606508, so the normal value (2^23 + 2606508) * 2^(110 - 127 - 23) = 10995116 * 2^(-40). -/
theorem eps_val : Ideal.ofBits .f32 0x3727C5AC#32 = (((10995116 : ℝ) * (2 : ℝ) ^ (-40 : ℤ) : ℝ) : EReal) := by
  simp [Ideal.ofBits, Ideal.ieee, -EReal.coe_mul]

/-- That real number is positive. -/
theorem eps_pos_real : ∃ e : ℝ, 0 < e ∧ Ideal.ofBits .f32 0x3727C5AC#32 = (e : EReal) :=
  ⟨(10995116 : ℝ) * (2 : ℝ) ^ (-40 : ℤ), by positivity, eps_val⟩

/-- A real g divided by the square root of v + ε, for a real v ≥ 0 and the positive constant ε the word
    0x3727C5AC denotes, is a real number: v + ε is a positive real, so its square root is a positive real,
    and the quotient by a nonzero real is the product with its reciprocal. -/
theorem scale_real {g v : EReal} (hg : ∃ r : ℝ, g = (r : EReal)) (hv : ∃ r : ℝ, v = (r : EReal)) (hv0 : (0 : EReal) ≤ v) :
    ∃ r : ℝ, Ideal.div g (Ideal.sqrt (v + Ideal.ofBits .f32 0x3727C5AC#32)) = (r : EReal) := by
  obtain ⟨g, rfl⟩ := hg
  obtain ⟨v, rfl⟩ := hv
  obtain ⟨e, he, hE⟩ := eps_pos_real
  have hv' : (0 : ℝ) ≤ v := EReal.coe_nonneg.mp hv0
  have hpos : (0 : ℝ) < v + e := by linarith
  rw [hE, ← EReal.coe_add, Ideal.sqrt_coe, if_neg (not_lt.mpr hpos.le),
    Ideal.div_coe (Real.sqrt_pos.mpr hpos).ne', ← EReal.coe_mul]
  exact ⟨_, rfl⟩

end Cert.LibBnFold

end
-- ==== Proof.RowLaw.lean ====
/-
  The two normalisations agree on real data.

  If the 64 hidden values of a row are real numbers then so is their mean, every squared deviation is a non-negative
  real, and the biased variance is a non-negative real `v`. With ε a positive real, `v + ε` is a positive real `s`, where
  the reciprocal square root is `(√s)⁻¹` and the square root is `√s ≠ 0`; multiplying by the first and dividing by the
  second are then the same operation on every extended real, since division by a non-zero real is multiplication by
  its reciprocal. Away from real data the identity fails (at `s = 0` one side is a product with `⊤`, the other a
  quotient by `0`), which is why the hidden values' being real — a consequence of finite inputs — is needed.
-/
import proofs.«160124_j55654186221891_2_alg».proof.Proof.Spec
import proofs.«160124_j55654186221891_2_alg».proof.Proof.LibAggLinear
import proofs.«160124_j55654186221891_2_alg».proof.Proof.LibBnFold

noncomputable section

namespace Cert.Mps

open Idealize.ShloMosaic Cert.Lib.AggLinear

theorem zero_eq : zero = 0 := Ideal.ofBits_zero_f32

/-- The word 0x42800000 is the real number 64. -/
theorem c64_eq : c64 = ((64 : ℝ) : EReal) := by
  simp [c64, Ideal.ofBits, Ideal.ieee]
  rw [← EReal.coe_mul]
  congr 1
  norm_num

theorem isReal_sub {x y : EReal} (hx : IsReal x) (hy : IsReal y) : IsReal (x - y) := by
  obtain ⟨a, rfl⟩ := hx
  obtain ⟨b, rfl⟩ := hy
  exact ⟨a - b, (EReal.coe_sub a b).symm⟩

/-- A real number over 64 is a real number. -/
theorem isReal_div64 {x : EReal} (hx : IsReal x) : IsReal (Ideal.div x c64) := by
  obtain ⟨a, rfl⟩ := hx
  rw [c64_eq, Ideal.div_coe (by norm_num : (64 : ℝ) ≠ 0), ← EReal.coe_mul]
  exact ⟨_, rfl⟩

/-- The hidden values of a real row under real weights and a real bias are real. -/
theorem hid_real {x : Fin 512 → EReal} {W : Fin 512 → Fin 64 → EReal} {b : Fin 64 → EReal}
    (hx : ∀ k, IsReal (x k)) (hW : ∀ k j, IsReal (W k j)) (hb : ∀ j, IsReal (b j)) (j : Fin 64) : IsReal (hid x W b j) := by
  unfold hid
  rw [zero_eq]
  exact ((IsReal.sum _ _ fun k _ => (hx k).mul (hW k j)).add (hb j)).max isReal_zero

theorem mean_real {h : Fin 64 → EReal} (hh : ∀ j, IsReal (h j)) : IsReal (mean h) :=
  isReal_div64 (IsReal.sum _ _ fun j _ => hh j)

/-- The biased variance of real values is a non-negative real. -/
theorem var_real_nonneg {h : Fin 64 → EReal} (hh : ∀ j, IsReal (h j)) : ∃ v : ℝ, 0 ≤ v ∧ var h = (v : EReal) := by
  obtain ⟨μ, hμ⟩ := mean_real hh
  choose f hf using hh
  refine ⟨(∑ j : Fin 64, (f j - μ) * (f j - μ)) * (1 / 64 : ℝ),
    mul_nonneg (Finset.sum_nonneg fun j _ => mul_self_nonneg _) (by norm_num), ?_⟩
  unfold var
  rw [hμ, c64_eq, Ideal.div_coe (by norm_num : (64 : ℝ) ≠ 0), EReal.coe_mul, coe_sum]
  refine congrArg (· * ((1 / 64 : ℝ) : EReal)) (Finset.sum_congr rfl fun j _ => ?_)
  rw [hf j, ← EReal.coe_sub, ← EReal.coe_mul]

/-- On real hidden values the product with the reciprocal square root is the quotient by the square root. -/
theorem normMul_eq_normDiv {h : Fin 64 → EReal} (hh : ∀ j, IsReal (h j)) (g β : Fin 64 → EReal) (j : Fin 64) :
    normMul h g β j = normDiv h g β j := by
  obtain ⟨v, hv0, hv⟩ := var_real_nonneg hh
  obtain ⟨e, he, hE⟩ := Cert.LibBnFold.eps_pos_real
  have hpos : (0 : ℝ) < v + e := by linarith
  unfold normMul normDiv
  rw [hv, show eps = (e : EReal) from hE, ← EReal.coe_add, Ideal.rsqrt_coe, if_neg (not_lt.mpr hpos.le), if_neg hpos.ne',
    Ideal.sqrt_coe, if_neg (not_lt.mpr hpos.le), Ideal.div_coe (Real.sqrt_pos.mpr hpos).ne', one_div]

/-- Hence the two row functions agree on a real row under real first-layer weights and bias. -/
theorem rowMul_eq_rowDiv {x : Fin 512 → EReal} {W : Fin 512 → Fin 64 → EReal} {b : Fin 64 → EReal}
    (hx : ∀ k, IsReal (x k)) (hW : ∀ k j, IsReal (W k j)) (hb : ∀ j, IsReal (b j)) (g β : Fin 64 → EReal)
    (T : Fin 4 → Fin 32 → EReal) (W1 : Fin 32 → Fin 64 → EReal) (b1 : Fin 64 → EReal) (W2 : Fin 64 → EReal) (b2 : EReal) :
    rowMul x W b g β T W1 b1 W2 b2 = rowDiv x W b g β T W1 b1 W2 b2 := by
  unfold rowMul rowDiv
  exact congrArg (fun e => head e T W1 b1 W2 b2)
    (funext fun p => normMul_eq_normDiv (hid_real hx hW hb) g β (first4 p))

end Cert.Mps

end
-- ==== Proof.Out.lean ====
/-
  The two programs' whole results as functions of their argument arrays, and their equality on real data.

  Each result is a 131072×1 column whose entry in row r is the row function of the specification applied to row r of the
  input array and to the weight arrays read coordinate by coordinate: with the normalisation by the reciprocal square
  root (outMul) or by the quotient (outDiv). When the input, the first layer's weights and its bias are real numbers the
  two row functions agree on every row, hence so do the two columns.
-/
import proofs.«160124_j55654186221891_2_alg».proof.Proof.Spec
import proofs.«160124_j55654186221891_2_alg».proof.Proof.RowLaw
import Idealize.ShloMosaic.Lib.ValueIdx

noncomputable section

namespace Cert.Mps

open Idealize.ShloMosaic Idealize.ShloMosaic.ValueIdx Cert.Lib.AggLinear

/-- The result column with the normalisation by the reciprocal square root: row r is rowMul of row r of X. -/
def outMul (X : (⟨2, ![131072, 512]⟩ : Shape).Idx → EReal) (W : (⟨2, ![512, 64]⟩ : Shape).Idx → EReal)
    (b g β : (⟨1, ![64]⟩ : Shape).Idx → EReal) (T : (⟨2, ![4, 32]⟩ : Shape).Idx → EReal)
    (W1 : (⟨2, ![32, 64]⟩ : Shape).Idx → EReal) (b1 : (⟨1, ![64]⟩ : Shape).Idx → EReal)
    (W2 : (⟨2, ![64, 1]⟩ : Shape).Idx → EReal) (b2 : (⟨1, ![1]⟩ : Shape).Idx → EReal) :
    (⟨2, ![131072, 1]⟩ : Shape).Idx → EReal :=
  fun i => rowMul (fun k => X (ix2 (i 0) k)) (fun k j => W (ix2 k j)) (fun j => b (ix1 j)) (fun j => g (ix1 j))
    (fun j => β (ix1 j)) (fun p q => T (ix2 p q)) (fun q j => W1 (ix2 q j)) (fun j => b1 (ix1 j))
    (fun j => W2 (ix2 j (0 : Fin 1))) (b2 (ix1 (0 : Fin 1)))

/-- The result column with the normalisation by the quotient: row r is rowDiv of row r of X. -/
def outDiv (X : (⟨2, ![131072, 512]⟩ : Shape).Idx → EReal) (W : (⟨2, ![512, 64]⟩ : Shape).Idx → EReal)
    (b g β : (⟨1, ![64]⟩ : Shape).Idx → EReal) (T : (⟨2, ![4, 32]⟩ : Shape).Idx → EReal)
    (W1 : (⟨2, ![32, 64]⟩ : Shape).Idx → EReal) (b1 : (⟨1, ![64]⟩ : Shape).Idx → EReal)
    (W2 : (⟨2, ![64, 1]⟩ : Shape).Idx → EReal) (b2 : (⟨1, ![1]⟩ : Shape).Idx → EReal) :
    (⟨2, ![131072, 1]⟩ : Shape).Idx → EReal :=
  fun i => rowDiv (fun k => X (ix2 (i 0) k)) (fun k j => W (ix2 k j)) (fun j => b (ix1 j)) (fun j => g (ix1 j))
    (fun j => β (ix1 j)) (fun p q => T (ix2 p q)) (fun q j => W1 (ix2 q j)) (fun j => b1 (ix1 j))
    (fun j => W2 (ix2 j (0 : Fin 1))) (b2 (ix1 (0 : Fin 1)))

/-- On a real input array, real first-layer weights and a real first-layer bias the two result columns are equal. -/
theorem outMul_eq_outDiv {X : (⟨2, ![131072, 512]⟩ : Shape).Idx → EReal} {W : (⟨2, ![512, 64]⟩ : Shape).Idx → EReal}
    {b : (⟨1, ![64]⟩ : Shape).Idx → EReal} (hX : ∀ i, IsReal (X i)) (hW : ∀ i, IsReal (W i)) (hb : ∀ i, IsReal (b i))
    (g β : (⟨1, ![64]⟩ : Shape).Idx → EReal) (T : (⟨2, ![4, 32]⟩ : Shape).Idx → EReal)
    (W1 : (⟨2, ![32, 64]⟩ : Shape).Idx → EReal) (b1 : (⟨1, ![64]⟩ : Shape).Idx → EReal)
    (W2 : (⟨2, ![64, 1]⟩ : Shape).Idx → EReal) (b2 : (⟨1, ![1]⟩ : Shape).Idx → EReal) :
    outMul X W b g β T W1 b1 W2 b2 = outDiv X W b g β T W1 b1 W2 b2 :=
  funext fun i => rowMul_eq_rowDiv (fun k => hX (ix2 (i 0) k)) (fun k j => hW (ix2 k j)) (fun j => hb (ix1 j)) _ _ _ _ _ _ _

end Cert.Mps

end
-- ==== Proof.KernelRun.lean ====
/-
  The kernel program's run with its result named.

  After the launch the 1024×128 output array holds, at `(A, l)`, the row function of features row `128·A + l`; the
  recast to 131072×1 reads row `r` at `(r / 128, r % 128)`, and `128·(r / 128) + r % 128 = r`: the result at `(r, 0)` is
  the row function of features row `r`. The one-row arrays the launch stages are the recast bias, gain and shift
  vectors, so the result is `outMul` of the argument arrays as launched. The argument arrays end as launched: a staged
  array is never written back, an unstaged one is touched by no host line.
-/
import proofs.«160124_j55654186221891_2_alg».proof.Proof.KernelValue
import proofs.«160124_j55654186221891_2_alg».proof.Proof.KernelHost
import proofs.«160124_j55654186221891_2_alg».proof.Proof.KernelPay
import proofs.«160124_j55654186221891_2_alg».proof.Proof.Out

noncomputable section

namespace Cert.KernelIdeal.Hand

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- `G` at an index given by its two coordinates. -/
theorem G_apply (X : S131072x512.Idx → EReal) (W : S512x64.Idx → EReal) (b g β : S1x64.Idx → EReal) (T : S4x32.Idx → EReal)
    (W1 : S32x64.Idx → EReal) (b1 : S1x64.Idx → EReal) (W2 : S64x1.Idx → EReal) (b2 : S1x1.Idx → EReal) (A : Fin 1024) (l : Fin 128) :
    G X W b g β T W1 b1 W2 b2 (ix2 A l) = Cert.Mps.rowMul (fun k => X (ix2 (rowOf A l) k)) (fun k j => W (ix2 k j))
      (fun j => b (ix2 (0 : Fin 1) j)) (fun j => g (ix2 (0 : Fin 1) j)) (fun j => β (ix2 (0 : Fin 1) j))
      (fun p q => T (ix2 p q)) (fun q j => W1 (ix2 q j)) (fun j => b1 (ix2 (0 : Fin 1) j)) (fun j => W2 (ix2 j (0 : Fin 1)))
      (b2 (ix2 (0 : Fin 1) (0 : Fin 1))) := rfl

/-- The result function at row `r`. -/
theorem outMul_at (X : (⟨2, ![131072, 512]⟩ : Shape).Idx → EReal) (W : (⟨2, ![512, 64]⟩ : Shape).Idx → EReal)
    (b g β : (⟨1, ![64]⟩ : Shape).Idx → EReal) (T : (⟨2, ![4, 32]⟩ : Shape).Idx → EReal) (W1 : (⟨2, ![32, 64]⟩ : Shape).Idx → EReal)
    (b1 : (⟨1, ![64]⟩ : Shape).Idx → EReal) (W2 : (⟨2, ![64, 1]⟩ : Shape).Idx → EReal) (b2 : (⟨1, ![1]⟩ : Shape).Idx → EReal)
    (r : Fin 131072) :
    Cert.Mps.outMul X W b g β T W1 b1 W2 b2 (ix2 r (0 : Fin 1)) = Cert.Mps.rowMul (fun k => X (ix2 r k)) (fun k j => W (ix2 k j))
      (fun j => b (ix1 j)) (fun j => g (ix1 j)) (fun j => β (ix1 j)) (fun p q => T (ix2 p q)) (fun q j => W1 (ix2 q j))
      (fun j => b1 (ix1 j)) (fun j => W2 (ix2 j (0 : Fin 1))) (b2 (ix1 (0 : Fin 1))) := rfl

/-- The row function respects equality of each of its ten arguments. -/
theorem rowMul_congr {x x' : Fin 512 → EReal} {W W' : Fin 512 → Fin 64 → EReal} {b b' g g' β β' : Fin 64 → EReal}
    {T T' : Fin 4 → Fin 32 → EReal} {W1 W1' : Fin 32 → Fin 64 → EReal} {b1 b1' : Fin 64 → EReal} {W2 W2' : Fin 64 → EReal}
    {b2 b2' : EReal} (hx : x = x') (hW : W = W') (hb : b = b') (hg : g = g') (hβ : β = β') (hT : T = T') (hW1 : W1 = W1')
    (hb1 : b1 = b1') (hW2 : W2 = W2') (hb2 : b2 = b2') :
    Cert.Mps.rowMul x W b g β T W1 b1 W2 b2 = Cert.Mps.rowMul x' W' b' g' β' T' W1' b1' W2' b2' := by
  subst hx hW hb hg hβ hT hW1 hb1 hW2 hb2
  rfl

/-- The recast output, as the result function of the argument arrays as launched. -/
theorem result_eq (c : Dev nD) :
    shapeCast S131072x1 (G (V m c main_arg0) (V m c main_arg1) (V m c main_v0) (V m c main_v1) (V m c main_v2) (V m c main_arg5)
        (V m c main_arg8) (V m c main_v3) (V m c main_arg10) (V m c main_v4)) shapeCasts_S1024x128_S131072x1
      = Cert.Mps.outMul (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) := by
  rw [V_main_arg0 m c, V_main_arg1 m c, HostSide.V_v0 m c, HostSide.V_v1 m c, HostSide.V_v2 m c, V_main_arg5 m c, V_main_arg8 m c,
    HostSide.V_v3 m c, V_main_arg10 m c, HostSide.V_v4 m c]
  funext i
  obtain ⟨r, u, rfl⟩ : ∃ (r : Fin 131072) (u : Fin 1), i = ix2 r u := ⟨i 0, i 1, eq_ix2 i⟩
  obtain rfl : u = 0 := Subsingleton.elim _ _
  rw [HostSide.recast_apply, G_apply, outMul_at]
  refine rowMul_congr (funext fun k => ?_) rfl (funext fun j => HostSide.row_apply _ j) (funext fun j => HostSide.row_apply _ j)
    (funext fun j => HostSide.row_apply _ j) rfl rfl (funext fun j => HostSide.row_apply _ j) rfl (HostSide.one_apply _)
  refine congrArg (m ((c.tc : Thread nD τ).loc main_arg0)) (congrArg (fun q => ix2 q k) (Fin.ext ?_))
  show 128 * (r.val / 128) + r.val % 128 = r.val
  omega

/-- The run: the result array at `outMul` of the argument arrays, the argument arrays unchanged. -/
theorem run_value (hp : PayLaw) :
    θ_run (defs (F := Ideal)) (onTc (τ := τ) (main (F := Ideal))) ⟨m, fun _ => 0, ρ⟩ fun r => ∀ c : Dev nD,
      r.2.mem ((c.tc : Thread nD τ).loc main_v6) = Cert.Mps.outMul (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨
      ((h c).2 main_v6 (Pipeline.mem_restRefs_of main_v6 (by decide) (by decide))).trans
        (((HostSide.tail_v6 m c).trans
          (congrArg (fun A => shapeCast S131072x1 A shapeCasts_S1024x128_S131072x1) (final m hp c))).trans (result_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).1 6).trans (((dats m 0 c).arrAt_in 6 rfl _).trans ((A_eq m c 6).trans (V_main_arg8 m c))),
      ((h c).2 main_arg9 (Pipeline.mem_restRefs_of main_arg9 (by decide) (by decide))).trans (W_main_arg9 m (dats m) c),
      ((h c).1 8).trans (((dats m 0 c).arrAt_in 8 rfl _).trans ((A_eq m c 8).trans (V_main_arg10 m c))),
      ((h c).2 main_arg11 (Pipeline.mem_restRefs_of main_arg11 (by decide) (by decide))).trans (W_main_arg11 m (dats m) c)⟩)
    (run_main m ρ)

end Cert.KernelIdeal.Hand

end
-- ==== Proof.RefTerm.lean ====
/-
  The reference program's result as one term of its argument arrays, in stages.

  Only the operations the result depends on appear: the first linear layer with its rectification (`hidden`), the row
  mean kept as a column (`meanCol`), the biased variance as the program's variance function spells it (`varCol`: the
  mean recomputed, the squared deviations summed, the divisor `64 − 0` from the degrees-of-freedom argument, and the
  selection of that quotient because the divisor is positive), the normalisation (`normed`), the first site's four
  values per row (`site0`), their contraction (`bond`), and the two last layers with the logistic function spelt out
  (`squash`). The contractions over the other sites never reach the result.
-/
import proofs.«160124_j55654186221891_2_alg».proof.ReferenceIdeal
import proofs.«160124_j55654186221891_2_alg».proof.Proof.Gen.ReferenceIdeal
import Idealize.ShloMosaic.PureOps.Ideal

noncomputable section

namespace Cert.ReferenceIdeal.RefTerm

open Cert.ReferenceIdeal Cert.ReferenceIdeal.Gen Idealize.ShloMosaic

/-- A zero spread over a 131072×64 array, and the rectification against it. -/
def relu64 (v : FVec Ideal S131072x64 .f32) : FVec Ideal S131072x64 .f32 :=
  maximumf v (broadcastInDim S131072x64 ![] bcast_S_S131072x64 (constant (F := Ideal) S_ .f32 0x00000000#32))

/-- A 64-vector spread over the rows of a 131072×64 array. -/
def overRows (b : FVec Ideal S64 .f32) : FVec Ideal S131072x64 .f32 :=
  broadcastInDim S131072x64 ![0, 1] bcast_S1x64_S131072x64_0_1 (broadcastInDim S1x64 ![1] bcast_S64_S1x64_1 b)

/-- A 131072×1 column spread over 64 columns. -/
def overCols (v : FVec Ideal S131072x1 .f32) : FVec Ideal S131072x64 .f32 :=
  broadcastInDim S131072x64 ![0, 1] bcast_S131072x1_S131072x64_0_1 v

/-- A scalar spread over a 131072×1 column. -/
def column (s : FVec Ideal S_ .f32) : FVec Ideal S131072x1 .f32 :=
  broadcastInDim S131072x1 ![] bcast_S_S131072x1 s

/-- The row sums of a 131072×64 array, kept as a 131072×1 column. -/
def rowSums (v : FVec Ideal S131072x64 .f32) : FVec Ideal S131072x1 .f32 :=
  broadcastInDim S131072x1 ![0] bcast_S131072_S131072x1_0
    (Host.reduceAdd (F := Ideal) v (constant (F := Ideal) S_ .f32 0x00000000#32) reducesTo_S131072x64_S131072_d1 h_S_)

/-- The rectified first layer: `relu (x · W + b)`. -/
def hidden (a0 : FVec Ideal S131072x512 .f32) (a1 : FVec Ideal S512x64 .f32) (a2 : FVec Ideal S64 .f32) : FVec Ideal S131072x64 .f32 :=
  relu64 (addf (Host.dotGeneral (F := Ideal) dot_S131072x512_S512x64_S131072x64_1_0_0_1_n_n none a0 a1) (overRows a2))

/-- The row means as a column: the row sums over a spread 64. -/
def meanCol (h : FVec Ideal S131072x64 .f32) : FVec Ideal S131072x1 .f32 :=
  Host.divf (F := Ideal) (rowSums h) (column (constant (F := Ideal) S_ .f32 0x42800000#32))

/-- The row variances as a column, as the variance function computes them with zero degrees of freedom removed. -/
def varCol (h : FVec Ideal S131072x64 .f32) : FVec Ideal S131072x1 .f32 :=
  select (broadcastInDim S131072x1 ![] bcast_S_S131072x1
      (cmpf .ogt (subf (constant (F := Ideal) S_ .f32 0x42800000#32) (sitofp .f32 (constantI S_ 32 0#32)))
        (constant (F := Ideal) S_ .f32 0x00000000#32)))
    (Host.divf (F := Ideal)
      (rowSums (mulf (subf h (overCols (meanCol h))) (subf h (overCols (meanCol h)))))
      (column (subf (constant (F := Ideal) S_ .f32 0x42800000#32) (sitofp .f32 (constantI S_ 32 0#32)))))
    (column (id (constant (F := Ideal) S_ .f32 0x7FC00000#32)))

/-- The normalised hidden values: `(h − mean) / sqrt (var + ε) · g + β`. -/
def normed (h : FVec Ideal S131072x64 .f32) (a3 a4 : FVec Ideal S64 .f32) : FVec Ideal S131072x64 .f32 :=
  addf (mulf (Host.divf (F := Ideal) (subf h (overCols (meanCol h)))
        (overCols (Host.sqrt (F := Ideal) (addf (varCol h) (column (constant (F := Ideal) S_ .f32 0x3727C5AC#32))))))
      (overRows a3)) (overRows a4)

/-- The first site's four values per row: the array seen as 131072×16×4, site 0 taken, the unit axis dropped. -/
def site0 (v : FVec Ideal S131072x64 .f32) : FVec Ideal S131072x4 .f32 :=
  shapeCast S131072x4 (extractStridedSlice S131072x1x4 ![0, 0, 0] (shapeCast S131072x16x4 v shapeCasts_S131072x64_S131072x16x4)
    slices_S131072x16x4_S131072x1x4_0_0_0) shapeCasts_S131072x1x4_S131072x4

/-- The first site contracted with the 4×32 table. -/
def bond (e : FVec Ideal S131072x4 .f32) (a5 : FVec Ideal S4x32 .f32) : FVec Ideal S131072x32 .f32 :=
  Host.dotGeneral (F := Ideal) dot_S131072x4_S4x32_S131072x32_1_0_0_1_n_n none e a5

/-- The two last layers and the logistic function, spelt `1 / (1 + exp (−z))`. -/
def squash (c : FVec Ideal S131072x32 .f32) (a8 : FVec Ideal S32x64 .f32) (a9 : FVec Ideal S64 .f32) (a10 : FVec Ideal S64x1 .f32)
    (a11 : FVec Ideal S1 .f32) : FVec Ideal S131072x1 .f32 :=
  Host.divf (F := Ideal) (column (constant (F := Ideal) S_ .f32 0x3F800000#32))
    (addf (column (constant (F := Ideal) S_ .f32 0x3F800000#32))
      (Host.exp (F := Ideal) (Host.negf (F := Ideal)
        (addf (Host.dotGeneral (F := Ideal) dot_S131072x64_S64x1_S131072x1_1_0_0_1_n_n none
            (relu64 (addf (Host.dotGeneral (F := Ideal) dot_S131072x32_S32x64_S131072x64_1_0_0_1_n_n none c a8) (overRows a9))) a10)
          (broadcastInDim S131072x1 ![0, 1] bcast_S1x1_S131072x1_0_1 (broadcastInDim S1x1 ![1] bcast_S1_S1x1_1 a11))))))

/-- The reference's result as one term of the ten arrays it depends on. -/
def term (a0 : FVec Ideal S131072x512 .f32) (a1 : FVec Ideal S512x64 .f32) (a2 a3 a4 : FVec Ideal S64 .f32) (a5 : FVec Ideal S4x32 .f32)
    (a8 : FVec Ideal S32x64 .f32) (a9 : FVec Ideal S64 .f32) (a10 : FVec Ideal S64x1 .f32) (a11 : FVec Ideal S1 .f32) :
    FVec Ideal S131072x1 .f32 :=
  squash (bond (site0 (normed (hidden a0 a1 a2) a3 a4)) a5) a8 a9 a10 a11

end Cert.ReferenceIdeal.RefTerm

end
-- ==== Proof.RefRun.lean ====
/-
  The reference program's run, read back.

  @main is a straight line of host operations once its three calls are unfolded: the rectification (twice) and the
  variance function, which itself calls the selection function. The operations are listed in order, each call's
  operations at the call site over that call's buffers, in seven consecutive stretches cut where the data flow is
  narrow; @main is the stretches run in order; every weakly fair execution terminates with each buffer at the fold of
  the operations' results over the launch contents. The fold is read one stretch at a time: after each stretch the few
  buffers still needed hold a named stage of the composed term, and the argument buffers are written by no operation.
-/
import proofs.«160124_j55654186221891_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first layer and its rectification: the product, the bias spread over the rows, their sum, and the maximum with a spread zero. -/
abbrev opsA : List (HloOp τ sig (Elt F)) :=
  [ binary main_arg0 main_arg1 main_v0 ((fun l r => Host.dotGeneral dot_S131072x512_S512x64_S131072x64_1_0_0_1_n_n none l r) : (⟨S131072x512, .f32⟩ : BufTy).Contents (Elt F) → (⟨S512x64, .f32⟩ : BufTy).Contents (Elt F) → (⟨S131072x64, .f32⟩ : BufTy).Contents (Elt F)),
    unary main_arg2 main_v1 (broadcastInDim S1x64 ![1] bcast_S64_S1x64_1 : (⟨S64, .f32⟩ : BufTy).Contents (Elt F) → (⟨S1x64, .f32⟩ : BufTy).Contents (Elt F)),
    unary main_v1 main_v2 (broadcastInDim S131072x64 ![0, 1] bcast_S1x64_S131072x64_0_1 : (⟨S1x64, .f32⟩ : BufTy).Contents (Elt F) → (⟨S131072x64, .f32⟩ : BufTy).Contents (Elt F)),
    binary main_v0 main_v2 main_v3 (addf : (⟨S131072x64, .f32⟩ : BufTy).Contents (Elt F) → (⟨S131072x64, .f32⟩ : BufTy).Contents (Elt F) → (⟨S131072x64, .f32⟩ : BufTy).Contents (Elt F)),
    nullary main_call0_cst (constant S_ .f32 0x00000000#32),
    unary main_call0_cst main_call0_v0 (broadcastInDim S131072x64 ![] bcast_S_S131072x64 : (⟨S_, .f32⟩ : BufTy).Contents (Elt F) → (⟨S131072x64, .f32⟩ : BufTy).Contents (Elt F)),
    binary main_v3 main_call0_v0 main_v4 (maximumf : (⟨S131072x64, .f32⟩ : BufTy).Contents (Elt F) → (⟨S131072x64, .f32⟩ : BufTy).Contents (Elt F) → (⟨S131072x64, .f32⟩ : BufTy).Contents (Elt F)) ]

/-- The row mean as a column, the integer zero, and the variance function's operations: the mean again, the squared deviations summed, the divisor, the comparison and the selection. -/
abbrev opsB : List (HloOp τ sig (Elt F)) :=
  [ nullary main_cst (constant S_ .f32 0x00000000#32),
    binary main_v4 main_cst main_v5 ((fun x v => Host.reduceAdd x v reducesTo_S131072x64_S131072_d1 h_S_) : (⟨S131072x64, .f32⟩ : BufTy).Contents (Elt F) → (⟨S_, .f32⟩ : BufTy).Contents (Elt F) → (⟨S131072, .f32⟩ : BufTy).Contents (Elt F)),
    unary main_v5 main_v6 (broadcastInDim S131072x1 ![0] bcast_S131072_S131072x1_0 : (⟨S131072, .f32⟩ : BufTy).Contents (Elt F) → (⟨S131072x1, .f32⟩ : BufTy).Contents (Elt F)),
    nullary main_cst_0 (constant S_ .f32 0x42800000#32),
    unary main_cst_0 main_v7 (broadcastInDim S131072x1 ![] bcast_S_S131072x1 : (⟨S_, .f32⟩ : BufTy).Contents (Elt F) → (⟨S131072x1, .f32⟩ : BufTy).Contents (Elt F)),
    binary main_v6 main_v7 main_v8 (Host.divf : (⟨S131072x1, .f32⟩ : BufTy).Contents (Elt F) → (⟨S131072x1, .f32⟩ : BufTy).Contents (Elt F) → (⟨S131072x1, .f32⟩ : BufTy).Contents (Elt F)),
    nullary main_c (constantI S_ 32 0#32),
    nullary main_call1_cst (constant S_ .f32 0x00000000#32),
    binary main_v4 main_call1_cst main_call1_v0 ((fun x v => Host.reduceAdd x v reducesTo_S131072x64_S131072_d1 h_S_) : (⟨S131072x64, .f32⟩ : BufTy).Contents (Elt F) → (⟨S_, .f32⟩ : BufTy).Contents (Elt F) → (⟨S131072, .f32⟩ : BufTy).Contents (Elt F)),
    unary main_call1_v0 main_call1_v1 (broadcastInDim S131072x1 ![0] bcast_S131072_S131072x1_0 : (⟨S131072, .f32⟩ : BufTy).Contents (Elt F) → (⟨S131072x1, .f32⟩ : BufTy).Contents (Elt F)),
    nullary main_call1_cst_0 (constant S_ .f32 0x42800000#32),
    unary main_call1_cst_0 main_call1_v2 (broadcastInDim S131072x1 ![] bcast_S_S131072x1 : (⟨S_, .f32⟩ : BufTy).Contents (Elt F) → (⟨S131072x1, .f32⟩ : BufTy).Contents (Elt F)),
    binary main_call1_v1 main_call1_v2 main_call1_v3 (Host.divf : (⟨S131072x1, .f32⟩ : BufTy).Contents (Elt F) → (⟨S131072x1, .f32⟩ : BufTy).Contents (Elt F) → (⟨S131072x1, .f32⟩ : BufTy).Contents (Elt F)),
    unary main_call1_v3 main_call1_v4 (broadcastInDim S131072x64 ![0, 1] bcast_S131072x1_S131072x64_0_1 : (⟨S131072x1, .f32⟩ : BufTy).Contents (Elt F) → (⟨S131072x64, .f32⟩ : BufTy).Contents (Elt F)),
    binary main_v4 main_call1_v4 main_call1_v5 (subf : (⟨S131072x64, .f32⟩ : BufTy).Contents (Elt F) → (⟨S131072x64, .f32⟩ : BufTy).Contents (Elt F) → (⟨S131072x64, .f32⟩ : BufTy).Contents (Elt F)),
    binary main_call1_v5 main_call1_v5 main_call1_v6 (mulf : (⟨S131072x64, .f32⟩ : BufTy).Contents (Elt F) → (⟨S131072x64, .f32⟩ : BufTy).Contents (Elt F) → (⟨S131072x64, .f32⟩ : BufTy).Contents (Elt F)),
    unary main_c main_call1_v7 (sitofp .f32 : (⟨S_, .i32⟩ : BufTy).Contents (Elt F) → (⟨S_, .f32⟩ : BufTy).Contents (Elt F)),
    nullary main_call1_cst_1 (constant S_ .f32 0x42800000#32),
    binary main_call1_cst_1 main_call1_v7 main_call1_v8 (subf : (⟨S_, .f32⟩ : BufTy).Contents (Elt F) → (⟨S_, .f32⟩ : BufTy).Contents (Elt F) → (⟨S_, .f32⟩ : BufTy).Contents (Elt F)),
    nullary main_call1_cst_2 (constant S_ .f32 0x00000000#32),
    binary main_call1_v6 main_call1_cst_2 main_call1_v9 ((fun x v => Host.reduceAdd x v reducesTo_S131072x64_S131072_d1 h_S_) : (⟨S131072x64, .f32⟩ : BufTy).Contents (Elt F) → (⟨S_, .f32⟩ : BufTy).Contents (Elt F) → (⟨S131072, .f32⟩ : BufTy).Contents (Elt F)),
    unary main_call1_v9 main_call1_v10 (broadcastInDim S131072x1 ![0] bcast_S131072_S131072x1_0 : (⟨S131072, .f32⟩ : BufTy).Contents (Elt F) → (⟨S131072x1, .f32⟩ : BufTy).Contents (Elt F)),
    unary main_call1_v8 main_call1_v11 (broadcastInDim S131072x1 ![] bcast_S_S131072x1 : (⟨S_, .f32⟩ : BufTy).Contents (Elt F) → (⟨S131072x1, .f32⟩ : BufTy).Contents (Elt F)),
    binary main_call1_v10 main_call1_v11 main_call1_v12 (Host.divf : (⟨S131072x1, .f32⟩ : BufTy).Contents (Elt F) → (⟨S131072x1, .f32⟩ : BufTy).Contents (Elt F) → (⟨S131072x1, .f32⟩ : BufTy).Contents (Elt F)),
    nullary main_call1_cst_3 (constant S_ .f32 0x00000000#32),
    binary main_call1_v8 main_call1_cst_3 main_call1_v13 (cmpf .ogt : (⟨S_, .f32⟩ : BufTy).Contents (Elt F) → (⟨S_, .f32⟩ : BufTy).Contents (Elt F) → (⟨S_, .i1⟩ : BufTy).Contents (Elt F)),
    nullary main_call1_cst_4 (constant S_ .f32 0x7FC00000#32),
    unary main_call1_cst_4 main_call1_call0_v0 (id : (⟨S_, .f32⟩ : BufTy).Contents (Elt F) → (⟨S_, .f32⟩ : BufTy).Contents (Elt F)),
    unary main_call1_call0_v0 main_call1_call0_v1 (broadcastInDim S131072x1 ![] bcast_S_S131072x1 : (⟨S_, .f32⟩ : BufTy).Contents (Elt F) → (⟨S131072x1, .f32⟩ : BufTy).Contents (Elt F)),
    ternary main_call1_v13 main_call1_v12 main_call1_call0_v1 main_v9 ((fun p a b => select (broadcastInDim S131072x1 ![] bcast_S_S131072x1 p) a b) : (⟨S_, .i1⟩ : BufTy).Contents (Elt F) → (⟨S131072x1, .f32⟩ : BufTy).Contents (Elt F) → (⟨S131072x1, .f32⟩ : BufTy).Contents (Elt F) → (⟨S131072x1, .f32⟩ : BufTy).Contents (Elt F)) ]

/-- The normalisation, the scale and shift, the 16×4 view, the first site's slice and its contraction with the 4×32 table. -/
abbrev opsC : List (HloOp τ sig (Elt F)) :=
  [ unary main_v8 main_v10 (broadcastInDim S131072x64 ![0, 1] bcast_S131072x1_S131072x64_0_1 : (⟨S131072x1, .f32⟩ : BufTy).Contents (Elt F) → (⟨S131072x64, .f32⟩ : BufTy).Contents (Elt F)),
    binary main_v4 main_v10 main_v11 (subf : (⟨S131072x64, .f32⟩ : BufTy).Contents (Elt F) → (⟨S131072x64, .f32⟩ : BufTy).Contents (Elt F) → (⟨S131072x64, .f32⟩ : BufTy).Contents (Elt F)),
    nullary main_cst_1 (constant S_ .f32 0x3727C5AC#32),
    unary main_cst_1 main_v12 (broadcastInDim S131072x1 ![] bcast_S_S131072x1 : (⟨S_, .f32⟩ : BufTy).Contents (Elt F) → (⟨S131072x1, .f32⟩ : BufTy).Contents (Elt F)),
    binary main_v9 main_v12 main_v13 (addf : (⟨S131072x1, .f32⟩ : BufTy).Contents (Elt F) → (⟨S131072x1, .f32⟩ : BufTy).Contents (Elt F) → (⟨S131072x1, .f32⟩ : BufTy).Contents (Elt F)),
    unary main_v13 main_v14 (Host.sqrt : (⟨S131072x1, .f32⟩ : BufTy).Contents (Elt F) → (⟨S131072x1, .f32⟩ : BufTy).Contents (Elt F)),
    unary main_v14 main_v15 (broadcastInDim S131072x64 ![0, 1] bcast_S131072x1_S131072x64_0_1 : (⟨S131072x1, .f32⟩ : BufTy).Contents (Elt F) → (⟨S131072x64, .f32⟩ : BufTy).Contents (Elt F)),
    binary main_v11 main_v15 main_v16 (Host.divf : (⟨S131072x64, .f32⟩ : BufTy).Contents (Elt F) → (⟨S131072x64, .f32⟩ : BufTy).Contents (Elt F) → (⟨S131072x64, .f32⟩ : BufTy).Contents (Elt F)),
    unary main_arg3 main_v17 (broadcastInDim S1x64 ![1] bcast_S64_S1x64_1 : (⟨S64, .f32⟩ : BufTy).Contents (Elt F) → (⟨S1x64, .f32⟩ : BufTy).Contents (Elt F)),
    unary main_v17 main_v18 (broadcastInDim S131072x64 ![0, 1] bcast_S1x64_S131072x64_0_1 : (⟨S1x64, .f32⟩ : BufTy).Contents (Elt F) → (⟨S131072x64, .f32⟩ : BufTy).Contents (Elt F)),
    binary main_v16 main_v18 main_v19 (mulf : (⟨S131072x64, .f32⟩ : BufTy).Contents (Elt F) → (⟨S131072x64, .f32⟩ : BufTy).Contents (Elt F) → (⟨S131072x64, .f32⟩ : BufTy).Contents (Elt F)),
    unary main_arg4 main_v20 (broadcastInDim S1x64 ![1] bcast_S64_S1x64_1 : (⟨S64, .f32⟩ : BufTy).Contents (Elt F) → (⟨S1x64, .f32⟩ : BufTy).Contents (Elt F)),
    unary main_v20 main_v21 (broadcastInDim S131072x64 ![0, 1] bcast_S1x64_S131072x64_0_1 : (⟨S1x64, .f32⟩ : BufTy).Contents (Elt F) → (⟨S131072x64, .f32⟩ : BufTy).Contents (Elt F)),
    binary main_v19 main_v21 main_v22 (addf : (⟨S131072x64, .f32⟩ : BufTy).Contents (Elt F) → (⟨S131072x64, .f32⟩ : BufTy).Contents (Elt F) → (⟨S131072x64, .f32⟩ : BufTy).Contents (Elt F)),
    reshape main_v22 main_v23 rfl shapeCasts_S131072x64_S131072x16x4,
    unary main_v23 main_v24 ((extractStridedSlice S131072x1x4 ![0, 0, 0] · slices_S131072x16x4_S131072x1x4_0_0_0) : (⟨S131072x16x4, .f32⟩ : BufTy).Contents (Elt F) → (⟨S131072x1x4, .f32⟩ : BufTy).Contents (Elt F)),
    reshape main_v24 main_v25 rfl shapeCasts_S131072x1x4_S131072x4,
    binary main_v25 main_arg5 main_v26 ((fun l r => Host.dotGeneral dot_S131072x4_S4x32_S131072x32_1_0_0_1_n_n none l r) : (⟨S131072x4, .f32⟩ : BufTy).Contents (Elt F) → (⟨S4x32, .f32⟩ : BufTy).Contents (Elt F) → (⟨S131072x32, .f32⟩ : BufTy).Contents (Elt F)) ]

/-- The contractions over the sites, first stretch (none of them reaches the result). -/
abbrev opsD : List (HloOp τ sig (Elt F)) :=
  [ unary main_arg6 main_v27 ((extractStridedSlice S1x32x4x32 ![0, 0, 0, 0] · slices_S14x32x4x32_S1x32x4x32_0_0_0_0) : (⟨S14x32x4x32, .f32⟩ : BufTy).Contents (Elt F) → (⟨S1x32x4x32, .f32⟩ : BufTy).Contents (Elt F)),
    reshape main_v27 main_v28 rfl shapeCasts_S1x32x4x32_S32x4x32,
    binary main_v26 main_v28 main_v29 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v30 ((extractStridedSlice S131072x1x4 ![0, 1, 0] · slices_S131072x16x4_S131072x1x4_0_1_0) : (⟨S131072x16x4, .f32⟩ : BufTy).Contents (Elt F) → (⟨S131072x1x4, .f32⟩ : BufTy).Contents (Elt F)),
    reshape main_v30 main_v31 rfl shapeCasts_S131072x1x4_S131072x4,
    binary main_v29 main_v31 main_v32 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    unary main_arg6 main_v33 ((extractStridedSlice S1x32x4x32 ![1, 0, 0, 0] · slices_S14x32x4x32_S1x32x4x32_1_0_0_0) : (⟨S14x32x4x32, .f32⟩ : BufTy).Contents (Elt F) → (⟨S1x32x4x32, .f32⟩ : BufTy).Contents (Elt F)),
    reshape main_v33 main_v34 rfl shapeCasts_S1x32x4x32_S32x4x32,
    binary main_v26 main_v34 main_v35 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v36 ((extractStridedSlice S131072x1x4 ![0, 2, 0] · slices_S131072x16x4_S131072x1x4_0_2_0) : (⟨S131072x16x4, .f32⟩ : BufTy).Contents (Elt F) → (⟨S131072x1x4, .f32⟩ : BufTy).Contents (Elt F)),
    reshape main_v36 main_v37 rfl shapeCasts_S131072x1x4_S131072x4,
    binary main_v35 main_v37 main_v38 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    unary main_arg6 main_v39 ((extractStridedSlice S1x32x4x32 ![2, 0, 0, 0] · slices_S14x32x4x32_S1x32x4x32_2_0_0_0) : (⟨S14x32x4x32, .f32⟩ : BufTy).Contents (Elt F) → (⟨S1x32x4x32, .f32⟩ : BufTy).Contents (Elt F)),
    reshape main_v39 main_v40 rfl shapeCasts_S1x32x4x32_S32x4x32,
    binary main_v26 main_v40 main_v41 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v42 ((extractStridedSlice S131072x1x4 ![0, 3, 0] · slices_S131072x16x4_S131072x1x4_0_3_0) : (⟨S131072x16x4, .f32⟩ : BufTy).Contents (Elt F) → (⟨S131072x1x4, .f32⟩ : BufTy).Contents (Elt F)),
    reshape main_v42 main_v43 rfl shapeCasts_S131072x1x4_S131072x4,
    binary main_v41 main_v43 main_v44 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    unary main_arg6 main_v45 ((extractStridedSlice S1x32x4x32 ![3, 0, 0, 0] · slices_S14x32x4x32_S1x32x4x32_3_0_0_0) : (⟨S14x32x4x32, .f32⟩ : BufTy).Contents (Elt F) → (⟨S1x32x4x32, .f32⟩ : BufTy).Contents (Elt F)),
    reshape main_v45 main_v46 rfl shapeCasts_S1x32x4x32_S32x4x32,
    binary main_v26 main_v46 main_v47 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v48 ((extractStridedSlice S131072x1x4 ![0, 4, 0] · slices_S131072x16x4_S131072x1x4_0_4_0) : (⟨S131072x16x4, .f32⟩ : BufTy).Contents (Elt F) → (⟨S131072x1x4, .f32⟩ : BufTy).Contents (Elt F)),
    reshape main_v48 main_v49 rfl shapeCasts_S131072x1x4_S131072x4,
    binary main_v47 main_v49 main_v50 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    unary main_arg6 main_v51 ((extractStridedSlice S1x32x4x32 ![4, 0, 0, 0] · slices_S14x32x4x32_S1x32x4x32_4_0_0_0) : (⟨S14x32x4x32, .f32⟩ : BufTy).Contents (Elt F) → (⟨S1x32x4x32, .f32⟩ : BufTy).Contents (Elt F)),
    reshape main_v51 main_v52 rfl shapeCasts_S1x32x4x32_S32x4x32,
    binary main_v26 main_v52 main_v53 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v54 ((extractStridedSlice S131072x1x4 ![0, 5, 0] · slices_S131072x16x4_S131072x1x4_0_5_0) : (⟨S131072x16x4, .f32⟩ : BufTy).Contents (Elt F) → (⟨S131072x1x4, .f32⟩ : BufTy).Contents (Elt F)),
    reshape main_v54 main_v55 rfl shapeCasts_S131072x1x4_S131072x4 ]

/-- The contractions over the sites, second stretch (none of them reaches the result). -/
abbrev opsE : List (HloOp τ sig (Elt F)) :=
  [ binary main_v53 main_v55 main_v56 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    unary main_arg6 main_v57 ((extractStridedSlice S1x32x4x32 ![5, 0, 0, 0] · slices_S14x32x4x32_S1x32x4x32_5_0_0_0) : (⟨S14x32x4x32, .f32⟩ : BufTy).Contents (Elt F) → (⟨S1x32x4x32, .f32⟩ : BufTy).Contents (Elt F)),
    reshape main_v57 main_v58 rfl shapeCasts_S1x32x4x32_S32x4x32,
    binary main_v26 main_v58 main_v59 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v60 ((extractStridedSlice S131072x1x4 ![0, 6, 0] · slices_S131072x16x4_S131072x1x4_0_6_0) : (⟨S131072x16x4, .f32⟩ : BufTy).Contents (Elt F) → (⟨S131072x1x4, .f32⟩ : BufTy).Contents (Elt F)),
    reshape main_v60 main_v61 rfl shapeCasts_S131072x1x4_S131072x4,
    binary main_v59 main_v61 main_v62 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    unary main_arg6 main_v63 ((extractStridedSlice S1x32x4x32 ![6, 0, 0, 0] · slices_S14x32x4x32_S1x32x4x32_6_0_0_0) : (⟨S14x32x4x32, .f32⟩ : BufTy).Contents (Elt F) → (⟨S1x32x4x32, .f32⟩ : BufTy).Contents (Elt F)),
    reshape main_v63 main_v64 rfl shapeCasts_S1x32x4x32_S32x4x32,
    binary main_v26 main_v64 main_v65 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v66 ((extractStridedSlice S131072x1x4 ![0, 7, 0] · slices_S131072x16x4_S131072x1x4_0_7_0) : (⟨S131072x16x4, .f32⟩ : BufTy).Contents (Elt F) → (⟨S131072x1x4, .f32⟩ : BufTy).Contents (Elt F)),
    reshape main_v66 main_v67 rfl shapeCasts_S131072x1x4_S131072x4,
    binary main_v65 main_v67 main_v68 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    unary main_arg6 main_v69 ((extractStridedSlice S1x32x4x32 ![7, 0, 0, 0] · slices_S14x32x4x32_S1x32x4x32_7_0_0_0) : (⟨S14x32x4x32, .f32⟩ : BufTy).Contents (Elt F) → (⟨S1x32x4x32, .f32⟩ : BufTy).Contents (Elt F)),
    reshape main_v69 main_v70 rfl shapeCasts_S1x32x4x32_S32x4x32,
    binary main_v26 main_v70 main_v71 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v72 ((extractStridedSlice S131072x1x4 ![0, 8, 0] · slices_S131072x16x4_S131072x1x4_0_8_0) : (⟨S131072x16x4, .f32⟩ : BufTy).Contents (Elt F) → (⟨S131072x1x4, .f32⟩ : BufTy).Contents (Elt F)),
    reshape main_v72 main_v73 rfl shapeCasts_S131072x1x4_S131072x4,
    binary main_v71 main_v73 main_v74 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    unary main_arg6 main_v75 ((extractStridedSlice S1x32x4x32 ![8, 0, 0, 0] · slices_S14x32x4x32_S1x32x4x32_8_0_0_0) : (⟨S14x32x4x32, .f32⟩ : BufTy).Contents (Elt F) → (⟨S1x32x4x32, .f32⟩ : BufTy).Contents (Elt F)),
    reshape main_v75 main_v76 rfl shapeCasts_S1x32x4x32_S32x4x32,
    binary main_v26 main_v76 main_v77 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v78 ((extractStridedSlice S131072x1x4 ![0, 9, 0] · slices_S131072x16x4_S131072x1x4_0_9_0) : (⟨S131072x16x4, .f32⟩ : BufTy).Contents (Elt F) → (⟨S131072x1x4, .f32⟩ : BufTy).Contents (Elt F)),
    reshape main_v78 main_v79 rfl shapeCasts_S131072x1x4_S131072x4,
    binary main_v77 main_v79 main_v80 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    unary main_arg6 main_v81 ((extractStridedSlice S1x32x4x32 ![9, 0, 0, 0] · slices_S14x32x4x32_S1x32x4x32_9_0_0_0) : (⟨S14x32x4x32, .f32⟩ : BufTy).Contents (Elt F) → (⟨S1x32x4x32, .f32⟩ : BufTy).Contents (Elt F)),
    reshape main_v81 main_v82 rfl shapeCasts_S1x32x4x32_S32x4x32,
    binary main_v26 main_v82 main_v83 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v84 ((extractStridedSlice S131072x1x4 ![0, 10, 0] · slices_S131072x16x4_S131072x1x4_0_10_0) : (⟨S131072x16x4, .f32⟩ : BufTy).Contents (Elt F) → (⟨S131072x1x4, .f32⟩ : BufTy).Contents (Elt F)),
    reshape main_v84 main_v85 rfl shapeCasts_S131072x1x4_S131072x4,
    binary main_v83 main_v85 main_v86 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    unary main_arg6 main_v87 ((extractStridedSlice S1x32x4x32 ![10, 0, 0, 0] · slices_S14x32x4x32_S1x32x4x32_10_0_0_0) : (⟨S14x32x4x32, .f32⟩ : BufTy).Contents (Elt F) → (⟨S1x32x4x32, .f32⟩ : BufTy).Contents (Elt F)),
    reshape main_v87 main_v88 rfl shapeCasts_S1x32x4x32_S32x4x32,
    binary main_v26 main_v88 main_v89 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v90 ((extractStridedSlice S131072x1x4 ![0, 11, 0] · slices_S131072x16x4_S131072x1x4_0_11_0) : (⟨S131072x16x4, .f32⟩ : BufTy).Contents (Elt F) → (⟨S131072x1x4, .f32⟩ : BufTy).Contents (Elt F)),
    reshape main_v90 main_v91 rfl shapeCasts_S131072x1x4_S131072x4,
    binary main_v89 main_v91 main_v92 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    unary main_arg6 main_v93 ((extractStridedSlice S1x32x4x32 ![11, 0, 0, 0] · slices_S14x32x4x32_S1x32x4x32_11_0_0_0) : (⟨S14x32x4x32, .f32⟩ : BufTy).Contents (Elt F) → (⟨S1x32x4x32, .f32⟩ : BufTy).Contents (Elt F)),
    reshape main_v93 main_v94 rfl shapeCasts_S1x32x4x32_S32x4x32,
    binary main_v26 main_v94 main_v95 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v96 ((extractStridedSlice S131072x1x4 ![0, 12, 0] · slices_S131072x16x4_S131072x1x4_0_12_0) : (⟨S131072x16x4, .f32⟩ : BufTy).Contents (Elt F) → (⟨S131072x1x4, .f32⟩ : BufTy).Contents (Elt F)),
    reshape main_v96 main_v97 rfl shapeCasts_S131072x1x4_S131072x4,
    binary main_v95 main_v97 main_v98 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    unary main_arg6 main_v99 ((extractStridedSlice S1x32x4x32 ![12, 0, 0, 0] · slices_S14x32x4x32_S1x32x4x32_12_0_0_0) : (⟨S14x32x4x32, .f32⟩ : BufTy).Contents (Elt F) → (⟨S1x32x4x32, .f32⟩ : BufTy).Contents (Elt F)),
    reshape main_v99 main_v100 rfl shapeCasts_S1x32x4x32_S32x4x32,
    binary main_v26 main_v100 main_v101 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v102 ((extractStridedSlice S131072x1x4 ![0, 13, 0] · slices_S131072x16x4_S131072x1x4_0_13_0) : (⟨S131072x16x4, .f32⟩ : BufTy).Contents (Elt F) → (⟨S131072x1x4, .f32⟩ : BufTy).Contents (Elt F)),
    reshape main_v102 main_v103 rfl shapeCasts_S131072x1x4_S131072x4,
    binary main_v101 main_v103 main_v104 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    unary main_arg6 main_v105 ((extractStridedSlice S1x32x4x32 ![13, 0, 0, 0] · slices_S14x32x4x32_S1x32x4x32_13_0_0_0) : (⟨S14x32x4x32, .f32⟩ : BufTy).Contents (Elt F) → (⟨S1x32x4x32, .f32⟩ : BufTy).Contents (Elt F)),
    reshape main_v105 main_v106 rfl shapeCasts_S1x32x4x32_S32x4x32,
    binary main_v26 main_v106 main_v107 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v108 ((extractStridedSlice S131072x1x4 ![0, 14, 0] · slices_S131072x16x4_S131072x1x4_0_14_0) : (⟨S131072x16x4, .f32⟩ : BufTy).Contents (Elt F) → (⟨S131072x1x4, .f32⟩ : BufTy).Contents (Elt F)),
    reshape main_v108 main_v109 rfl shapeCasts_S131072x1x4_S131072x4,
    binary main_v107 main_v109 main_v110 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    binary main_v26 main_arg7 main_v111 ((fun l r => Host.dotGeneral dot_S131072x32_S32x4_S131072x4_1_0_0_1_n_n none l r) : (⟨S131072x32, .f32⟩ : BufTy).Contents (Elt F) → (⟨S32x4, .f32⟩ : BufTy).Contents (Elt F) → (⟨S131072x4, .f32⟩ : BufTy).Contents (Elt F)),
    unary main_v23 main_v112 ((extractStridedSlice S131072x1x4 ![0, 15, 0] · slices_S131072x16x4_S131072x1x4_0_15_0) : (⟨S131072x16x4, .f32⟩ : BufTy).Contents (Elt F) → (⟨S131072x1x4, .f32⟩ : BufTy).Contents (Elt F)),
    reshape main_v112 main_v113 rfl shapeCasts_S131072x1x4_S131072x4,
    binary main_v111 main_v113 main_v114 (mulf : (⟨S131072x4, .f32⟩ : BufTy).Contents (Elt F) → (⟨S131072x4, .f32⟩ : BufTy).Contents (Elt F) → (⟨S131072x4, .f32⟩ : BufTy).Contents (Elt F)),
    nullary main_cst_2 (constant S_ .f32 0x00000000#32) ]

/-- The last site's row sum kept as a column (it does not reach the result). -/
abbrev opsF : List (HloOp τ sig (Elt F)) :=
  [ binary main_v114 main_cst_2 main_v115 ((fun x v => Host.reduceAdd x v reducesTo_S131072x4_S131072_d1 h_S_) : (⟨S131072x4, .f32⟩ : BufTy).Contents (Elt F) → (⟨S_, .f32⟩ : BufTy).Contents (Elt F) → (⟨S131072, .f32⟩ : BufTy).Contents (Elt F)),
    unary main_v115 main_v116 (broadcastInDim S131072x1 ![0] bcast_S131072_S131072x1_0 : (⟨S131072, .f32⟩ : BufTy).Contents (Elt F) → (⟨S131072x1, .f32⟩ : BufTy).Contents (Elt F)) ]

/-- The two last layers and the logistic function. -/
abbrev opsG : List (HloOp τ sig (Elt F)) :=
  [ binary main_v26 main_arg8 main_v117 ((fun l r => Host.dotGeneral dot_S131072x32_S32x64_S131072x64_1_0_0_1_n_n none l r) : (⟨S131072x32, .f32⟩ : BufTy).Contents (Elt F) → (⟨S32x64, .f32⟩ : BufTy).Contents (Elt F) → (⟨S131072x64, .f32⟩ : BufTy).Contents (Elt F)),
    unary main_arg9 main_v118 (broadcastInDim S1x64 ![1] bcast_S64_S1x64_1 : (⟨S64, .f32⟩ : BufTy).Contents (Elt F) → (⟨S1x64, .f32⟩ : BufTy).Contents (Elt F)),
    unary main_v118 main_v119 (broadcastInDim S131072x64 ![0, 1] bcast_S1x64_S131072x64_0_1 : (⟨S1x64, .f32⟩ : BufTy).Contents (Elt F) → (⟨S131072x64, .f32⟩ : BufTy).Contents (Elt F)),
    binary main_v117 main_v119 main_v120 (addf : (⟨S131072x64, .f32⟩ : BufTy).Contents (Elt F) → (⟨S131072x64, .f32⟩ : BufTy).Contents (Elt F) → (⟨S131072x64, .f32⟩ : BufTy).Contents (Elt F)),
    nullary main_call2_cst (constant S_ .f32 0x00000000#32),
    unary main_call2_cst main_call2_v0 (broadcastInDim S131072x64 ![] bcast_S_S131072x64 : (⟨S_, .f32⟩ : BufTy).Contents (Elt F) → (⟨S131072x64, .f32⟩ : BufTy).Contents (Elt F)),
    binary main_v120 main_call2_v0 main_v121 (maximumf : (⟨S131072x64, .f32⟩ : BufTy).Contents (Elt F) → (⟨S131072x64, .f32⟩ : BufTy).Contents (Elt F) → (⟨S131072x64, .f32⟩ : BufTy).Contents (Elt F)),
    binary main_v121 main_arg10 main_v122 ((fun l r => Host.dotGeneral dot_S131072x64_S64x1_S131072x1_1_0_0_1_n_n none l r) : (⟨S131072x64, .f32⟩ : BufTy).Contents (Elt F) → (⟨S64x1, .f32⟩ : BufTy).Contents (Elt F) → (⟨S131072x1, .f32⟩ : BufTy).Contents (Elt F)),
    unary main_arg11 main_v123 (broadcastInDim S1x1 ![1] bcast_S1_S1x1_1 : (⟨S1, .f32⟩ : BufTy).Contents (Elt F) → (⟨S1x1, .f32⟩ : BufTy).Contents (Elt F)),
    unary main_v123 main_v124 (broadcastInDim S131072x1 ![0, 1] bcast_S1x1_S131072x1_0_1 : (⟨S1x1, .f32⟩ : BufTy).Contents (Elt F) → (⟨S131072x1, .f32⟩ : BufTy).Contents (Elt F)),
    binary main_v122 main_v124 main_v125 (addf : (⟨S131072x1, .f32⟩ : BufTy).Contents (Elt F) → (⟨S131072x1, .f32⟩ : BufTy).Contents (Elt F) → (⟨S131072x1, .f32⟩ : BufTy).Contents (Elt F)),
    unary main_v125 main_v126 (Host.negf : (⟨S131072x1, .f32⟩ : BufTy).Contents (Elt F) → (⟨S131072x1, .f32⟩ : BufTy).Contents (Elt F)),
    unary main_v126 main_v127 (Host.exp : (⟨S131072x1, .f32⟩ : BufTy).Contents (Elt F) → (⟨S131072x1, .f32⟩ : BufTy).Contents (Elt F)),
    nullary main_cst_3 (constant S_ .f32 0x3F800000#32),
    unary main_cst_3 main_v128 (broadcastInDim S131072x1 ![] bcast_S_S131072x1 : (⟨S_, .f32⟩ : BufTy).Contents (Elt F) → (⟨S131072x1, .f32⟩ : BufTy).Contents (Elt F)),
    binary main_v128 main_v127 main_v129 (addf : (⟨S131072x1, .f32⟩ : BufTy).Contents (Elt F) → (⟨S131072x1, .f32⟩ : BufTy).Contents (Elt F) → (⟨S131072x1, .f32⟩ : BufTy).Contents (Elt F)),
    nullary main_cst_4 (constant S_ .f32 0x3F800000#32),
    unary main_cst_4 main_v130 (broadcastInDim S131072x1 ![] bcast_S_S131072x1 : (⟨S_, .f32⟩ : BufTy).Contents (Elt F) → (⟨S131072x1, .f32⟩ : BufTy).Contents (Elt F)),
    binary main_v130 main_v129 main_v131 (Host.divf : (⟨S131072x1, .f32⟩ : BufTy).Contents (Elt F) → (⟨S131072x1, .f32⟩ : BufTy).Contents (Elt F) → (⟨S131072x1, .f32⟩ : BufTy).Contents (Elt F)) ]

/-- The whole line: the stretches in order. -/
abbrev ops : List (HloOp τ sig (Elt F)) :=
  opsA ++ (opsB ++ (opsC ++ (opsD ++ (opsE ++ (opsF ++ opsG)))))

/-- Two lines folded one after the other are their concatenation folded. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## @main is the line

Each window of @main, the functions' definitions unfolded at their calls and sequencing reassociated, is a chain
of single steps: the stretches it covers, in order. -/

set_option maxRecDepth 8192 in
theorem main_part0_eq (c : Dev nD) : main_part0 (F := F) c = seq (opsA ++ (opsB ++ (opsC ++ opsD))) := by
  simp only [main_part0, fn_relu.body, fn_var.body, fn_where.body, bind_assoc, pure_bind]
  rfl

set_option maxRecDepth 8192 in
theorem main_part1_eq (c : Dev nD) : main_part1 (F := F) c = seq opsE := rfl

set_option maxRecDepth 8192 in
theorem main_part2_eq (c : Dev nD) : main_part2 (F := F) c = seq (opsF ++ opsG) := by
  simp only [main_part2, fn_relu.body, bind_assoc, pure_bind]
  rfl

set_option maxRecDepth 8192 in
theorem main_eq (c : Dev nD) : main (F := F) c = seq ops := by
  simp only [main, ops, main_part0_eq c, main_part1_eq c, main_part2_eq c, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..⟩
theorem opsB_sub : (opsB : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem opsC_sub : (opsC : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., reshape_bufs_sub .., unary_bufs_sub .., reshape_bufs_sub .., binary_bufs_sub ..⟩
theorem opsD_sub : (opsD : List (HloOp τ sig (Elt F))).Forall fun op => op.bufs ⊆ tcRefs τ sig :=
  ⟨unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub ..⟩
theorem opsE_sub : (opsE : List (HloOp τ sig (Elt F))).Forall fun op => op.bufs ⊆ tcRefs τ sig :=
  ⟨binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., binary_bufs_sub .., unary_bufs_sub .., reshape_bufs_sub .., binary_bufs_sub .., nullary_bufs_sub ..⟩
theorem opsF_sub : (opsF : List (HloOp τ sig (Elt F))).Forall fun op => op.bufs ⊆ tcRefs τ sig :=
  ⟨binary_bufs_sub .., unary_bufs_sub ..⟩
theorem opsG_sub : (opsG : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp opsA_sub op h, List.forall_iff_forall_mem.mp opsB_sub op h, List.forall_iff_forall_mem.mp opsC_sub op h, List.forall_iff_forall_mem.mp opsD_sub op h, List.forall_iff_forall_mem.mp opsE_sub op h, List.forall_iff_forall_mem.mp opsF_sub op h, List.forall_iff_forall_mem.mp opsG_sub op h]

/-! ## The fold, one stretch at a time

`valX V` is the device's buffer contents after the stretches up to `opsX`, from contents `V`. A buffer a stretch does
not write keeps its contents through it (`valX_keep`); the buffers still needed after a stretch hold a stage of the
composed term (`valX_‹buffer›`). -/

/-- The buffers that `opsA` writes. -/
abbrev opsA_W : List (Ref sig .tc) := [main_v0, main_v1, main_v2, main_v3, main_call0_cst, main_call0_v0, main_v4]
set_option maxRecDepth 8192 in
theorem opsA_writes : (opsA : List (HloOp τ sig (Elt F))).Forall fun op => op.writes ⊆ (opsA_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that `opsB` writes. -/
abbrev opsB_W : List (Ref sig .tc) := [main_cst, main_v5, main_v6, main_cst_0, main_v7, main_v8, main_c, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v9]
set_option maxRecDepth 8192 in
theorem opsB_writes : (opsB : List (HloOp τ sig (Elt F))).Forall fun op => op.writes ⊆ (opsB_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that `opsC` writes. -/
abbrev opsC_W : List (Ref sig .tc) := [main_v10, main_v11, main_cst_1, main_v12, main_v13, main_v14, main_v15, main_v16, main_v17, main_v18, main_v19, main_v20, main_v21, main_v22, main_v23, main_v24, main_v25, main_v26]
set_option maxRecDepth 8192 in
theorem opsC_writes : (opsC : List (HloOp τ sig (Elt F))).Forall fun op => op.writes ⊆ (opsC_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that `opsD` writes. -/
abbrev opsD_W : List (Ref sig .tc) := [main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55]
set_option maxRecDepth 8192 in
theorem opsD_writes : (opsD : List (HloOp τ sig (Elt F))).Forall fun op => op.writes ⊆ (opsD_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that `opsE` writes. -/
abbrev opsE_W : List (Ref sig .tc) := [main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_cst_2]
set_option maxRecDepth 8192 in
theorem opsE_writes : (opsE : List (HloOp τ sig (Elt F))).Forall fun op => op.writes ⊆ (opsE_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that `opsF` writes. -/
abbrev opsF_W : List (Ref sig .tc) := [main_v115, main_v116]
set_option maxRecDepth 8192 in
theorem opsF_writes : (opsF : List (HloOp τ sig (Elt F))).Forall fun op => op.writes ⊆ (opsF_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that `opsG` writes. -/
abbrev opsG_W : List (Ref sig .tc) := [main_v117, main_v118, main_v119, main_v120, main_call2_cst, main_call2_v0, main_v121, main_v122, main_v123, main_v124, main_v125, main_v126, main_v127, main_cst_3, main_v128, main_v129, main_cst_4, main_v130, main_v131]
set_option maxRecDepth 8192 in
theorem opsG_writes : (opsG : List (HloOp τ sig (Elt F))).Forall fun op => op.writes ⊆ (opsG_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The contents after `opsA`. -/
def valA (V : Valuation τ sig (Elt Ideal)) : Valuation τ sig (Elt Ideal) := after (opsA (F := Ideal)) V
theorem valA_keep (V : Valuation τ sig (Elt Ideal)) (r : Ref sig .tc) (h : r ∉ opsA_W) :
    valA V (Proc.devRef .tc r) = V (Proc.devRef .tc r) :=
  after_of_writes_sub opsA _ opsA_writes h

/-- The contents after `opsB`. -/
def valB (V : Valuation τ sig (Elt Ideal)) : Valuation τ sig (Elt Ideal) := after (opsB (F := Ideal)) (valA V)
theorem valB_keep (V : Valuation τ sig (Elt Ideal)) (r : Ref sig .tc) (h : r ∉ opsB_W) :
    valB V (Proc.devRef .tc r) = valA V (Proc.devRef .tc r) :=
  after_of_writes_sub opsB _ opsB_writes h

/-- The contents after `opsC`. -/
def valC (V : Valuation τ sig (Elt Ideal)) : Valuation τ sig (Elt Ideal) := after (opsC (F := Ideal)) (valB V)
theorem valC_keep (V : Valuation τ sig (Elt Ideal)) (r : Ref sig .tc) (h : r ∉ opsC_W) :
    valC V (Proc.devRef .tc r) = valB V (Proc.devRef .tc r) :=
  after_of_writes_sub opsC _ opsC_writes h

/-- The contents after `opsD`. -/
def valD (V : Valuation τ sig (Elt Ideal)) : Valuation τ sig (Elt Ideal) := after (opsD (F := Ideal)) (valC V)
theorem valD_keep (V : Valuation τ sig (Elt Ideal)) (r : Ref sig .tc) (h : r ∉ opsD_W) :
    valD V (Proc.devRef .tc r) = valC V (Proc.devRef .tc r) :=
  after_of_writes_sub opsD _ opsD_writes h

/-- The contents after `opsE`. -/
def valE (V : Valuation τ sig (Elt Ideal)) : Valuation τ sig (Elt Ideal) := after (opsE (F := Ideal)) (valD V)
theorem valE_keep (V : Valuation τ sig (Elt Ideal)) (r : Ref sig .tc) (h : r ∉ opsE_W) :
    valE V (Proc.devRef .tc r) = valD V (Proc.devRef .tc r) :=
  after_of_writes_sub opsE _ opsE_writes h

/-- The contents after `opsF`. -/
def valF (V : Valuation τ sig (Elt Ideal)) : Valuation τ sig (Elt Ideal) := after (opsF (F := Ideal)) (valE V)
theorem valF_keep (V : Valuation τ sig (Elt Ideal)) (r : Ref sig .tc) (h : r ∉ opsF_W) :
    valF V (Proc.devRef .tc r) = valE V (Proc.devRef .tc r) :=
  after_of_writes_sub opsF _ opsF_writes h

/-- The contents after `opsG`. -/
def valG (V : Valuation τ sig (Elt Ideal)) : Valuation τ sig (Elt Ideal) := after (opsG (F := Ideal)) (valF V)
theorem valG_keep (V : Valuation τ sig (Elt Ideal)) (r : Ref sig .tc) (h : r ∉ opsG_W) :
    valG V (Proc.devRef .tc r) = valF V (Proc.devRef .tc r) :=
  after_of_writes_sub opsG _ opsG_writes h

theorem after_ops (V : Valuation τ sig (Elt Ideal)) : after (ops (F := Ideal)) V = valG V := by
  simp only [ops, after_app]
  rfl

/-- A buffer no stretch writes keeps its launch contents to the end. -/
theorem keep_all (V : Valuation τ sig (Elt Ideal)) (r : Ref sig .tc) (hA : r ∉ opsA_W) (hB : r ∉ opsB_W) (hC : r ∉ opsC_W) (hD : r ∉ opsD_W) (hE : r ∉ opsE_W) (hF : r ∉ opsF_W) (hG : r ∉ opsG_W) :
    after (ops (F := Ideal)) V (Proc.devRef .tc r) = V (Proc.devRef .tc r) := by
  rw [after_ops, valG_keep V r hG, valF_keep V r hF, valE_keep V r hE, valD_keep V r hD, valC_keep V r hC, valB_keep V r hB,
    valA_keep V r hA]

/-! ### The stages -/

attribute [local irreducible] Host.reduceAdd

/-- After the first stretch: the rectified first layer. -/
theorem valA_v4 (V : Valuation τ sig (Elt Ideal)) : valA V (no_index (Proc.devRef .tc main_v4)) = (RefTerm.hidden (V (Proc.devRef .tc main_arg0)) (V (Proc.devRef .tc main_arg1)) (V (Proc.devRef .tc main_arg2))) := by
  unfold valA
  simp only [opsA]
  after_results_simp
  rfl

theorem valB_v4 (V : Valuation τ sig (Elt Ideal)) : valB V (no_index (Proc.devRef .tc main_v4)) = (RefTerm.hidden (V (Proc.devRef .tc main_arg0)) (V (Proc.devRef .tc main_arg1)) (V (Proc.devRef .tc main_arg2))) :=
  (valB_keep V main_v4 (by decide)).trans (valA_v4 V)

set_option maxRecDepth 8192 in
/-- After the second stretch: the row means as a column. -/
theorem valB_v8 (V : Valuation τ sig (Elt Ideal)) : valB V (no_index (Proc.devRef .tc main_v8)) = RefTerm.meanCol (RefTerm.hidden (V (Proc.devRef .tc main_arg0)) (V (Proc.devRef .tc main_arg1)) (V (Proc.devRef .tc main_arg2))) := by
  unfold valB
  simp only [opsB]
  after_results_simp
  simp only [valA_v4]
  rfl

set_option maxRecDepth 8192 in
/-- After the second stretch: the row variances as a column. -/
theorem valB_v9 (V : Valuation τ sig (Elt Ideal)) : valB V (no_index (Proc.devRef .tc main_v9)) = RefTerm.varCol (RefTerm.hidden (V (Proc.devRef .tc main_arg0)) (V (Proc.devRef .tc main_arg1)) (V (Proc.devRef .tc main_arg2))) := by
  unfold valB
  simp only [opsB]
  after_results_simp
  simp only [valA_v4]
  rfl

set_option maxRecDepth 8192 in
/-- After the third stretch: the first site's contraction of the normalised values. -/
theorem valC_v26 (V : Valuation τ sig (Elt Ideal)) : valC V (no_index (Proc.devRef .tc main_v26)) = (RefTerm.bond (RefTerm.site0 (RefTerm.normed (RefTerm.hidden (V (Proc.devRef .tc main_arg0)) (V (Proc.devRef .tc main_arg1)) (V (Proc.devRef .tc main_arg2))) (V (Proc.devRef .tc main_arg3)) (V (Proc.devRef .tc main_arg4)))) (V (Proc.devRef .tc main_arg5))) := by
  unfold valC
  simp only [opsC]
  after_results_simp
  simp only [valB_v4, valB_v8, valB_v9]
  rfl

/-- The stretches over the other sites leave it alone. -/
theorem valF_v26 (V : Valuation τ sig (Elt Ideal)) : valF V (no_index (Proc.devRef .tc main_v26)) = (RefTerm.bond (RefTerm.site0 (RefTerm.normed (RefTerm.hidden (V (Proc.devRef .tc main_arg0)) (V (Proc.devRef .tc main_arg1)) (V (Proc.devRef .tc main_arg2))) (V (Proc.devRef .tc main_arg3)) (V (Proc.devRef .tc main_arg4)))) (V (Proc.devRef .tc main_arg5))) :=
  (valF_keep V main_v26 (by decide)).trans ((valE_keep V main_v26 (by decide)).trans
    ((valD_keep V main_v26 (by decide)).trans (valC_v26 V)))

set_option maxRecDepth 8192 in
/-- After the last stretch: the result. -/
theorem valG_v131 (V : Valuation τ sig (Elt Ideal)) : valG V (no_index (Proc.devRef .tc main_v131)) =
    RefTerm.term (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg8)) (V (Proc.devRef .tc main_arg9)) (V (Proc.devRef .tc main_arg10)) (V (Proc.devRef .tc main_arg11)) := by
  unfold valG
  simp only [opsG]
  after_results_simp
  simp only [valF_v26, valF_keep V main_arg8 (by decide), valE_keep V main_arg8 (by decide)]
  rfl

/-- The result buffer after the whole line, from any contents. -/
theorem result_eq (V : Valuation τ sig (Elt Ideal)) : after (ops (F := Ideal)) V (Proc.devRef .tc main_v131) =
    RefTerm.term (V (Proc.devRef .tc main_arg0)) (V (Proc.devRef .tc main_arg1)) (V (Proc.devRef .tc main_arg2))
      (V (Proc.devRef .tc main_arg3)) (V (Proc.devRef .tc main_arg4)) (V (Proc.devRef .tc main_arg5))
      (V (Proc.devRef .tc main_arg8)) (V (Proc.devRef .tc main_arg9)) (V (Proc.devRef .tc main_arg10))
      (V (Proc.devRef .tc main_arg11)) := by
  rw [after_ops]
  exact valG_v131 V

/-! ## The run -/

/-- On every device, from any memory with zero counters: every weakly fair execution of @main terminates with the
    result buffer at the composed term of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v131) = RefTerm.term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v131).trans (result_eq _),
      (h c main_arg0).trans (keep_all _ main_arg0 (by decide) (by decide) (by decide) (by decide) (by decide) (by decide) (by decide)),
      (h c main_arg1).trans (keep_all _ main_arg1 (by decide) (by decide) (by decide) (by decide) (by decide) (by decide) (by decide)),
      (h c main_arg2).trans (keep_all _ main_arg2 (by decide) (by decide) (by decide) (by decide) (by decide) (by decide) (by decide)),
      (h c main_arg3).trans (keep_all _ main_arg3 (by decide) (by decide) (by decide) (by decide) (by decide) (by decide) (by decide)),
      (h c main_arg4).trans (keep_all _ main_arg4 (by decide) (by decide) (by decide) (by decide) (by decide) (by decide) (by decide)),
      (h c main_arg5).trans (keep_all _ main_arg5 (by decide) (by decide) (by decide) (by decide) (by decide) (by decide) (by decide)),
      (h c main_arg6).trans (keep_all _ main_arg6 (by decide) (by decide) (by decide) (by decide) (by decide) (by decide) (by decide)),
      (h c main_arg7).trans (keep_all _ main_arg7 (by decide) (by decide) (by decide) (by decide) (by decide) (by decide) (by decide)),
      (h c main_arg8).trans (keep_all _ main_arg8 (by decide) (by decide) (by decide) (by decide) (by decide) (by decide) (by decide)),
      (h c main_arg9).trans (keep_all _ main_arg9 (by decide) (by decide) (by decide) (by decide) (by decide) (by decide) (by decide)),
      (h c main_arg10).trans (keep_all _ main_arg10 (by decide) (by decide) (by decide) (by decide) (by decide) (by decide) (by decide)),
      (h c main_arg11).trans (keep_all _ main_arg11 (by decide) (by decide) (by decide) (by decide) (by decide) (by decide) (by decide))⟩)
    (run_seq scopedRefs_eq scopedSems_eq defs main (fun _ => ops) main_eq (fun _ => ops_sub) m ρ)

end Cert.ReferenceIdeal.RefRun

end
-- ==== Proof.LibBcastChain.lean ====
/-
  A vector spread over a matrix by two `broadcast_in_dim`s, read at an index.

  jnp spreads a per-row vector `d : [n]` over an `[n, c]` array as `[n] → [n,1]` (dims = [0]) then `[n,1] → [n,c]`
  (dims = [0,1]), and a per-column vector `b : [c]` as `[c] → [1,c]` (dims = [1]) then `[1,c] → [n,c]` (dims = [0,1]).
  Read at `(p, q)` the first is `d[p]` and the second `b[q]`; a scalar spread over any shape (dims = []) reads the scalar
  everywhere. Stated over literal-extent index constructors, for any extents (a unit extent included).
-/
import Idealize.ShloMosaic.Lib.Pipeline.Value
import Idealize.ShloMosaic.Lib.ValueIdx

noncomputable section

namespace Cert.Lib.BcastChain

open Idealize.ShloMosaic Idealize.ShloMosaic.ValueIdx

variable {α : Type}

/-- A vector spread over the columns by `[n] → [n,1] → [n,c]` reads, at `(p, q)`, its entry `p`. -/
theorem overCols_apply {n c : ℕ} (d : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1]) (p : Fin n) (q : Fin c) :
    broadcastInDim ⟨2, ![n, c]⟩ ![0, 1] h2 (broadcastInDim ⟨2, ![n, 1]⟩ ![0] h1 d) (ix2 p q) = d (ix1 p) := by
  rw [broadcastInDim_apply ![0, 1] h2 _ (ix2 p q) (ix2 p (0 : Fin 1)) (fun a => by
    match a with
    | ⟨0, _⟩ =>
      show p.val = if n = 1 then 0 else p.val
      split
      · have := p.isLt; omega
      · rfl
    | ⟨1, _⟩ => show 0 = if (1 : ℕ) = 1 then 0 else q.val; rw [if_pos rfl])]
  exact broadcastInDim_apply ![0] h1 d (ix2 p (0 : Fin 1)) (ix1 p) (fun a => by
    match a with
    | ⟨0, _⟩ =>
      show p.val = if n = 1 then 0 else p.val
      split
      · have := p.isLt; omega
      · rfl)

/-- A vector spread over the rows by `[c] → [1,c] → [n,c]` reads, at `(p, q)`, its entry `q`. -/
theorem overRows_apply {n c : ℕ} (b : (⟨1, ![c]⟩ : Shape).Idx → α)
    (h3 : (⟨1, ![c]⟩ : Shape).BroadcastsInDim ⟨2, ![1, c]⟩ ![1])
    (h4 : (⟨2, ![1, c]⟩ : Shape).BroadcastsInDim ⟨2, ![n, c]⟩ ![0, 1]) (p : Fin n) (q : Fin c) :
    broadcastInDim ⟨2, ![n, c]⟩ ![0, 1] h4 (broadcastInDim ⟨2, ![1, c]⟩ ![1] h3 b) (ix2 p q) = b (ix1 q) := by
  rw [broadcastInDim_apply ![0, 1] h4 _ (ix2 p q) (ix2 (0 : Fin 1) q) (fun a => by
    match a with
    | ⟨0, _⟩ => show 0 = if (1 : ℕ) = 1 then 0 else p.val; rw [if_pos rfl]
    | ⟨1, _⟩ =>
      show q.val = if c = 1 then 0 else q.val
      split
      · have := q.isLt; omega
      · rfl)]
  exact broadcastInDim_apply ![1] h3 b (ix2 (0 : Fin 1) q) (ix1 q) (fun a => by
    match a with
    | ⟨0, _⟩ =>
      show q.val = if c = 1 then 0 else q.val
      split
      · have := q.isLt; omega
      · rfl)

/-- A scalar spread over any shape reads the scalar everywhere. -/
theorem overAll_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 (fun a => a.elim0)

end Cert.Lib.BcastChain

end
-- ==== Proof.RefRead.lean ====
/-
  The reference program's result read at one batch row.

  Each stage of the reference's result term is read at an index and identified with the row function of the
  specification: the rectified first layer at (r, j) is the hidden value j of row r, the row sums kept as a column are
  the sums of the 64 values of the row, the mean and variance columns are the row's mean and biased variance (the
  variance's divisor 64 − 0 is 64 and the selection keeps the quotient because 64 is positive), the normalised array at
  (r, j) is the normalised value j by the quotient, the first site's four values are the first four normalised values,
  and the contraction, the two last layers and the spelt-out logistic function are the row's head.
-/
import proofs.«160124_j55654186221891_2_alg».proof.Proof.Spec
import proofs.«160124_j55654186221891_2_alg».proof.Proof.RefTerm
import proofs.«160124_j55654186221891_2_alg».proof.Proof.LibPlainDot
import proofs.«160124_j55654186221891_2_alg».proof.Proof.LibBcastChain
import Idealize.ShloMosaic.Lib.IdealHost
import Idealize.ShloMosaic.Lib.Pipeline.Value
import Idealize.ShloMosaic.Lib.ValueIdx

noncomputable section

namespace Cert.ReferenceIdeal.RefRead

open Cert.ReferenceIdeal Cert.ReferenceIdeal.Gen Idealize.ShloMosaic Idealize.ShloMosaic.ValueIdx

/-! ## The spreading and summing building blocks -/

/-- The rectification against the spread zero, at an index: the maximum with the word of zero. -/
theorem relu64_apply (v : FVec Ideal S131072x64 .f32) (r : Fin 131072) (j : Fin 64) :
    RefTerm.relu64 v (ix2 r j) = max (v (ix2 r j)) Cert.Mps.zero := by
  unfold RefTerm.relu64
  rw [maximumf_apply, Cert.Lib.BcastChain.overAll_apply, constant_apply]

/-- A 64-vector spread over the rows reads, at (r, j), its entry j. -/
theorem overRows_apply (b : FVec Ideal S64 .f32) (r : Fin 131072) (j : Fin 64) :
    RefTerm.overRows b (ix2 r j) = b (ix1 j) := by
  unfold RefTerm.overRows
  exact Cert.Lib.BcastChain.overRows_apply b _ _ r j

/-- A column spread over 64 columns reads, at (r, j), the column at (r, 0). -/
theorem overCols_apply (v : FVec Ideal S131072x1 .f32) (r : Fin 131072) (j : Fin 64) :
    RefTerm.overCols v (ix2 r j) = v (ix2 r (0 : Fin 1)) := by
  unfold RefTerm.overCols
  refine broadcastInDim_apply ![0, 1] _ v (ix2 r j) (ix2 r (0 : Fin 1)) fun a => ?_
  match a with
  | ⟨0, _⟩ => rfl
  | ⟨1, _⟩ => rfl

/-- A scalar spread over a column reads the scalar everywhere. -/
theorem column_apply (s : FVec Ideal S_ .f32) (r : Fin 131072) (u : Fin 1) :
    RefTerm.column s (ix2 r u) = s ix0 := by
  unfold RefTerm.column
  exact Cert.Lib.BcastChain.overAll_apply s _ _ _

/-- The row sums kept as a column read, at (r, u), the sum of the 64 values of row r: the initial value of the
    reduction is the word of zero, which is 0. -/
theorem rowSums_apply (v : FVec Ideal S131072x64 .f32) (r : Fin 131072) (u : Fin 1) :
    RefTerm.rowSums v (ix2 r u) = ∑ j : Fin 64, v (ix2 r j) := by
  unfold RefTerm.rowSums
  rw [broadcastInDim_apply ![0] _ _ (ix2 r u) (ix1 r) (fun a => by
    match a with
    | ⟨0, _⟩ => rfl)]
  rw [hostReduceAdd_apply]
  have hR : S131072x64.Reduces [1] S131072 := by decide
  rw [Ideal.hostReduceAdd_single reducesTo_S131072x64_S131072_d1 hR, constant_apply, Ideal.ofBits_zero_f32, zero_add]
  refine Finset.sum_congr rfl fun k _ => congrArg v ?_
  funext d
  apply Fin.ext
  match d with
  | ⟨0, _⟩ => rfl
  | ⟨1, _⟩ => rfl

/-! ## The first layer -/

/-- The rectified first layer at (r, j) is the hidden value j of row r. -/
theorem hidden_apply (a0 : FVec Ideal S131072x512 .f32) (a1 : FVec Ideal S512x64 .f32) (a2 : FVec Ideal S64 .f32)
    (r : Fin 131072) (j : Fin 64) :
    RefTerm.hidden a0 a1 a2 (ix2 r j)
      = Cert.Mps.hid (fun k => a0 (ix2 r k)) (fun k j => a1 (ix2 k j)) (fun j => a2 (ix1 j)) j := by
  unfold RefTerm.hidden
  rw [relu64_apply, addf_apply, overRows_apply]
  rw [show Host.dotGeneral (F := Ideal) dot_S131072x512_S512x64_S131072x64_1_0_0_1_n_n none a0 a1
      = Cert.Lib.PlainDot.rowsByCols a0 a1 from
    Cert.Lib.PlainDot.dotGeneral_eq dot_S131072x512_S512x64_S131072x64_1_0_0_1_n_n rfl none .single a0 a1]
  rfl

/-! ## The mean and the variance -/

/-- The mean column at (r, u) is the mean of row r's 64 values. -/
theorem meanCol_apply (h : FVec Ideal S131072x64 .f32) (r : Fin 131072) (u : Fin 1) :
    RefTerm.meanCol h (ix2 r u) = Cert.Mps.mean (fun j => h (ix2 r j)) := by
  unfold RefTerm.meanCol
  rw [hostDivf_apply, rowSums_apply, column_apply, constant_apply]
  rfl

/-! ## The words of 64 and of the comparison -/

/-- The word 0x42800000 is the real 64. -/
theorem c64_eq : Cert.Mps.c64 = ((64 : ℝ) : EReal) := by
  show Ideal.ofBits .f32 0x42800000#32 = ((64 : ℝ) : EReal)
  simp [Ideal.ofBits, Ideal.ieee, -EReal.coe_mul]; norm_num

/-- 64 is positive. -/
theorem c64_pos : (0 : EReal) < Cert.Mps.c64 := by
  rw [c64_eq]
  exact EReal.coe_pos.mpr (by norm_num)

/-- The variance's divisor, 64 minus the integer 0, is 64. -/
theorem divisor_eq : Cert.Mps.c64 - (((0#32 : BitVec 32).toInt : ℝ) : EReal) = Cert.Mps.c64 := by
  rw [show (0#32 : BitVec 32).toInt = 0 from rfl, Int.cast_zero, EReal.coe_zero, sub_zero]

/-- The comparison "64 is greater than zero" holds. -/
theorem cmp_c64_zero : Ideal.cmp .ogt Cert.Mps.c64 Cert.Mps.zero = 1#1 := by
  show BitVec.ofBool (decide (Cert.Mps.zero < Cert.Mps.c64)) = 1#1
  rw [show Cert.Mps.zero = (0 : EReal) from Ideal.ofBits_zero_f32, decide_eq_true c64_pos]
  rfl

/-- The variance column at (r, u) is the biased variance of row r's 64 values: the divisor is 64, and the selection
    keeps the quotient because 64 is greater than zero. -/
theorem varCol_apply (h : FVec Ideal S131072x64 .f32) (r : Fin 131072) (u : Fin 1) :
    RefTerm.varCol h (ix2 r u) = Cert.Mps.var (fun j => h (ix2 r j)) := by
  unfold RefTerm.varCol
  rw [select_apply, Cert.Lib.BcastChain.overAll_apply, cmpf_apply, subf_apply, constant_apply, constant_apply,
    sitofp_apply]
  show Scalar.select (Ideal.cmp .ogt (Cert.Mps.c64 - (((0#32 : BitVec 32).toInt : ℝ) : EReal)) Cert.Mps.zero) _ _ = _
  rw [divisor_eq, cmp_c64_zero, select_one, hostDivf_apply, rowSums_apply, column_apply, subf_apply, constant_apply,
    sitofp_apply]
  show Ideal.div _ (Cert.Mps.c64 - (((0#32 : BitVec 32).toInt : ℝ) : EReal)) = _
  rw [divisor_eq]
  unfold Cert.Mps.var
  refine congrArg (fun s => Ideal.div s Cert.Mps.c64) (Finset.sum_congr rfl fun j _ => ?_)
  rw [mulf_apply, subf_apply, overCols_apply, meanCol_apply]

/-! ## The normalisation -/

/-- The host's square root, exponential and negation at an index. -/
theorem hostSqrt_apply {s : Shape} (x : FVec Ideal s .f32) (i : s.Idx) : Host.sqrt x i = Ideal.sqrt (x i) := rfl
theorem hostExp_apply {s : Shape} (x : FVec Ideal s .f32) (i : s.Idx) : Host.exp x i = Ideal.exp (x i) := rfl
theorem hostNegf_apply {s : Shape} (x : FVec Ideal s .f32) (i : s.Idx) : Host.negf x i = -(x i) := rfl

/-- The normalised array at (r, j) is the normalised value j of row r, by the quotient. -/
theorem normed_apply (h : FVec Ideal S131072x64 .f32) (a3 a4 : FVec Ideal S64 .f32) (r : Fin 131072) (j : Fin 64) :
    RefTerm.normed h a3 a4 (ix2 r j)
      = Cert.Mps.normDiv (fun j => h (ix2 r j)) (fun j => a3 (ix1 j)) (fun j => a4 (ix1 j)) j := by
  unfold RefTerm.normed
  rw [addf_apply, mulf_apply, overRows_apply, overRows_apply, hostDivf_apply, subf_apply, overCols_apply,
    overCols_apply, meanCol_apply, hostSqrt_apply, addf_apply, varCol_apply, column_apply, constant_apply]
  rfl

/-! ## The first site -/

/-- The first site's four values of row r are the first four values of the row: the 131072×64 array seen as
    131072×16×4 reads (r, s, p) at column 4·s + p, and site 0 is s = 0. -/
theorem site0_apply (v : FVec Ideal S131072x64 .f32) (r : Fin 131072) (p : Fin 4) :
    RefTerm.site0 v (ix2 r p) = v (ix2 r (Cert.Mps.first4 p)) := by
  unfold RefTerm.site0
  refine (shapeCast_apply _ shapeCasts_S131072x1x4_S131072x4 (ix2 r p) (ix3 r (0 : Fin 1) p) (by
    rw [Shape.rowMajor_val_three, Shape.rowMajor_val_two]
    show (r.val * 1 + 0) * 4 + p.val = r.val * 4 + p.val
    omega)).trans ?_
  refine (extractStridedSlice_apply ![0, 0, 0] _ slices_S131072x16x4_S131072x1x4_0_0_0 (ix3 r (0 : Fin 1) p)
    (ix3 r (0 : Fin 16) p) (fun a => by
      match a with
      | ⟨0, _⟩ => show r.val = 0 + r.val; omega
      | ⟨1, _⟩ => show 0 = 0 + 0; omega
      | ⟨2, _⟩ => show p.val = 0 + p.val; omega)).trans ?_
  exact shapeCast_apply v shapeCasts_S131072x64_S131072x16x4 (ix3 r (0 : Fin 16) p) (ix2 r (Cert.Mps.first4 p)) (by
    rw [Shape.rowMajor_val_three, Shape.rowMajor_val_two]
    show r.val * 64 + p.val = (r.val * 16 + 0) * 4 + p.val
    omega)

/-- The contraction of the four values with the 4×32 table, at (r, q). -/
theorem bond_apply (e : FVec Ideal S131072x4 .f32) (a5 : FVec Ideal S4x32 .f32) (r : Fin 131072) (q : Fin 32) :
    RefTerm.bond e a5 (ix2 r q) = ∑ p : Fin 4, e (ix2 r p) * a5 (ix2 p q) := by
  unfold RefTerm.bond
  rw [show Host.dotGeneral (F := Ideal) dot_S131072x4_S4x32_S131072x32_1_0_0_1_n_n none e a5
      = Cert.Lib.PlainDot.rowsByCols e a5 from
    Cert.Lib.PlainDot.dotGeneral_eq dot_S131072x4_S4x32_S131072x32_1_0_0_1_n_n rfl none .single e a5]
  rfl

/-! ## The last layers and the result -/

/-- The two last layers and the spelt-out logistic function at row r: the word 0x3F800000 is 1, and
    1 / (1 + exp (−z)) is the logistic function of z by definition. -/
theorem squash_apply (c : FVec Ideal S131072x32 .f32) (a8 : FVec Ideal S32x64 .f32) (a9 : FVec Ideal S64 .f32)
    (a10 : FVec Ideal S64x1 .f32) (a11 : FVec Ideal S1 .f32) (r : Fin 131072) :
    RefTerm.squash c a8 a9 a10 a11 (ix2 r (0 : Fin 1))
      = Ideal.logistic ((∑ j : Fin 64,
          max ((∑ q : Fin 32, c (ix2 r q) * a8 (ix2 q j)) + a9 (ix1 j)) Cert.Mps.zero * a10 (ix2 j (0 : Fin 1)))
        + a11 (ix1 (0 : Fin 1))) := by
  unfold RefTerm.squash
  rw [hostDivf_apply, addf_apply, column_apply, constant_apply, Ideal.ofBits_one_f32, hostExp_apply, hostNegf_apply,
    addf_apply, Cert.Lib.BcastChain.overRows_apply a11 _ _ r (0 : Fin 1)]
  rw [show Host.dotGeneral (F := Ideal) dot_S131072x64_S64x1_S131072x1_1_0_0_1_n_n none
        (RefTerm.relu64 (addf (Host.dotGeneral (F := Ideal) dot_S131072x32_S32x64_S131072x64_1_0_0_1_n_n none c a8)
          (RefTerm.overRows a9))) a10
      = Cert.Lib.PlainDot.rowsByCols
        (RefTerm.relu64 (addf (Host.dotGeneral (F := Ideal) dot_S131072x32_S32x64_S131072x64_1_0_0_1_n_n none c a8)
          (RefTerm.overRows a9))) a10 from
    Cert.Lib.PlainDot.dotGeneral_eq dot_S131072x64_S64x1_S131072x1_1_0_0_1_n_n rfl none .single _ a10]
  unfold Ideal.logistic
  refine congrArg (fun z => Ideal.div 1 (1 + Ideal.exp (-(z + a11 (ix1 (0 : Fin 1)))))) ?_
  rw [Cert.Lib.PlainDot.rowsByCols_apply]
  refine Finset.sum_congr rfl fun j _ => ?_
  show RefTerm.relu64 _ (ix2 r j) * a10 (ix2 j (0 : Fin 1)) = _
  rw [relu64_apply, addf_apply, overRows_apply]
  rw [show Host.dotGeneral (F := Ideal) dot_S131072x32_S32x64_S131072x64_1_0_0_1_n_n none c a8
      = Cert.Lib.PlainDot.rowsByCols c a8 from
    Cert.Lib.PlainDot.dotGeneral_eq dot_S131072x32_S32x64_S131072x64_1_0_0_1_n_n rfl none .single c a8]
  rfl

/-- The reference's result at row r is the row function with the normalisation by the quotient. -/
theorem term_apply (a0 : FVec Ideal S131072x512 .f32) (a1 : FVec Ideal S512x64 .f32) (a2 a3 a4 : FVec Ideal S64 .f32)
    (a5 : FVec Ideal S4x32 .f32) (a8 : FVec Ideal S32x64 .f32) (a9 : FVec Ideal S64 .f32) (a10 : FVec Ideal S64x1 .f32)
    (a11 : FVec Ideal S1 .f32) (r : Fin 131072) :
    RefTerm.term a0 a1 a2 a3 a4 a5 a8 a9 a10 a11 (ix2 r (0 : Fin 1))
      = Cert.Mps.rowDiv (fun k => a0 (ix2 r k)) (fun k j => a1 (ix2 k j)) (fun j => a2 (ix1 j)) (fun j => a3 (ix1 j))
          (fun j => a4 (ix1 j)) (fun p q => a5 (ix2 p q)) (fun q j => a8 (ix2 q j)) (fun j => a9 (ix1 j))
          (fun j => a10 (ix2 j (0 : Fin 1))) (a11 (ix1 (0 : Fin 1))) := by
  unfold RefTerm.term
  rw [squash_apply]
  have hh : (fun j => RefTerm.hidden a0 a1 a2 (ix2 r j))
      = Cert.Mps.hid (fun k => a0 (ix2 r k)) (fun k j => a1 (ix2 k j)) (fun j => a2 (ix1 j)) :=
    funext fun j => hidden_apply a0 a1 a2 r j
  have hb : ∀ q : Fin 32, RefTerm.bond (RefTerm.site0 (RefTerm.normed (RefTerm.hidden a0 a1 a2) a3 a4)) a5 (ix2 r q)
      = ∑ p : Fin 4, Cert.Mps.normDiv (Cert.Mps.hid (fun k => a0 (ix2 r k)) (fun k j => a1 (ix2 k j)) (fun j => a2 (ix1 j)))
          (fun j => a3 (ix1 j)) (fun j => a4 (ix1 j)) (Cert.Mps.first4 p) * a5 (ix2 p q) := fun q => by
    rw [bond_apply]
    refine Finset.sum_congr rfl fun p _ => ?_
    rw [site0_apply, normed_apply, hh]
  unfold Cert.Mps.rowDiv Cert.Mps.head
  refine congrArg (fun z => Ideal.logistic (z + a11 (ix1 (0 : Fin 1)))) (Finset.sum_congr rfl fun j _ => ?_)
  refine congrArg (fun z => max (z + a9 (ix1 j)) Cert.Mps.zero * a10 (ix2 j (0 : Fin 1))) (Finset.sum_congr rfl fun q _ => ?_)
  rw [hb q]

end Cert.ReferenceIdeal.RefRead

end
-- ==== Proof.RefValue.lean ====
/-
  The reference's result term is the result column with the normalisation by the quotient.

  Every index of the 131072×1 result is (r, 0) for a row r, and the term read there is the row function of row r.
-/
import proofs.«160124_j55654186221891_2_alg».proof.Proof.RefRead
import proofs.«160124_j55654186221891_2_alg».proof.Proof.Out

noncomputable section

namespace Cert.ReferenceIdeal.RefValue

open Cert.ReferenceIdeal Cert.ReferenceIdeal.Gen Idealize.ShloMosaic Idealize.ShloMosaic.ValueIdx

/-- The reference's result, as a whole array, is the column of the rows' results by the quotient. -/
theorem term_eq (a0 : FVec Ideal S131072x512 .f32) (a1 : FVec Ideal S512x64 .f32) (a2 a3 a4 : FVec Ideal S64 .f32)
    (a5 : FVec Ideal S4x32 .f32) (a8 : FVec Ideal S32x64 .f32) (a9 : FVec Ideal S64 .f32) (a10 : FVec Ideal S64x1 .f32)
    (a11 : FVec Ideal S1 .f32) :
    RefTerm.term a0 a1 a2 a3 a4 a5 a8 a9 a10 a11 = Cert.Mps.outDiv a0 a1 a2 a3 a4 a5 a8 a9 a10 a11 := by
  funext i
  obtain ⟨r, u, rfl⟩ : ∃ (r : Fin 131072) (u : Fin 1), i = ix2 r u := ⟨i 0, i 1, eq_ix2 i⟩
  obtain rfl : u = 0 := Subsingleton.elim u 0
  rw [RefRead.term_apply]
  rfl

end Cert.ReferenceIdeal.RefValue

end
-- ==== Proof.Finite.lean ====
/-
  Finite inputs are real numbers.

  The precondition is a conjunction, one conjunct per argument array, each saying that every entry's absolute value is
  below the word of +∞. At the exact instance an entry is an extended real `x`, its absolute value is `max x (−x)`, and
  `max x (−x) < ⊤` excludes both infinities: `x` is a real number. Only the first three arrays (the features, the first
  layer's weights and its bias) are needed: they make the hidden values real.
-/
import proofs.«160124_j55654186221891_2_alg».proof.Pre_finite_inputs
import proofs.«160124_j55654186221891_2_alg».proof.Proof.Gen.Pre_finite_inputs
import proofs.«160124_j55654186221891_2_alg».proof.Proof.LibAggLinear
import Idealize.ShloMosaic.Lib.ReduceAll
import Idealize.ShloMosaic.Lib.ValueIdx
import Idealize.ShloMosaic.Lib.IdealHost
import Idealize.ShloMosaic.PureOps.Ideal

noncomputable section

namespace Cert.Finite

open Idealize.ShloMosaic Idealize.ShloMosaic.ValueIdx Cert.Pre_finite_inputs Cert.Pre_finite_inputs.Gen Cert.Lib.AggLinear

instance : Subsingleton S_.Idx := ⟨fun a b => funext fun d => d.elim0⟩

/-- The word 0x7F800000 is +∞. -/
theorem inf_word : Ideal.ofBits .f32 0x7F800000#32 = (⊤ : EReal) := by
  simp [Ideal.ofBits, Ideal.ieee]

/-- An extended real whose absolute value is below +∞ is a real number. -/
theorem isReal_of_abs_lt (x : EReal) (h : Ideal.cmp .olt (max x (-x)) (Ideal.ofBits .f32 0x7F800000#32) = 1#1) : IsReal x := by
  rw [inf_word] at h
  unfold Ideal.cmp at h
  induction x using EReal.rec with
  | bot => simp at h
  | coe r => exact ⟨r, rfl⟩
  | top => simp at h

/-- One conjunct of the precondition: if `all (|a| < +∞)` is true then every entry of `a` is real. -/
theorem all_real {s : Shape} {axes : List (Fin s.rank)} (a : FVec Ideal s .f32) (hb : (⟨0, ![]⟩ : Shape).BroadcastsInDim s ![])
    (hr : s.ReducesTo axes S_) (hu : 0 < S_.numel)
    (e : Host.reduce IntOp.andi (cmpf .olt (Host.absf (F := Ideal) a) (broadcastInDim s ![] hb (constant (F := Ideal) S_ .f32 0x7F800000#32)))
      (constantI S_ 1 1#1) hr hu ValueIdx.ix0 = 1#1) (i : s.Idx) : IsReal (a i) := by
  have hi := Host.reduce_andi_all _ _ hr hu ValueIdx.ix0 e i
  rw [ValueIdx.cmpf_apply, broadcastInDim_scalar_apply, ValueIdx.constant_apply] at hi
  exact isReal_of_abs_lt (a i) hi

/-- The left conjunct of a conjunction of two `i1` words. -/
theorem andL {c d : BitVec 1} (h : IntOp.andi c d = 1#1) : c = 1#1 := (IntOp.andi_eq_one.1 h).1
theorem andR {c d : BitVec 1} (h : IntOp.andi c d = 1#1) : d = 1#1 := (IntOp.andi_eq_one.1 h).2

/-- Under the precondition the features, the first layer's weights and its bias are arrays of real numbers. -/
theorem real_of_pre (a0 : FVec Ideal S131072x512 .f32) (a1 : FVec Ideal S512x64 .f32) (a2 a3 a4 : FVec Ideal S64 .f32)
    (a5 : FVec Ideal S4x32 .f32) (a6 : FVec Ideal S14x32x4x32 .f32) (a7 : FVec Ideal S32x4 .f32) (a8 : FVec Ideal S32x64 .f32)
    (a9 : FVec Ideal S64 .f32) (a10 : FVec Ideal S64x1 .f32) (a11 : FVec Ideal S1 .f32)
    (h : Cert.Pre_finite_inputs.fn (F := Ideal) a0 a1 a2 a3 a4 a5 a6 a7 a8 a9 a10 a11 = fun _ => 1#1) :
    (∀ i, IsReal (a0 i)) ∧ (∀ i, IsReal (a1 i)) ∧ (∀ i, IsReal (a2 i)) := by
  have h0 := congrFun h ValueIdx.ix0
  dsimp only [fn, fn_part1, fn_part2, fn_part3] at h0
  have x2 := andL (andL (andL (andL (andL (andL (andL (andL (andL h0))))))))
  exact ⟨all_real a0 _ _ _ (andL (andL x2)), all_real a1 _ _ _ (andR (andL x2)), all_real a2 _ _ _ (andR x2)⟩

end Cert.Finite

end
-- ==== Proof.lean ====
/-
  A batch of 131072 feature rows through a small network, computed two ways, gives one result on the extended reals.

  Each row goes through a rectified linear layer to 64 hidden values, a normalisation of those values by their mean and
  biased variance with a gain and a shift, a contraction of the first four normalised values with a 4×32 table, a second
  rectified linear layer, a last linear layer to one value and the logistic function (`Cert.Mps`, Proof/Spec.lean). The
  reference also contracts the other fifteen groups of four values, but overwrites each of those contractions with the
  first one before using it, so they never reach its result.

  The kernel program walks the batch in 32 blocks of 4096 rows, multiplies the centred hidden values by the reciprocal
  square root of variance + ε, and lays the 4096 results of a block out as 32×128; its result array is `outMul` of the
  argument arrays (Proof/KernelPay.lean: the body's value at an index; Proof/KernelValue.lean: blocks to array;
  Proof/KernelHost.lean and Proof/KernelRun.lean: the recasts around the launch). The reference divides by the square
  root instead; its result is `outDiv` of the argument arrays (Proof/RefRun.lean: its run; Proof/RefTerm.lean,
  Proof/RefRead.lean, Proof/RefValue.lean: the result read index by index). The two agree where the hidden values are
  real numbers (Proof/RowLaw.lean, Proof/Out.lean), which finite features, weights and bias guarantee
  (Proof/Finite.lean). Nothing was rewritten between the kernel and its idealisation, so that claim is trivial; the
  three frames are the programs' runs with the results dropped.
-/
import proofs.«160124_j55654186221891_2_alg».proof.Defs
import proofs.«160124_j55654186221891_2_alg».proof.Proof.Gen.Kernel
import proofs.«160124_j55654186221891_2_alg».proof.Proof.Gen.Kernel.Skeleton
import proofs.«160124_j55654186221891_2_alg».proof.Proof.Gen.Kernel.Launch
import proofs.«160124_j55654186221891_2_alg».proof.Proof.Gen.Kernel.Points
import proofs.«160124_j55654186221891_2_alg».proof.Proof.Gen.Kernel.Frame
import proofs.«160124_j55654186221891_2_alg».proof.Proof.Gen.KernelIdeal
import proofs.«160124_j55654186221891_2_alg».proof.Proof.Gen.KernelIdeal.Skeleton
import proofs.«160124_j55654186221891_2_alg».proof.Proof.Gen.KernelIdeal.Launch
import proofs.«160124_j55654186221891_2_alg».proof.Proof.Gen.KernelIdeal.Points
import proofs.«160124_j55654186221891_2_alg».proof.Proof.Gen.KernelIdeal.Frame
import proofs.«160124_j55654186221891_2_alg».proof.Proof.Gen.ReferenceIdeal
import proofs.«160124_j55654186221891_2_alg».proof.Proof.Gen.Pre_finite_inputs
import proofs.«160124_j55654186221891_2_alg».proof.Proof.KernelRun
import proofs.«160124_j55654186221891_2_alg».proof.Proof.RefRun
import proofs.«160124_j55654186221891_2_alg».proof.Proof.RefValue
import proofs.«160124_j55654186221891_2_alg».proof.Proof.Finite
import proofs.«160124_j55654186221891_2_alg».proof.Proof.Out
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program at the exact instance. -/
theorem frame_kernelIdeal : Cert.frame_KernelIdeal := fun m ρ _ => Cert.KernelIdeal.Gen.frame m ρ

/-- And the reference: its run, the result dropped. -/
theorem frame_reference : Cert.frame_ReferenceIdeal := fun m ρ _ =>
  (θ_run Cert.ReferenceIdeal.defs _ _).mono (fun _ h c => (h c).2) (Cert.ReferenceIdeal.RefRun.run m ρ)

/-- Nothing was rewritten between the kernel and its idealisation. -/
theorem preserves : Cert.preserves_Kernel_KernelIdeal := trivial

/-- From memories agreeing on finite arguments the kernel program ends at `outMul` of them and the reference at `outDiv`
    of them; finite features, weights and bias are real, where the two functions agree. -/
theorem algebraic : Cert.algebraic_KernelIdeal_ReferenceIdeal := by
  intro m ρ m' ρ' hpre hagree
  refine ⟨fun c => Cert.Mps.outMul (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Hand.run_value m ρ Cert.KernelIdeal.Pay.pay_apply, ?_⟩
  refine (θ_run Cert.ReferenceIdeal.defs _ _).mono (fun _ h c => ⟨(h c).1.trans ?_, (h c).2⟩) (Cert.ReferenceIdeal.RefRun.run m' ρ')
  obtain ⟨g0, g1, g2, g3, g4, g5, g6, g7, g8, g9, g10, g11⟩ := hagree c
  obtain ⟨h0, h1, h2⟩ := Cert.Finite.real_of_pre _ _ _ _ _ _ _ _ _ _ _ _ (hpre c)
  rw [Cert.ReferenceIdeal.RefValue.term_eq, g0, g1, g2, g3, g4, g5, g8, g9, g10, g11]
  exact (Cert.Mps.outMul_eq_outDiv h0 h1 h2 _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
